-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024x64 .f32) (main_arg8 : FVec F S64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S1024x64 .f32) (main_arg6 : FVec F S64 .f32) (main_arg7 : FVec F S1024x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x1024 .f32) (main_arg2 : FVec F S4x4096x1024 .f32) (main_arg3 : FVec F S1024x64 .f32) (main_arg4 : FVec F S64 .f32) (main_arg5 : FVec F S1024x64 .f32) (main_arg6 : FVec F S64 .f32) (main_arg7 : FVec F S1024x64 .f32) (main_arg8 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x64 : Shape := ⟨2, ![1024, 64]⟩
abbrev S64 : Shape := ⟨1, ![64]⟩
abbrev S16384x1024 : Shape := ⟨2, ![16384, 1024]⟩
abbrev S1x64 : Shape := ⟨2, ![1, 64]⟩
abbrev S16384x64 : Shape := ⟨2, ![16384, 64]⟩
abbrev S1024x1024 : Shape := ⟨2, ![1024, 1024]⟩
abbrev S4x4096x64 : Shape := ⟨3, ![4, 4096, 64]⟩
abbrev S1x4096x64 : Shape := ⟨3, ![1, 4096, 64]⟩
abbrev S1x1024x64 : Shape := ⟨3, ![1, 1024, 64]⟩
abbrev S1x4096x1 : Shape := ⟨3, ![1, 4096, 1]⟩
abbrev S1x4096x1024 : Shape := ⟨3, ![1, 4096, 1024]⟩
abbrev S1x4096 : Shape := ⟨2, ![1, 4096]⟩

abbrev nBuf : Space → Nat
  | .hbm => 22
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S16384x64, .bf16⟩
  | .hbm, ⟨16, _⟩ => ⟨S16384x64, .bf16⟩
  | .hbm, ⟨17, _⟩ => ⟨S16384x64, .bf16⟩
  | .hbm, ⟨18, _⟩ => ⟨S4x4096x64, .bf16⟩
  | .hbm, ⟨19, _⟩ => ⟨S4x4096x64, .bf16⟩
  | .hbm, ⟨20, _⟩ => ⟨S4x4096x64, .bf16⟩
  | .hbm, ⟨21, _⟩ => ⟨S4x4096x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1024x64, .bf16⟩
  | .local _ .vmem, ⟨13, _⟩ => ⟨S1024x64, .bf16⟩
  | .local _ .vmem, ⟨14, _⟩ => ⟨S1024x64, .bf16⟩
  | .local _ .vmem, ⟨15, _⟩ => ⟨S1024x64, .bf16⟩
  | .local _ .vmem, ⟨16, _⟩ => ⟨S1024x64, .bf16⟩
  | .local _ .vmem, ⟨17, _⟩ => ⟨S1024x64, .bf16⟩
  | .local _ .vmem, ⟨18, _⟩ => ⟨S1x4096x64, .bf16⟩
  | .local _ .vmem, ⟨19, _⟩ => ⟨S1x4096x64, .bf16⟩
  | .local _ .vmem, ⟨20, _⟩ => ⟨S1x1024x64, .bf16⟩
  | .local _ .vmem, ⟨21, _⟩ => ⟨S1x1024x64, .bf16⟩
  | .local _ .vmem, ⟨22, _⟩ => ⟨S1x1024x64, .bf16⟩
  | .local _ .vmem, ⟨23, _⟩ => ⟨S1x1024x64, .bf16⟩
  | .local _ .vmem, ⟨24, _⟩ => ⟨S1x4096x64, .f32⟩
  | .local _ .vmem, ⟨25, _⟩ => ⟨S1x4096x64, .f32⟩
  | .local _ .vmem, ⟨26, _⟩ => ⟨S1x4096x1, .f32⟩
  | .local _ .vmem, ⟨27, _⟩ => ⟨S1x4096x1, .f32⟩
  | .local _ .vmem, ⟨28, _⟩ => ⟨S1x4096x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x4096x1024_S16384x1024 : S4x4096x1024.ShapeCasts S16384x1024
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  packedbf16_S1024x64_S1024x64_0_0 : (Rect.unit (s := S1024x64) ![0, 0] S1024x64.size inb_S1024x64_S1024x64_0_0).PackedRows (EltTy.packing .bf16)
  shapeCasts_S16384x64_S4x4096x64 : S16384x64.ShapeCasts S4x4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S1x4096x1 : S1x4096x1.ShapeCasts S1x4096x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S1x4096x64 : S1x4096x64.ShapeCasts S1x4096x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  reduces_S1x4096x1024_S1x4096 : S1x4096x1024.Reduces [2] S1x4096
  shapeCasts_S1x4096_S1x4096x1 : S1x4096.ShapeCasts S1x4096x1
  broadcasts_S1x4096x1_S1x4096x1024 : S1x4096x1.Broadcasts S1x4096x1024
  broadcasts_S1x4096x1_S1x4096x64 : S1x4096x1.Broadcasts S1x4096x64
  dot_S1024x1024_S1024x64_S1024x64_1_0_0_1_n_n_wf : DotDims.WF S1024x1024 S1024x64 S1024x64 [1] [0] [0] [1] [] []
  dot_S1x4096x64_S1x1024x64_S1x4096x1024_2_2_1_1_0_0_wf : DotDims.WF S1x4096x64 S1x1024x64 S1x4096x1024 [2] [2] [1] [1] [0] [0]
  dot_S1x4096x1024_S1x1024x64_S1x4096x64_2_1_1_2_0_0_wf : DotDims.WF S1x4096x1024 S1x1024x64 S1x4096x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S16384x64.size a
  hwx0_9 : ∀ i : grid0.Coords, EltTy.bits .bf16 = 32 ∨ (Rect.block (s := S16384x64) S1024x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S16384x64.size a
  hwx0_10 : ∀ i : grid0.Coords, EltTy.bits .bf16 = 32 ∨ (Rect.block (s := S16384x64) S1024x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S16384x64.size a
  hwx0_11 : ∀ i : grid0.Coords, EltTy.bits .bf16 = 32 ∨ (Rect.block (s := S16384x64) S1024x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x64.size a ≤ S4x4096x64.size a
  hwx1_0 : ∀ i : grid1.Coords, EltTy.bits .bf16 = 32 ∨ (Rect.block (s := S4x4096x64) S1x4096x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x64.size a ≤ S4x4096x64.size a
  hwx1_3 : ∀ i : grid1.Coords, EltTy.bits .f32 = 32 ∨ (Rect.block (s := S4x4096x64) S1x4096x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1x4096x64_S1x1024x64_S1x4096x1024_2_2_1_1_0_0 : DotDims S1x4096x64 S1x1024x64 S1x4096x1024 where
  lhsContracting := [2]
  rhsContracting := [2]
  lhsNonContracting := [1]
  rhsNonContracting := [1]
  lhsBatch := [0]
  rhsBatch := [0]
  wf := dot_S1x4096x64_S1x1024x64_S1x4096x1024_2_2_1_1_0_0_wf
def dot_S1x4096x1024_S1x1024x64_S1x4096x64_2_1_1_2_0_0 : DotDims S1x4096x1024 S1x1024x64 S1x4096x64 where
  lhsContracting := [2]
  rhsContracting := [1]
  lhsNonContracting := [1]
  rhsNonContracting := [2]
  lhsBatch := [0]
  rhsBatch := [0]
  wf := dot_S1x4096x1024_S1x1024x64_S1x4096x64_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S1024x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S1024x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v7) S1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S64 : Shape := ⟨1, ![64]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S1x1x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S4x4096x4096, .f32⟩
  | .hbm, ⟨22, _⟩ => ⟨S_, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K.R0.lean ====
/-
  The first kernel region (the three linear projections) at a parameter `V`, the contents its arrays hold when the
  region is entered.  Each grid point reads a block of 1024 rows of the three activations, the three weight matrices
  and the three bias rows whole, and stores three blocks of 1024 rows of projected values.  What a point leaves in
  each output block is one store's payload, a function of the point's input blocks; the body's run, the proof data of
  the region and the obligation "the body at every point takes the blocks to those payloads" follow.
-/
import proofs.«122791_j2284922601686_2_alg».proof.Proof.Gen.Kernel.Launch
import proofs.«122791_j2284922601686_2_alg».proof.Proof.Gen.Kernel.Skeleton
import proofs.«122791_j2284922601686_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S1024x1024 := Rect.unit (s := S1024x1024) ![0, 0] S1024x1024.size inb_S1024x1024_S1024x1024_0_0
abbrev rW : Rect S1024x64 := Rect.unit (s := S1024x64) ![0, 0] S1024x64.size inb_S1024x64_S1024x64_0_0
abbrev rB : Rect S1x64 := Rect.unit (s := S1x64) ![0, 0] S1x64.size inb_S1x64_S1x64_0_0

/-- The query projection's block: the one store into window 9, from the activation block, the weights and the bias. -/
def out0_9 (x0 : Vec F S1024x1024 .f32) (x3 : Vec F S1024x64 .f32) (x6 : Vec F S1x64 .f32) : Vec F S1024x64 .bf16 :=
  View.canon [⟨rW, k0_pay3 (View.ld x0 rX) (View.ld x3 rW) (View.ld x6 rB)⟩]
/-- The key projection's block (window 10). -/
def out0_10 (x1 : Vec F S1024x1024 .f32) (x4 : Vec F S1024x64 .f32) (x7 : Vec F S1x64 .f32) : Vec F S1024x64 .bf16 :=
  View.canon [⟨rW, k0_pay4 (View.ld x1 rX) (View.ld x4 rW) (View.ld x7 rB)⟩]
/-- The value projection's block (window 11). -/
def out0_11 (x2 : Vec F S1024x1024 .f32) (x5 : Vec F S1024x64 .f32) (x8 : Vec F S1x64 .f32) : Vec F S1024x64 .bf16 :=
  View.canon [⟨rW, k0_pay1 (k0_pay2 (View.ld x2 rX) (View.ld x5 rW) (View.ld x8 rB))⟩]

/-- One whole-block store covers the block. -/
theorem cover0_out (p0 : Vec F S1024x64 .bf16) (y : S1024x64.Idx) :
    ∃ pc ∈ ([⟨rW, p0⟩] : List (View.Piece (Elt F) S1024x64 .bf16)), y ∈ pc.1.set :=
  View.cover_of_tiled [⟨rW, p0⟩] S1024x64.size (by rfl) y

set_option maxHeartbeats 4000000 in
/-- The body on whole staging buffers, the inputs' at read contents and the outputs' at anything, runs to the
    continuation with the inputs' as they were and each output's at its payload. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1024x64 .bf16) (harg10 : arg10.IsWhole) (arg11 : Memref sig .tc .vmem S1024x64 .bf16) (harg11 : arg11.IsWhole) (arg12 : Memref sig .tc .vmem S1024x64 .bf16) (harg12 : arg12.IsWhole)
    (x0 : Vec F S1024x1024 .f32) (x1 : Vec F S1024x1024 .f32) (x2 : Vec F S1024x1024 .f32) (x3 : Vec F S1024x64 .f32) (x4 : Vec F S1024x64 .f32) (x5 : Vec F S1024x64 .f32) (x6 : Vec F S1x64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x3 x6) ∗ owns (c : Thread nD τ) arg11 fullShare (out0_10 x1 x4 x7) ∗ owns (c : Thread nD τ) arg12 fullShare (out0_11 x2 x5 x8)) -∗ K ⟨⟩))
      ⊢ wp frame (wpE (defs₀ (F := F)) Variants.none c none) E (cc0__qkv_proj_kernel i arg1 harg1 arg2 harg2 arg3 harg3 arg4 harg4 arg5 harg5 arg6 harg6 arg7 harg7 arg8 harg8 arg9 harg9 arg10 harg10 arg11 harg11 arg12 harg12) K := by
  simp only [cc0__qkv_proj_kernel_eq_skeleton]; unfold cc0__qkv_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_out _)
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-- The proof data of the region on core `c`: the arrays as found; after the body at point `t` each input's buffer at
    its block and each output's at its payload of the point's blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 6 t)
    | ⟨10, _⟩ => out0_10 (iblk0 V c 1 t) (iblk0 V c 4 t) (iblk0 V c 7 t)
    | ⟨11, _⟩ => out0_11 (iblk0 V c 2 t) (iblk0 V c 5 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 6 t) := by dsimp only [dat0]
theorem after0_10 (c : Dev nD) (t : Fin cfg0.N) : (dat0 V c).after 10 t = out0_10 (iblk0 V c 1 t) (iblk0 V c 4 t) (iblk0 V c 7 t) := by dsimp only [dat0]
theorem after0_11 (c : Dev nD) (t : Fin cfg0.N) : (dat0 V c).after 11 t = out0_11 (iblk0 V c 2 t) (iblk0 V c 5 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The attention region at a parameter `V`: what every case of its body shares.  The grid is (batch, key block); the
  body resets its running maximum, normaliser and accumulator at key block 0, folds one key/value block in at every
  point, and divides and stores the output at key block 3.  Here: the blocks of the three operands at a point, the two
  branch conditions in closed form over the grid, where the output window is idle, and the region invariant with the
  three carried buffers spelled out.
-/
import proofs.«122791_j2284922601686_2_alg».proof.Proof.Gen.Kernel.Launch
import proofs.«122791_j2284922601686_2_alg».proof.Proof.Gen.Kernel.Skeleton
import proofs.«122791_j2284922601686_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-- "This is key block 0": the body's first branch, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key block": the body's second branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1x4096x64 .f32 := (Memref.whole cc1_stg3_0 : Memref sig .tc .vmem S1x4096x64 .f32).view
abbrev ms1_0 (t : Fin cfg1.N) : Memref sig .tc .vmem S1x4096x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x64 .f32 := win1_3.stage (cfg1.slots t 3)
abbrev hs1_3 (t : Fin cfg1.N) : (ms1_3 t).IsWhole := hstage1_3 ((cfg1.slots t 3).cast nbuf1_3)
/-- The three carried buffers: running maximum, normaliser, accumulator. -/
abbrev scM1_0 : Memref sig .tc .vmem S1x4096x1 .f32 := Memref.whole cc1_scratch0
abbrev scM1_1 : Memref sig .tc .vmem S1x4096x1 .f32 := Memref.whole cc1_scratch1
abbrev scM1_2 : Memref sig .tc .vmem S1x4096x64 .f32 := Memref.whole cc1_scratch2
abbrev VS1_0 : View sig .tc .vmem S1x4096x1 .f32 := scM1_0.view
abbrev VS1_1 : View sig .tc .vmem S1x4096x1 .f32 := scM1_1.view
abbrev VS1_2 : View sig .tc .vmem S1x4096x64 .f32 := scM1_2.view

/-- The region's invariant with the carried buffers at `T0`, `T1`, `T2`: the other region's staging buffers at
    anything, the three carried buffers as given, the generator register at some state. -/
def PhiWith (c : Dev nD) (T0 T1 T2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ T0 ∗ T1 ∗ T2) ∗ (∃ r, prngReg c r))

/-- The class invariant is that with each carried buffer at anything. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold PhiWith Pipeline.ΦA; rw [scopedRest1_eq]; simp only [scM1_0, scM1_1, scM1_2, owns_whole]; try rfl

/-- The invariant is monotone in what it says of the carried buffers. -/
theorem PhiWith_mono (c : Dev nD) {T0 T1 T2 T0' T1' T2' : sProp 𝕄} (h0 : T0 ⊢ T0') (h1 : T1 ⊢ T1') (h2 : T2 ⊢ T2') :
    PhiWith c T0 T1 T2 ⊢ PhiWith c T0' T1' T2' := by
  unfold PhiWith
  iintro ⟨⟨HR0, HR1, HR2, HR3, HR4, HR5, HR6, HR7, HR8, HR9, HR10, HR11, HR12, HR13, HR14, HR15, HR16, HR17, HS0, HS1, HS2⟩, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HS0]; · iapply h0; iexact HS0
  isplitl [HS1]; · iapply h1; iexact HS1
  iapply h2; iexact HS2

/-- Taking the carried buffers out of the invariant and putting them back. -/
theorem PhiWith_split (c : Dev nD) (T0 T1 T2 T0' T1' T2' : sProp 𝕄) :
    PhiWith c T0 T1 T2 ⊢ iprop(T0 ∗ T1 ∗ T2 ∗ (iprop(T0' ∗ T1' ∗ T2') -∗ PhiWith c T0' T1' T2')) := by
  unfold PhiWith
  iintro ⟨⟨HR0, HR1, HR2, HR3, HR4, HR5, HR6, HR7, HR8, HR9, HR10, HR11, HR12, HR13, HR14, HR15, HR16, HR17, HS0, HS1, HS2⟩, Hg⟩
  isplitl [HS0]; · iexact HS0
  isplitl [HS1]; · iexact HS1
  isplitl [HS2]; · iexact HS2
  iintro ⟨HS0, HS1, HS2⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HS0]; · iexact HS0
  isplitl [HS1]; · iexact HS1
  iexact HS2

end Cert.Kernel.Hand

end
-- ==== Proof.K.R1RunA.lean ====
/-
  The attention body's run in the case of key block 0 of a batch: the carried buffers are reset, then one block is folded in; the output window is left untouched.  The pieces each buffer ends with are found by the run itself.
-/
import proofs.«122791_j2284922601686_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output window and in the three carried buffers (last first), with the
    proof that on whole buffers — the operands' blocks at their contents, the output's at contents handed back untouched, the carried buffers at anything —
    the body runs to the continuation with the operands' as they were and each written buffer with its pieces written. -/
noncomputable def kernelRun1_A (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i)
    (x0 : Vec F S1x4096x64 .bf16) (x1 : Vec F S1x1024x64 .bf16) (x2 : Vec F S1x1024x64 .bf16) :
    Σ' (L3 : List (View.Piece (Elt F) S1x4096x64 .f32)) (LS0 : List (View.Piece (Elt F) S1x4096x1 .f32)) (LS1 : List (View.Piece (Elt F) S1x4096x1 .f32)), { LS2 : List (View.Piece (Elt F) S1x4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨[], ?_, ?_, ?_, fun xi3 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1RunB.lean ====
/-
  The attention body's run in the case of a key block that is neither the first nor the last: one block is folded into the carried buffers; the output window is left untouched.  The pieces each buffer ends with are found by the run itself.
-/
import proofs.«122791_j2284922601686_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output window and in the three carried buffers (last first), with the
    proof that on whole buffers — the operands' blocks at their contents, the output's at contents handed back untouched, the carried buffers at what the point before left —
    the body runs to the continuation with the operands' as they were and each written buffer with its pieces written. -/
noncomputable def kernelRun1_B (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i)
    (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    Σ' (L3 : List (View.Piece (Elt F) S1x4096x64 .f32)) (LS0 : List (View.Piece (Elt F) S1x4096x1 .f32)) (LS1 : List (View.Piece (Elt F) S1x4096x1 .f32)), { LS2 : List (View.Piece (Elt F) S1x4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨[], ?_, ?_, ?_, fun xi3 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1RunC.lean ====
/-
  The attention body's run in the case of the last key block: one block is folded in, then the accumulator is divided by the normaliser and stored into the output window.  The pieces each buffer ends with are found by the run itself.
-/
import proofs.«122791_j2284922601686_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output window and in the three carried buffers (last first), with the
    proof that on whole buffers — the operands' blocks at their contents, the output's at anything, the carried buffers at what the point before left —
    the body runs to the continuation with the operands' as they were and each written buffer with its pieces written. -/
noncomputable def kernelRun1_C (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i)
    (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    Σ' (L3 : List (View.Piece (Elt F) S1x4096x64 .f32)) (LS0 : List (View.Piece (Elt F) S1x4096x1 .f32)) (LS1 : List (View.Piece (Elt F) S1x4096x1 .f32)), { LS2 : List (View.Piece (Elt F) S1x4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, ?_, fun E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1.lean ====
/-
  The attention region: what each case of the body leaves in the output window and in the three carried buffers, what
  they hold after every grid point (by recursion on the point: reset at key block 0, folded at every point, the output
  stored at key block 3), the region's proof data with the carried buffers tracked in its invariant, and the body
  obligation at every point.
-/
import proofs.«122791_j2284922601686_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window (nothing is stored: a placeholder nothing consults). -/
def out1_A_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x64 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)
theorem scover1_A_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) (y : S1x4096x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1x4096x1.size (by sl_kernel_rfl) y
/-- What case A leaves in carried buffer 0: its pieces read back. -/
def sout1_A_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)
theorem scover1_A_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) (y : S1x4096x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1x4096x1.size (by sl_kernel_rfl) y
/-- What case A leaves in carried buffer 1: its pieces read back. -/
def sout1_A_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)
theorem scover1_A_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) (y : S1x4096x64.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1x4096x64.size (by sl_kernel_rfl) y
/-- What case A leaves in carried buffer 2: its pieces read back. -/
def sout1_A_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x64 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output window (nothing is stored: a placeholder nothing consults). -/
def out1_B_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)
theorem scover1_B_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1x4096x1.size (by sl_kernel_rfl) y
/-- What case B leaves in carried buffer 0: its pieces read back. -/
def sout1_B_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)
theorem scover1_B_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1x4096x1.size (by sl_kernel_rfl) y
/-- What case B leaves in carried buffer 1: its pieces read back. -/
def sout1_B_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)
theorem scover1_B_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x64.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1x4096x64.size (by sl_kernel_rfl) y
/-- What case B leaves in carried buffer 2: its pieces read back. -/
def sout1_B_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- What case C leaves in the output window: its pieces read back. -/
def out1_C_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)
theorem cover1_C_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x64.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1x4096x64.size (by sl_kernel_rfl) y
theorem scover1_C_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1x4096x1.size (by sl_kernel_rfl) y
/-- What case C leaves in carried buffer 0: its pieces read back. -/
def sout1_C_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
theorem scover1_C_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1x4096x1.size (by sl_kernel_rfl) y
/-- What case C leaves in carried buffer 1: its pieces read back. -/
def sout1_C_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
theorem scover1_C_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x64.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1x4096x64.size (by sl_kernel_rfl) y
/-- What case C leaves in carried buffer 2: its pieces read back. -/
def sout1_C_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

section
variable (V : (c : Dev nD) → (b : Ref sig .tc) → Buf (Elt F) ((c : Thread nD τ).loc b))

/-- What the output window and the three carried buffers hold after the body at position `n`: the case the closed
    forms select there, the carried buffers taken from position `n - 1`. -/
def outsAt1 (c : Dev nD) : (n : ℕ) → n < cfg1.N → Vec F S1x4096x64 .f32 × Vec F S1x4096x1 .f32 × Vec F S1x4096x1 .f32 × Vec F S1x4096x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The carried buffers at given contents. -/
abbrev PhiAt (c : Dev nD) (s0 : Vec F S1x4096x1 .f32) (s1 : Vec F S1x4096x1 .f32) (s2 : Vec F S1x4096x64 .f32) : sProp 𝕄 :=
  PhiWith c (owns (c : Thread nD τ) scM1_0 fullShare s0) (owns (c : Thread nD τ) scM1_1 fullShare s1) (owns (c : Thread nD τ) scM1_2 fullShare s2)

/-- The region invariant before position `n`: before the first point the class's (every carried buffer at anything);
    afterwards each carried buffer at what the point before left in it. -/
def PhiS (c : Dev nD) : (n : ℕ) → n ≤ cfg1.N → sProp 𝕄
  | 0, _ => Pipeline.ΦA spec1 c
  | n + 1, hn => PhiAt c (outsAt1 V c n hn).2.1 (outsAt1 V c n hn).2.2.1 (outsAt1 V c n hn).2.2.2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiAt c (outsAt1 V c n hn).2.1 (outsAt1 V c n hn).2.2.1 (outsAt1 V c n hn).2.2.2 := rfl
theorem PhiS_pos (c : Dev nD) (n : ℕ) (h : n ≤ cfg1.N) (hz : n ≠ 0) :
    PhiS V c n h = PhiAt c (outsAt1 V c (n - 1) (by omega)).2.1 (outsAt1 V c (n - 1) (by omega)).2.2.1 (outsAt1 V c (n - 1) (by omega)).2.2.2 := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the carried
    buffers at what the point before left (at anything before the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold PhiAt sout1_A_0 sout1_A_1 sout1_A_2; (try dsimp only)
      by_cases hz : t.val = 0
      ·
        rw [PhiS_castSucc V c t, PhiS_zero V c _ _ hz, PhiA1_eq]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold PhiAt out1_C_3 sout1_C_0 sout1_C_1 sout1_C_2; (try dsimp only)
      by_cases hz : t.val = 0
      · exfalso; omega
      ·
        rw [PhiS_castSucc V c t, PhiS_pos V c _ _ hz]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold PhiAt sout1_B_0 sout1_B_1 sout1_B_2; (try dsimp only)
      by_cases hz : t.val = 0
      · exfalso; omega
      ·
        rw [PhiS_castSucc V c t, PhiS_pos V c _ _ hz]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the carried buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  unfold PhiAt
  exact PhiWith_mono c (by iintro H; iexists _; iexact H) (by iintro H; iexists _; iexact H) (by iintro H; iexists _; iexact H)

end

end Cert.Kernel.Hand

end
-- ==== Proof.K.Frame.lean ====
/-
  The whole program as four segments — the reshapes of the operands, the projection region, the reshapes of the
  projections, the attention region — and its run: the contents of every buffer at each boundary as a fold from the launch
  memory, each region entered from the fold's contents and left at them, and the conclusion that every weakly fair
  execution terminates with every unscoped buffer at the last boundary's contents; in particular every argument as
  launched.
-/
import proofs.«122791_j2284922601686_2_alg».proof.Proof.K.R0
import proofs.«122791_j2284922601686_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the operands' reshapes (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the projections' reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! The arguments end as launched: no reshape and no region writes one. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := (W2_arr m ρ c 5).trans (((dat0 (V1 m ρ) c).arrAt_in 5 rfl _).trans (A_eq0 (V1 m ρ) c 5))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The projection region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Hand

end
-- ==== Proof.KI.R0.lean ====
/-
  The first kernel region (the three linear projections) at a parameter `V`, the contents its arrays hold when the
  region is entered.  Each grid point reads a block of 1024 rows of the three activations, the three weight matrices
  and the three bias rows whole, and stores three blocks of 1024 rows of projected values.  What a point leaves in
  each output block is one store's payload, a function of the point's input blocks; the body's run, the proof data of
  the region and the obligation "the body at every point takes the blocks to those payloads" follow.
-/
import proofs.«122791_j2284922601686_2_alg».proof.Proof.Gen.KernelIdeal.Launch
import proofs.«122791_j2284922601686_2_alg».proof.Proof.Gen.KernelIdeal.Skeleton
import proofs.«122791_j2284922601686_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S1024x1024 := Rect.unit (s := S1024x1024) ![0, 0] S1024x1024.size inb_S1024x1024_S1024x1024_0_0
abbrev rW : Rect S1024x64 := Rect.unit (s := S1024x64) ![0, 0] S1024x64.size inb_S1024x64_S1024x64_0_0
abbrev rB : Rect S1x64 := Rect.unit (s := S1x64) ![0, 0] S1x64.size inb_S1x64_S1x64_0_0

/-- The query projection's block: the one store into window 9, from the activation block, the weights and the bias. -/
def out0_9 (x0 : Vec F S1024x1024 .f32) (x3 : Vec F S1024x64 .f32) (x6 : Vec F S1x64 .f32) : Vec F S1024x64 .bf16 :=
  View.canon [⟨rW, k0_pay3 (View.ld x0 rX) (View.ld x3 rW) (View.ld x6 rB)⟩]
/-- The key projection's block (window 10). -/
def out0_10 (x1 : Vec F S1024x1024 .f32) (x4 : Vec F S1024x64 .f32) (x7 : Vec F S1x64 .f32) : Vec F S1024x64 .bf16 :=
  View.canon [⟨rW, k0_pay4 (View.ld x1 rX) (View.ld x4 rW) (View.ld x7 rB)⟩]
/-- The value projection's block (window 11). -/
def out0_11 (x2 : Vec F S1024x1024 .f32) (x5 : Vec F S1024x64 .f32) (x8 : Vec F S1x64 .f32) : Vec F S1024x64 .bf16 :=
  View.canon [⟨rW, k0_pay1 (k0_pay2 (View.ld x2 rX) (View.ld x5 rW) (View.ld x8 rB))⟩]

/-- One whole-block store covers the block. -/
theorem cover0_out (p0 : Vec F S1024x64 .bf16) (y : S1024x64.Idx) :
    ∃ pc ∈ ([⟨rW, p0⟩] : List (View.Piece (Elt F) S1024x64 .bf16)), y ∈ pc.1.set :=
  View.cover_of_tiled [⟨rW, p0⟩] S1024x64.size (by rfl) y

set_option maxHeartbeats 4000000 in
/-- The body on whole staging buffers, the inputs' at read contents and the outputs' at anything, runs to the
    continuation with the inputs' as they were and each output's at its payload. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1024x64 .bf16) (harg10 : arg10.IsWhole) (arg11 : Memref sig .tc .vmem S1024x64 .bf16) (harg11 : arg11.IsWhole) (arg12 : Memref sig .tc .vmem S1024x64 .bf16) (harg12 : arg12.IsWhole)
    (x0 : Vec F S1024x1024 .f32) (x1 : Vec F S1024x1024 .f32) (x2 : Vec F S1024x1024 .f32) (x3 : Vec F S1024x64 .f32) (x4 : Vec F S1024x64 .f32) (x5 : Vec F S1024x64 .f32) (x6 : Vec F S1x64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x3 x6) ∗ owns (c : Thread nD τ) arg11 fullShare (out0_10 x1 x4 x7) ∗ owns (c : Thread nD τ) arg12 fullShare (out0_11 x2 x5 x8)) -∗ K ⟨⟩))
      ⊢ wp frame (wpE (defs₀ (F := F)) Variants.none c none) E (cc0__qkv_proj_kernel i arg1 harg1 arg2 harg2 arg3 harg3 arg4 harg4 arg5 harg5 arg6 harg6 arg7 harg7 arg8 harg8 arg9 harg9 arg10 harg10 arg11 harg11 arg12 harg12) K := by
  simp only [cc0__qkv_proj_kernel_eq_skeleton]; unfold cc0__qkv_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_out _)
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-- The proof data of the region on core `c`: the arrays as found; after the body at point `t` each input's buffer at
    its block and each output's at its payload of the point's blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 6 t)
    | ⟨10, _⟩ => out0_10 (iblk0 V c 1 t) (iblk0 V c 4 t) (iblk0 V c 7 t)
    | ⟨11, _⟩ => out0_11 (iblk0 V c 2 t) (iblk0 V c 5 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 6 t) := by dsimp only [dat0]
theorem after0_10 (c : Dev nD) (t : Fin cfg0.N) : (dat0 V c).after 10 t = out0_10 (iblk0 V c 1 t) (iblk0 V c 4 t) (iblk0 V c 7 t) := by dsimp only [dat0]
theorem after0_11 (c : Dev nD) (t : Fin cfg0.N) : (dat0 V c).after 11 t = out0_11 (iblk0 V c 2 t) (iblk0 V c 5 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The attention region at a parameter `V`: what every case of its body shares.  The grid is (batch, key block); the
  body resets its running maximum, normaliser and accumulator at key block 0, folds one key/value block in at every
  point, and divides and stores the output at key block 3.  Here: the blocks of the three operands at a point, the two
  branch conditions in closed form over the grid, where the output window is idle, and the region invariant with the
  three carried buffers spelled out.
-/
import proofs.«122791_j2284922601686_2_alg».proof.Proof.Gen.KernelIdeal.Launch
import proofs.«122791_j2284922601686_2_alg».proof.Proof.Gen.KernelIdeal.Skeleton
import proofs.«122791_j2284922601686_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-- "This is key block 0": the body's first branch, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key block": the body's second branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1x4096x64 .f32 := (Memref.whole cc1_stg3_0 : Memref sig .tc .vmem S1x4096x64 .f32).view
abbrev ms1_0 (t : Fin cfg1.N) : Memref sig .tc .vmem S1x4096x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x64 .f32 := win1_3.stage (cfg1.slots t 3)
abbrev hs1_3 (t : Fin cfg1.N) : (ms1_3 t).IsWhole := hstage1_3 ((cfg1.slots t 3).cast nbuf1_3)
/-- The three carried buffers: running maximum, normaliser, accumulator. -/
abbrev scM1_0 : Memref sig .tc .vmem S1x4096x1 .f32 := Memref.whole cc1_scratch0
abbrev scM1_1 : Memref sig .tc .vmem S1x4096x1 .f32 := Memref.whole cc1_scratch1
abbrev scM1_2 : Memref sig .tc .vmem S1x4096x64 .f32 := Memref.whole cc1_scratch2
abbrev VS1_0 : View sig .tc .vmem S1x4096x1 .f32 := scM1_0.view
abbrev VS1_1 : View sig .tc .vmem S1x4096x1 .f32 := scM1_1.view
abbrev VS1_2 : View sig .tc .vmem S1x4096x64 .f32 := scM1_2.view

/-- The region's invariant with the carried buffers at `T0`, `T1`, `T2`: the other region's staging buffers at
    anything, the three carried buffers as given, the generator register at some state. -/
def PhiWith (c : Dev nD) (T0 T1 T2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ T0 ∗ T1 ∗ T2) ∗ (∃ r, prngReg c r))

/-- The class invariant is that with each carried buffer at anything. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold PhiWith Pipeline.ΦA; rw [scopedRest1_eq]; simp only [scM1_0, scM1_1, scM1_2, owns_whole]; try rfl

/-- The invariant is monotone in what it says of the carried buffers. -/
theorem PhiWith_mono (c : Dev nD) {T0 T1 T2 T0' T1' T2' : sProp 𝕄} (h0 : T0 ⊢ T0') (h1 : T1 ⊢ T1') (h2 : T2 ⊢ T2') :
    PhiWith c T0 T1 T2 ⊢ PhiWith c T0' T1' T2' := by
  unfold PhiWith
  iintro ⟨⟨HR0, HR1, HR2, HR3, HR4, HR5, HR6, HR7, HR8, HR9, HR10, HR11, HR12, HR13, HR14, HR15, HR16, HR17, HS0, HS1, HS2⟩, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HS0]; · iapply h0; iexact HS0
  isplitl [HS1]; · iapply h1; iexact HS1
  iapply h2; iexact HS2

/-- Taking the carried buffers out of the invariant and putting them back. -/
theorem PhiWith_split (c : Dev nD) (T0 T1 T2 T0' T1' T2' : sProp 𝕄) :
    PhiWith c T0 T1 T2 ⊢ iprop(T0 ∗ T1 ∗ T2 ∗ (iprop(T0' ∗ T1' ∗ T2') -∗ PhiWith c T0' T1' T2')) := by
  unfold PhiWith
  iintro ⟨⟨HR0, HR1, HR2, HR3, HR4, HR5, HR6, HR7, HR8, HR9, HR10, HR11, HR12, HR13, HR14, HR15, HR16, HR17, HS0, HS1, HS2⟩, Hg⟩
  isplitl [HS0]; · iexact HS0
  isplitl [HS1]; · iexact HS1
  isplitl [HS2]; · iexact HS2
  iintro ⟨HS0, HS1, HS2⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HS0]; · iexact HS0
  isplitl [HS1]; · iexact HS1
  iexact HS2

end Cert.KernelIdeal.Hand

end
-- ==== Proof.KI.R1RunA.lean ====
/-
  The attention body's run in the case of key block 0 of a batch: the carried buffers are reset, then one block is folded in; the output window is left untouched.  The pieces each buffer ends with are found by the run itself.
-/
import proofs.«122791_j2284922601686_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output window and in the three carried buffers (last first), with the
    proof that on whole buffers — the operands' blocks at their contents, the output's at contents handed back untouched, the carried buffers at anything —
    the body runs to the continuation with the operands' as they were and each written buffer with its pieces written. -/
noncomputable def kernelRun1_A (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i)
    (x0 : Vec F S1x4096x64 .bf16) (x1 : Vec F S1x1024x64 .bf16) (x2 : Vec F S1x1024x64 .bf16) :
    Σ' (L3 : List (View.Piece (Elt F) S1x4096x64 .f32)) (LS0 : List (View.Piece (Elt F) S1x4096x1 .f32)) (LS1 : List (View.Piece (Elt F) S1x4096x1 .f32)), { LS2 : List (View.Piece (Elt F) S1x4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨[], ?_, ?_, ?_, fun xi3 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1RunB.lean ====
/-
  The attention body's run in the case of a key block that is neither the first nor the last: one block is folded into the carried buffers; the output window is left untouched.  The pieces each buffer ends with are found by the run itself.
-/
import proofs.«122791_j2284922601686_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output window and in the three carried buffers (last first), with the
    proof that on whole buffers — the operands' blocks at their contents, the output's at contents handed back untouched, the carried buffers at what the point before left —
    the body runs to the continuation with the operands' as they were and each written buffer with its pieces written. -/
noncomputable def kernelRun1_B (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i)
    (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    Σ' (L3 : List (View.Piece (Elt F) S1x4096x64 .f32)) (LS0 : List (View.Piece (Elt F) S1x4096x1 .f32)) (LS1 : List (View.Piece (Elt F) S1x4096x1 .f32)), { LS2 : List (View.Piece (Elt F) S1x4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨[], ?_, ?_, ?_, fun xi3 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1RunC.lean ====
/-
  The attention body's run in the case of the last key block: one block is folded in, then the accumulator is divided by the normaliser and stored into the output window.  The pieces each buffer ends with are found by the run itself.
-/
import proofs.«122791_j2284922601686_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output window and in the three carried buffers (last first), with the
    proof that on whole buffers — the operands' blocks at their contents, the output's at anything, the carried buffers at what the point before left —
    the body runs to the continuation with the operands' as they were and each written buffer with its pieces written. -/
noncomputable def kernelRun1_C (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i)
    (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    Σ' (L3 : List (View.Piece (Elt F) S1x4096x64 .f32)) (LS0 : List (View.Piece (Elt F) S1x4096x1 .f32)) (LS1 : List (View.Piece (Elt F) S1x4096x1 .f32)), { LS2 : List (View.Piece (Elt F) S1x4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, ?_, fun E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1.lean ====
/-
  The attention region: what each case of the body leaves in the output window and in the three carried buffers, what
  they hold after every grid point (by recursion on the point: reset at key block 0, folded at every point, the output
  stored at key block 3), the region's proof data with the carried buffers tracked in its invariant, and the body
  obligation at every point.
-/
import proofs.«122791_j2284922601686_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window (nothing is stored: a placeholder nothing consults). -/
def out1_A_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x64 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)
theorem scover1_A_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) (y : S1x4096x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1x4096x1.size (by sl_kernel_rfl) y
/-- What case A leaves in carried buffer 0: its pieces read back. -/
def sout1_A_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)
theorem scover1_A_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) (y : S1x4096x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1x4096x1.size (by sl_kernel_rfl) y
/-- What case A leaves in carried buffer 1: its pieces read back. -/
def sout1_A_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)
theorem scover1_A_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) (y : S1x4096x64.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1x4096x64.size (by sl_kernel_rfl) y
/-- What case A leaves in carried buffer 2: its pieces read back. -/
def sout1_A_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) : Vec F S1x4096x64 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output window (nothing is stored: a placeholder nothing consults). -/
def out1_B_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)
theorem scover1_B_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1x4096x1.size (by sl_kernel_rfl) y
/-- What case B leaves in carried buffer 0: its pieces read back. -/
def sout1_B_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)
theorem scover1_B_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1x4096x1.size (by sl_kernel_rfl) y
/-- What case B leaves in carried buffer 1: its pieces read back. -/
def sout1_B_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)
theorem scover1_B_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x64.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1x4096x64.size (by sl_kernel_rfl) y
/-- What case B leaves in carried buffer 2: its pieces read back. -/
def sout1_B_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- What case C leaves in the output window: its pieces read back. -/
def out1_C_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)
theorem cover1_C_3 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x64.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1x4096x64.size (by sl_kernel_rfl) y
theorem scover1_C_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1x4096x1.size (by sl_kernel_rfl) y
/-- What case C leaves in carried buffer 0: its pieces read back. -/
def sout1_C_0 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
theorem scover1_C_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1x4096x1.size (by sl_kernel_rfl) y
/-- What case C leaves in carried buffer 1: its pieces read back. -/
def sout1_C_1 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
theorem scover1_C_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) (y : S1x4096x64.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1x4096x64.size (by sl_kernel_rfl) y
/-- What case C leaves in carried buffer 2: its pieces read back. -/
def sout1_C_2 (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) : Vec F S1x4096x64 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

section
variable (V : (c : Dev nD) → (b : Ref sig .tc) → Buf (Elt F) ((c : Thread nD τ).loc b))

/-- What the output window and the three carried buffers hold after the body at position `n`: the case the closed
    forms select there, the carried buffers taken from position `n - 1`. -/
def outsAt1 (c : Dev nD) : (n : ℕ) → n < cfg1.N → Vec F S1x4096x64 .f32 × Vec F S1x4096x1 .f32 × Vec F S1x4096x1 .f32 × Vec F S1x4096x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The carried buffers at given contents. -/
abbrev PhiAt (c : Dev nD) (s0 : Vec F S1x4096x1 .f32) (s1 : Vec F S1x4096x1 .f32) (s2 : Vec F S1x4096x64 .f32) : sProp 𝕄 :=
  PhiWith c (owns (c : Thread nD τ) scM1_0 fullShare s0) (owns (c : Thread nD τ) scM1_1 fullShare s1) (owns (c : Thread nD τ) scM1_2 fullShare s2)

/-- The region invariant before position `n`: before the first point the class's (every carried buffer at anything);
    afterwards each carried buffer at what the point before left in it. -/
def PhiS (c : Dev nD) : (n : ℕ) → n ≤ cfg1.N → sProp 𝕄
  | 0, _ => Pipeline.ΦA spec1 c
  | n + 1, hn => PhiAt c (outsAt1 V c n hn).2.1 (outsAt1 V c n hn).2.2.1 (outsAt1 V c n hn).2.2.2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiAt c (outsAt1 V c n hn).2.1 (outsAt1 V c n hn).2.2.1 (outsAt1 V c n hn).2.2.2 := rfl
theorem PhiS_pos (c : Dev nD) (n : ℕ) (h : n ≤ cfg1.N) (hz : n ≠ 0) :
    PhiS V c n h = PhiAt c (outsAt1 V c (n - 1) (by omega)).2.1 (outsAt1 V c (n - 1) (by omega)).2.2.1 (outsAt1 V c (n - 1) (by omega)).2.2.2 := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the carried
    buffers at what the point before left (at anything before the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold PhiAt sout1_A_0 sout1_A_1 sout1_A_2; (try dsimp only)
      by_cases hz : t.val = 0
      ·
        rw [PhiS_castSucc V c t, PhiS_zero V c _ _ hz, PhiA1_eq]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold PhiAt out1_C_3 sout1_C_0 sout1_C_1 sout1_C_2; (try dsimp only)
      by_cases hz : t.val = 0
      · exfalso; omega
      ·
        rw [PhiS_castSucc V c t, PhiS_pos V c _ _ hz]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold PhiAt sout1_B_0 sout1_B_1 sout1_B_2; (try dsimp only)
      by_cases hz : t.val = 0
      · exfalso; omega
      ·
        rw [PhiS_castSucc V c t, PhiS_pos V c _ _ hz]
        iintro ⟨HΦ, Ho, ⟨%d0, H0⟩, ⟨%d1, H1⟩, ⟨%d2, H2⟩, ⟨%d3, H3⟩⟩
        ihave HΦ' := (PhiWith_split c _ _ _ (owns (c : Thread nD τ) scM1_0 fullShare _) (owns (c : Thread nD τ) scM1_1 fullShare _) (owns (c : Thread nD τ) scM1_2 fullShare _)) $$ HΦ
        icases HΦ' with ⟨HS0, HS1, HS2, Hback⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hback]
        · iapply Hback
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the carried buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  unfold PhiAt
  exact PhiWith_mono c (by iintro H; iexists _; iexact H) (by iintro H; iexists _; iexact H) (by iintro H; iexists _; iexact H)

end

end Cert.KernelIdeal.Hand

end
-- ==== Proof.KI.Frame.lean ====
/-
  The whole program as four segments — the reshapes of the operands, the projection region, the reshapes of the
  projections, the attention region — and its run: the contents of every buffer at each boundary as a fold from the launch
  memory, each region entered from the fold's contents and left at them, and the conclusion that every weakly fair
  execution terminates with every unscoped buffer at the last boundary's contents; in particular every argument as
  launched.
-/
import proofs.«122791_j2284922601686_2_alg».proof.Proof.KI.R0
import proofs.«122791_j2284922601686_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the operands' reshapes (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the projections' reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! The arguments end as launched: no reshape and no region writes one. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := (W2_arr m ρ c 5).trans (((dat0 (V1 m ρ) c).arrAt_in 5 rfl _).trans (A_eq0 (V1 m ρ) c 5))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The projection region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Hand

end
-- ==== Proof.Spec.lean ====
/-
  The specification: single-head scaled dot-product attention over the reals.  Three inputs of shape [4, 4096, 1024] are
  projected by three [1024, 64] matrices plus bias rows; the scores of batch `b` are the dot products of projected query
  rows with projected key rows divided by 8 (the square root of the head width 64); each score row is turned into
  softmax weights, written without any shift — the weights `exp s_t / ∑_u exp s_u` do not depend on one — and the result
  row is the weighted average of the projected value rows.
-/
import Mathlib.Analysis.SpecialFunctions.Exp
import Mathlib.Algebra.BigOperators.Fin

namespace AttnSpec

open Finset

/-- A linear projection with bias: `X · W + b`, per batch and row. -/
noncomputable def proj (X : Fin 4 → Fin 4096 → Fin 1024 → ℝ) (W : Fin 1024 → Fin 64 → ℝ) (b : Fin 64 → ℝ)
    (n : Fin 4) (s : Fin 4096) (d : Fin 64) : ℝ :=
  (∑ k : Fin 1024, X n s k * W k d) + b d

/-- The scaled score of query row `s` against key row `t` in batch `n`. -/
noncomputable def score (q k : Fin 4 → Fin 4096 → Fin 64 → ℝ) (n : Fin 4) (s t : Fin 4096) : ℝ :=
  (∑ d : Fin 64, q n s d * k n t d) / 8

/-- Softmax-weighted average of the value rows. -/
noncomputable def attn (q k v : Fin 4 → Fin 4096 → Fin 64 → ℝ) (n : Fin 4) (s : Fin 4096) (d : Fin 64) : ℝ :=
  (∑ t : Fin 4096, Real.exp (score q k n s t) * v n t d) / ∑ t : Fin 4096, Real.exp (score q k n s t)

/-- The whole head. -/
noncomputable def head (Q K V : Fin 4 → Fin 4096 → Fin 1024 → ℝ) (Wq : Fin 1024 → Fin 64 → ℝ) (bq : Fin 64 → ℝ)
    (Wk : Fin 1024 → Fin 64 → ℝ) (bk : Fin 64 → ℝ) (Wv : Fin 1024 → Fin 64 → ℝ) (bv : Fin 64 → ℝ) :
    Fin 4 → Fin 4096 → Fin 64 → ℝ :=
  attn (proj Q Wq bq) (proj K Wk bk) (proj V Wv bv)

end AttnSpec
-- ==== Proof.KI.QkvValue.lean ====
/-
  What the three projections hold when the attention region is entered.

  The projection region's grid has 16 points; point `t` reads rows `1024·t … 1024·t + 1023` of each of the three
  activation arrays (16384 rows of 1024 entries: the [4, 4096, 1024] operands with their two leading axes merged), the
  three [1024, 64] weight matrices and the three [1, 64] bias rows whole, and stores for each projection the 1024 rows
  `x · W + b`.  At the extended reals a change of float format is the identity and a matmul onto a zero accumulator is
  the sum of products, so each stored element is `(∑ k, x r k · W k d) + b 0 d`.  The blocks of the 16 points tile the
  16384 rows (row `R` lies in the block of point `R / 1024`), so after the region each projection's array is one
  function of the arrays the region found: row `R`, column `d` holds `(∑ k, A R k · W k d) + b 0 d`.  The reshapes
  before the region send entry `(n, s, k)` of an operand to row `4096·n + s`, and a bias entry `d` to `(0, d)`; the
  reshapes after it send row `4096·n + s` of a projection to entry `(n, s)`.  With real operands the sum of products
  of real numbers is the real sum of products, which is the specification's linear projection.
-/
import proofs.«122791_j2284922601686_2_alg».proof.Proof.KI.Frame
import proofs.«122791_j2284922601686_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

/-! ## The body's arithmetic at an index -/

/-- The matmul's left operand index at output `(r, d)` and contraction coordinate `q` is `(r, q)` … -/
theorem mm_lhs0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem mm_lhs1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- … and the right operand's is `(q, d)`. -/
theorem mm_rhs0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem mm_rhs1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The matmul onto a zero accumulator at `(r, d)`: row `r` of the left operand against column `d` of the right. -/
theorem mm_apply (a : FVec Ideal S1024x1024 .bf16) (b : FVec Ideal S1024x64 .bf16) (r : Fin 1024) (d : Fin 64) :
    (matmul dot_S1024x1024_S1024x64_S1024x64_1_0_0_1_n_n none a b (constant (F := Ideal) S1024x64 .f32 0x00000000#32) : FVec Ideal S1024x64 .f32) (ix2 r d)
      = ∑ k : Fin 1024, a (ix2 r k) * b (ix2 k d) := by
  refine (Ideal.matmul_constant_zero_apply dot_S1024x1024_S1024x64_S1024x64_1_0_0_1_n_n none a b (ix2 r d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d) ((contrEquiv1 dot_S1024x1024_S1024x64_S1024x64_1_0_0_1_n_n 1024 rfl rfl).symm k) = ix2 r k := funext fun a => Fin.ext (by
    match a with
    | ⟨0, _⟩ => exact mm_lhs0 _ _
    | ⟨1, _⟩ => exact (mm_lhs1 _ _).trans hk)
  have er : dot_S1024x1024_S1024x64_S1024x64_1_0_0_1_n_n.rhsIdx (ix2 r d) ((contrEquiv1 dot_S1024x1024_S1024x64_S1024x64_1_0_0_1_n_n 1024 rfl rfl).symm k) = ix2 k d := funext fun a => Fin.ext (by
    match a with
    | ⟨0, _⟩ => exact (mm_rhs0 _ _).trans hk
    | ⟨1, _⟩ => exact mm_rhs1 _ _)
  rw [el, er]

/-- The bias row broadcast down the rows, at `(r, d)`: the row's entry `d`. -/
theorem bias_apply (x6 : Vec Ideal S1x64 .f32) (r : Fin 1024) (d : Fin 64) :
    (broadcastTo S1024x64 (shapeCast S1x64 x6 shapeCasts_S1x64_S1x64) broadcasts_S1x64_S1024x64 : FVec Ideal S1024x64 .f32) (ix2 r d) = x6 (ix2 0 d) := by
  rw [shapeCast_self]
  refine broadcastTo_apply x6 broadcasts_S1x64_S1024x64 (ix2 r d) (ix2 0 d) fun a => ?_
  match a with
  | ⟨0, _⟩ => rfl
  | ⟨1, _⟩ => rfl

/-- The query projection's stored value at `(r, d)`. -/
theorem pay3_apply (x0 : Vec Ideal S1024x1024 .f32) (x3 : Vec Ideal S1024x64 .f32) (x6 : Vec Ideal S1x64 .f32) (r : Fin 1024) (d : Fin 64) :
    (k0_pay3 (F := Ideal) x0 x3 x6 : FVec Ideal S1024x64 .bf16) (ix2 r d) = (∑ k : Fin 1024, x0 (ix2 r k) * x3 (ix2 k d)) + x6 (ix2 0 d) := by
  unfold k0_pay3
  show (matmul dot_S1024x1024_S1024x64_S1024x64_1_0_0_1_n_n none (truncf .bf16 (shapeCast S1024x1024 x0 shapeCasts_S1024x1024_S1024x1024) bitsLt_bf16_f32) (truncf .bf16 x3 bitsLt_bf16_f32) (constant (F := Ideal) S1024x64 .f32 0x00000000#32) : FVec Ideal S1024x64 .f32) (ix2 r d) + (broadcastTo S1024x64 (shapeCast S1x64 x6 shapeCasts_S1x64_S1x64) broadcasts_S1x64_S1024x64 : FVec Ideal S1024x64 .f32) (ix2 r d) = _
  refine (congrArg₂ (· + ·) (mm_apply _ _ r d) (bias_apply x6 r d)).trans ?_
  rw [shapeCast_self]
  rfl

/-- The key projection's stored value at `(r, d)`. -/
theorem pay4_apply (x1 : Vec Ideal S1024x1024 .f32) (x4 : Vec Ideal S1024x64 .f32) (x7 : Vec Ideal S1x64 .f32) (r : Fin 1024) (d : Fin 64) :
    (k0_pay4 (F := Ideal) x1 x4 x7 : FVec Ideal S1024x64 .bf16) (ix2 r d) = (∑ k : Fin 1024, x1 (ix2 r k) * x4 (ix2 k d)) + x7 (ix2 0 d) := by
  unfold k0_pay4
  show (matmul dot_S1024x1024_S1024x64_S1024x64_1_0_0_1_n_n none (truncf .bf16 (shapeCast S1024x1024 x1 shapeCasts_S1024x1024_S1024x1024) bitsLt_bf16_f32) (truncf .bf16 x4 bitsLt_bf16_f32) (constant (F := Ideal) S1024x64 .f32 0x00000000#32) : FVec Ideal S1024x64 .f32) (ix2 r d) + (broadcastTo S1024x64 (shapeCast S1x64 x7 shapeCasts_S1x64_S1x64) broadcasts_S1x64_S1024x64 : FVec Ideal S1024x64 .f32) (ix2 r d) = _
  refine (congrArg₂ (· + ·) (mm_apply _ _ r d) (bias_apply x7 r d)).trans ?_
  rw [shapeCast_self]
  rfl

/-- The value projection's stored value at `(r, d)`. -/
theorem pay12_apply (x2 : Vec Ideal S1024x1024 .f32) (x5 : Vec Ideal S1024x64 .f32) (x8 : Vec Ideal S1x64 .f32) (r : Fin 1024) (d : Fin 64) :
    (k0_pay1 (F := Ideal) (k0_pay2 (F := Ideal) x2 x5 x8) : FVec Ideal S1024x64 .bf16) (ix2 r d) = (∑ k : Fin 1024, x2 (ix2 r k) * x5 (ix2 k d)) + x8 (ix2 0 d) := by
  unfold k0_pay1 k0_pay2
  show (matmul dot_S1024x1024_S1024x64_S1024x64_1_0_0_1_n_n none (truncf .bf16 (shapeCast S1024x1024 x2 shapeCasts_S1024x1024_S1024x1024) bitsLt_bf16_f32) (truncf .bf16 x5 bitsLt_bf16_f32) (constant (F := Ideal) S1024x64 .f32 0x00000000#32) : FVec Ideal S1024x64 .f32) (ix2 r d) + (broadcastTo S1024x64 (shapeCast S1x64 x8 shapeCasts_S1x64_S1x64) broadcasts_S1x64_S1024x64 : FVec Ideal S1024x64 .f32) (ix2 r d) = _
  refine (congrArg₂ (· + ·) (mm_apply _ _ r d) (bias_apply x8 r d)).trans ?_
  rw [shapeCast_self]
  rfl

/-! ## From blocks to the array -/

theorem hz2 : (![0, 0] : Fin 2 → Nat) = fun _ => 0 := funext fun a => by fin_cases a <;> rfl

/-- One projection of a whole array of 16384 rows: row `R` against column `d` of the weights, plus the bias' entry `d`. -/
def projArr (A : S16384x1024.Idx → EReal) (W : S1024x64.Idx → EReal) (b : S1x64.Idx → EReal) : S16384x64.Idx → EReal :=
  fun i => (∑ k : Fin 1024, A (ix2 (⟨(i 0).val, (i 0).isLt⟩ : Fin 16384) k) * W (ix2 k (⟨(i 1).val, (i 1).isLt⟩ : Fin 64))) + b (ix2 (0 : Fin 1) (⟨(i 1).val, (i 1).isLt⟩ : Fin 64))

theorem projArr_apply (A : S16384x1024.Idx → EReal) (W : S1024x64.Idx → EReal) (b : S1x64.Idx → EReal) (R : Fin 16384) (d : Fin 64) :
    projArr A W b (ix2 R d) = (∑ k : Fin 1024, A (ix2 R k) * W (ix2 k d)) + b (ix2 0 d) := rfl

/-- A stored value that is the projection of the point's blocks — rows `1024·T …` of `A`, all of `W`, all of `b` —
    is the whole projection at the array index those rows and that column name. -/
theorem block_eq (P : Vec Ideal S1024x1024 .f32 → Vec Ideal S1024x64 .f32 → Vec Ideal S1x64 .f32 → FVec Ideal S1024x64 .bf16)
    (hP : ∀ x0 x3 x6 (r : Fin 1024) (d : Fin 64), P x0 x3 x6 (ix2 r d) = (∑ k : Fin 1024, x0 (ix2 r k) * x3 (ix2 k d)) + x6 (ix2 0 d))
    (x0 : Vec Ideal S1024x1024 .f32) (x3 : Vec Ideal S1024x64 .f32) (x6 : Vec Ideal S1x64 .f32)
    (A : S16384x1024.Idx → EReal) (W : S1024x64.Idx → EReal) (b : S1x64.Idx → EReal) (T : Nat)
    (h0 : ∀ (r k : Fin 1024) (i : S16384x1024.Idx), (i 0).val = T * 1024 + r.val → (i 1).val = k.val → x0 (ix2 r k) = A i)
    (h3 : ∀ (k : Fin 1024) (d : Fin 64) (i : S1024x64.Idx), (i 0).val = k.val → (i 1).val = d.val → x3 (ix2 k d) = W i)
    (h6 : ∀ (d : Fin 64) (i : S1x64.Idx), (i 1).val = d.val → x6 (ix2 0 d) = b i)
    (r : Fin 1024) (d : Fin 64) (i : S16384x64.Idx) (hi0 : (i 0).val = T * 1024 + r.val) (hi1 : (i 1).val = d.val) :
    P x0 x3 x6 (ix2 r d) = projArr A W b i := by
  rw [hP]
  unfold projArr
  refine congrArg₂ (· + ·) (Finset.sum_congr rfl fun k _ => congrArg₂ (· * ·) ?_ ?_) ?_
  · exact h0 r k _ hi0 rfl
  · exact h3 k d _ rfl hi1
  · exact h6 d _ hi1

section Region
variable (V : (c : Dev nD) → (b : Ref sig .tc) → Buf (Elt Ideal) ((c : Thread nD τ).loc b))

/-- The printed index maps over the grid: the row-blocked windows sit at block `(t, 0)`, the whole ones at `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Window 0's block at point `t` is rows `1024·t … 1024·t + 1023` of its array. -/
theorem iblk0_0_apply (c : Dev nD) (t : Fin cfg0.N) (r k : Fin 1024) (i : S16384x1024.Idx)
    (hi0 : (i 0).val = t.val * 1024 + r.val) (hi1 : (i 1).val = k.val) :
    (iblk0 V c 0 t : Vec Ideal S1024x1024 .f32) (ix2 r k) = (V c main_v0 : S16384x1024.Idx → EReal) i := by
  obtain ⟨⟨e0, e1⟩, -⟩ := idx_facts0 t
  unfold iblk0
  rw [View.read_apply]
  show V c main_v0 _ = V c main_v0 i
  refine congrArg _ (funext fun a => Fin.ext ?_)
  match a with
  | ⟨0, _⟩ => show win0_0.index t (0 : Fin 2) * 1024 + 1 * r.val = (i 0).val; rw [e0, hi0]; omega
  | ⟨1, _⟩ => show win0_0.index t (1 : Fin 2) * 1024 + 1 * k.val = (i 1).val; rw [e1, hi1]; omega

/-- Window 1's block at point `t` is rows `1024·t … 1024·t + 1023` of its array. -/
theorem iblk0_1_apply (c : Dev nD) (t : Fin cfg0.N) (r k : Fin 1024) (i : S16384x1024.Idx)
    (hi0 : (i 0).val = t.val * 1024 + r.val) (hi1 : (i 1).val = k.val) :
    (iblk0 V c 1 t : Vec Ideal S1024x1024 .f32) (ix2 r k) = (V c main_v1 : S16384x1024.Idx → EReal) i := by
  obtain ⟨-, ⟨e0, e1⟩, -⟩ := idx_facts0 t
  unfold iblk0
  rw [View.read_apply]
  show V c main_v1 _ = V c main_v1 i
  refine congrArg _ (funext fun a => Fin.ext ?_)
  match a with
  | ⟨0, _⟩ => show win0_1.index t (0 : Fin 2) * 1024 + 1 * r.val = (i 0).val; rw [e0, hi0]; omega
  | ⟨1, _⟩ => show win0_1.index t (1 : Fin 2) * 1024 + 1 * k.val = (i 1).val; rw [e1, hi1]; omega

/-- Window 2's block at point `t` is rows `1024·t … 1024·t + 1023` of its array. -/
theorem iblk0_2_apply (c : Dev nD) (t : Fin cfg0.N) (r k : Fin 1024) (i : S16384x1024.Idx)
    (hi0 : (i 0).val = t.val * 1024 + r.val) (hi1 : (i 1).val = k.val) :
    (iblk0 V c 2 t : Vec Ideal S1024x1024 .f32) (ix2 r k) = (V c main_v2 : S16384x1024.Idx → EReal) i := by
  obtain ⟨-, -, ⟨e0, e1⟩, -⟩ := idx_facts0 t
  unfold iblk0
  rw [View.read_apply]
  show V c main_v2 _ = V c main_v2 i
  refine congrArg _ (funext fun a => Fin.ext ?_)
  match a with
  | ⟨0, _⟩ => show win0_2.index t (0 : Fin 2) * 1024 + 1 * r.val = (i 0).val; rw [e0, hi0]; omega
  | ⟨1, _⟩ => show win0_2.index t (1 : Fin 2) * 1024 + 1 * k.val = (i 1).val; rw [e1, hi1]; omega

/-- Window 3's block at every point is its whole array, a weight matrix. -/
theorem iblk0_3_apply (c : Dev nD) (t : Fin cfg0.N) (k : Fin 1024) (d : Fin 64) (i : S1024x64.Idx)
    (hi0 : (i 0).val = k.val) (hi1 : (i 1).val = d.val) :
    (iblk0 V c 3 t : Vec Ideal S1024x64 .f32) (ix2 k d) = (V c main_arg3 : S1024x64.Idx → EReal) i := by
  obtain ⟨-, -, -, ⟨e0, e1⟩, -⟩ := idx_facts0 t
  unfold iblk0
  rw [View.read_apply]
  show V c main_arg3 _ = V c main_arg3 i
  refine congrArg _ (funext fun a => Fin.ext ?_)
  match a with
  | ⟨0, _⟩ => show win0_3.index t (0 : Fin 2) * 1024 + 1 * k.val = (i 0).val; rw [e0, hi0]; omega
  | ⟨1, _⟩ => show win0_3.index t (1 : Fin 2) * 64 + 1 * d.val = (i 1).val; rw [e1, hi1]; omega

/-- Window 4's block at every point is its whole array, a weight matrix. -/
theorem iblk0_4_apply (c : Dev nD) (t : Fin cfg0.N) (k : Fin 1024) (d : Fin 64) (i : S1024x64.Idx)
    (hi0 : (i 0).val = k.val) (hi1 : (i 1).val = d.val) :
    (iblk0 V c 4 t : Vec Ideal S1024x64 .f32) (ix2 k d) = (V c main_arg5 : S1024x64.Idx → EReal) i := by
  obtain ⟨-, -, -, -, ⟨e0, e1⟩, -⟩ := idx_facts0 t
  unfold iblk0
  rw [View.read_apply]
  show V c main_arg5 _ = V c main_arg5 i
  refine congrArg _ (funext fun a => Fin.ext ?_)
  match a with
  | ⟨0, _⟩ => show win0_4.index t (0 : Fin 2) * 1024 + 1 * k.val = (i 0).val; rw [e0, hi0]; omega
  | ⟨1, _⟩ => show win0_4.index t (1 : Fin 2) * 64 + 1 * d.val = (i 1).val; rw [e1, hi1]; omega

/-- Window 5's block at every point is its whole array, a weight matrix. -/
theorem iblk0_5_apply (c : Dev nD) (t : Fin cfg0.N) (k : Fin 1024) (d : Fin 64) (i : S1024x64.Idx)
    (hi0 : (i 0).val = k.val) (hi1 : (i 1).val = d.val) :
    (iblk0 V c 5 t : Vec Ideal S1024x64 .f32) (ix2 k d) = (V c main_arg7 : S1024x64.Idx → EReal) i := by
  obtain ⟨-, -, -, -, -, ⟨e0, e1⟩, -⟩ := idx_facts0 t
  unfold iblk0
  rw [View.read_apply]
  show V c main_arg7 _ = V c main_arg7 i
  refine congrArg _ (funext fun a => Fin.ext ?_)
  match a with
  | ⟨0, _⟩ => show win0_5.index t (0 : Fin 2) * 1024 + 1 * k.val = (i 0).val; rw [e0, hi0]; omega
  | ⟨1, _⟩ => show win0_5.index t (1 : Fin 2) * 64 + 1 * d.val = (i 1).val; rw [e1, hi1]; omega

/-- Window 6's block at every point is its whole array, one bias row. -/
theorem iblk0_6_apply (c : Dev nD) (t : Fin cfg0.N) (d : Fin 64) (i : S1x64.Idx) (hi1 : (i 1).val = d.val) :
    (iblk0 V c 6 t : Vec Ideal S1x64 .f32) (ix2 0 d) = (V c main_v3 : S1x64.Idx → EReal) i := by
  obtain ⟨-, -, -, -, -, -, ⟨e0, e1⟩, -⟩ := idx_facts0 t
  have hi0 : (i 0).val = 0 := by have : (i 0).val < 1 := (i 0).isLt; omega
  unfold iblk0
  rw [View.read_apply]
  show V c main_v3 _ = V c main_v3 i
  refine congrArg _ (funext fun a => Fin.ext ?_)
  match a with
  | ⟨0, _⟩ => show win0_6.index t (0 : Fin 2) * 1 + 1 * 0 = (i 0).val; rw [e0, hi0]
  | ⟨1, _⟩ => show win0_6.index t (1 : Fin 2) * 64 + 1 * d.val = (i 1).val; rw [e1, hi1]; omega

/-- Window 7's block at every point is its whole array, one bias row. -/
theorem iblk0_7_apply (c : Dev nD) (t : Fin cfg0.N) (d : Fin 64) (i : S1x64.Idx) (hi1 : (i 1).val = d.val) :
    (iblk0 V c 7 t : Vec Ideal S1x64 .f32) (ix2 0 d) = (V c main_v4 : S1x64.Idx → EReal) i := by
  obtain ⟨-, -, -, -, -, -, -, ⟨e0, e1⟩, -⟩ := idx_facts0 t
  have hi0 : (i 0).val = 0 := by have : (i 0).val < 1 := (i 0).isLt; omega
  unfold iblk0
  rw [View.read_apply]
  show V c main_v4 _ = V c main_v4 i
  refine congrArg _ (funext fun a => Fin.ext ?_)
  match a with
  | ⟨0, _⟩ => show win0_7.index t (0 : Fin 2) * 1 + 1 * 0 = (i 0).val; rw [e0, hi0]
  | ⟨1, _⟩ => show win0_7.index t (1 : Fin 2) * 64 + 1 * d.val = (i 1).val; rw [e1, hi1]; omega

/-- Window 8's block at every point is its whole array, one bias row. -/
theorem iblk0_8_apply (c : Dev nD) (t : Fin cfg0.N) (d : Fin 64) (i : S1x64.Idx) (hi1 : (i 1).val = d.val) :
    (iblk0 V c 8 t : Vec Ideal S1x64 .f32) (ix2 0 d) = (V c main_v5 : S1x64.Idx → EReal) i := by
  obtain ⟨-, -, -, -, -, -, -, -, ⟨e0, e1⟩, -⟩ := idx_facts0 t
  have hi0 : (i 0).val = 0 := by have : (i 0).val < 1 := (i 0).isLt; omega
  unfold iblk0
  rw [View.read_apply]
  show V c main_v5 _ = V c main_v5 i
  refine congrArg _ (funext fun a => Fin.ext ?_)
  match a with
  | ⟨0, _⟩ => show win0_8.index t (0 : Fin 2) * 1 + 1 * 0 = (i 0).val; rw [e0, hi0]
  | ⟨1, _⟩ => show win0_8.index t (1 : Fin 2) * 64 + 1 * d.val = (i 1).val; rw [e1, hi1]; omega

/-- What point `t` writes back to the query projection's array is block `t` of the whole projection. -/
theorem flushed0_9_eq (c : Dev nD) (t : Fin cfg0.N) :
    (dat0 V c).flushed 9 t = ((cfg0.win 9).blk t).view.read (Elt Ideal) (projArr (V c main_v0) (V c main_arg3) (V c main_v3)) := by
  show (cfg0.win 9).cut (grid0.coords t) ((dat0 V c).after 9 t) = _
  rw [after0_9]
  unfold out0_9
  rw [View.canon_unit_zero hz2]
  simp only [View.ld_unit_zero (S := S1024x1024) hz2, View.ld_unit_zero (S := S1024x64) hz2, View.ld_unit_zero (S := S1x64) hz2]
  obtain ⟨-, -, -, -, -, -, -, -, -, ⟨e0, e1⟩, -⟩ := idx_facts0 t
  funext j
  obtain ⟨r, d, rfl⟩ : ∃ (r : Fin 1024) (d : Fin 64), j = ix2 r d := ⟨j 0, j 1, eq_ix2 j⟩
  rw [View.read_apply]
  refine block_eq k0_pay3 pay3_apply (iblk0 V c 0 t) (iblk0 V c 3 t) (iblk0 V c 6 t) (V c main_v0) (V c main_arg3) (V c main_v3) t.val
    (iblk0_0_apply V c t) (iblk0_3_apply V c t) (iblk0_6_apply V c t) r d _ ?_ ?_
  · show win0_9.index t (0 : Fin 2) * 1024 + 1 * r.val = t.val * 1024 + r.val; rw [e0]; omega
  · show win0_9.index t (1 : Fin 2) * 64 + 1 * d.val = d.val; rw [e1]; omega

/-- An index of the query projection's array is in point `t`'s block iff each coordinate is in the block's range. -/
theorem mem_blk0_9 (t : Fin cfg0.N) (i : S16384x64.Idx) :
    i ∈ ((cfg0.win 9).blk t).view.set ↔ ∀ a : Fin 2, win0_9.index t a * S1024x64.size a ≤ (i a).val ∧ (i a).val < win0_9.index t a * S1024x64.size a + S1024x64.size a := by
  show i ∈ ((View.whole main_v6_0).slice (win0_9.rect t)).set ↔ _
  rw [View.set_slice_whole, Rect.mem_set_unit]
  exact Iff.rfl

/-- Row `R` of the query projection is in the block of point `R / 1024`. -/
theorem cover0_9 (i : S16384x64.Idx) : ∃ t : Fin cfg0.N, (cfg0.win 9).flush t = true ∧ i ∈ ((cfg0.win 9).blk t).view.set := by
  have h0 : (i 0).val < 16384 := (i 0).isLt
  have h1 : (i 1).val < 64 := (i 1).isLt
  have hN : grid0.N = 16 := N_0
  let t : Fin cfg0.N := ⟨(i 0).val / 1024, by show (i 0).val / 1024 < grid0.N; omega⟩
  obtain ⟨-, -, -, -, -, -, -, -, -, ⟨e0, e1⟩, -⟩ := idx_facts0 t
  refine ⟨t, flush0_9 t, ?_⟩
  rw [mem_blk0_9]
  intro a
  match a with
  | ⟨0, _⟩ => show win0_9.index t (0 : Fin 2) * 1024 ≤ (i 0).val ∧ (i 0).val < win0_9.index t (0 : Fin 2) * 1024 + 1024
              rw [e0]; show (i 0).val / 1024 * 1024 ≤ (i 0).val ∧ (i 0).val < (i 0).val / 1024 * 1024 + 1024; omega
  | ⟨1, _⟩ => show win0_9.index t (1 : Fin 2) * 64 ≤ (i 1).val ∧ (i 1).val < win0_9.index t (1 : Fin 2) * 64 + 64
              rw [e1]; omega

/-- The query projection's array after the region: the whole projection of the arrays the region found. -/
theorem final0_9 (c : Dev nD) : (dat0 V c).arrAt 9 cfg0.N = projArr (V c main_v0) (V c main_arg3) (V c main_v3) :=
  (dat0 V c).arrAt_eq_of_cover 9 (projArr (V c main_v0) (V c main_arg3) (V c main_v3)) (fun t _ => flushed0_9_eq V c t) cover0_9

/-- What point `t` writes back to the key projection's array is block `t` of the whole projection. -/
theorem flushed0_10_eq (c : Dev nD) (t : Fin cfg0.N) :
    (dat0 V c).flushed 10 t = ((cfg0.win 10).blk t).view.read (Elt Ideal) (projArr (V c main_v1) (V c main_arg5) (V c main_v4)) := by
  show (cfg0.win 10).cut (grid0.coords t) ((dat0 V c).after 10 t) = _
  rw [after0_10]
  unfold out0_10
  rw [View.canon_unit_zero hz2]
  simp only [View.ld_unit_zero (S := S1024x1024) hz2, View.ld_unit_zero (S := S1024x64) hz2, View.ld_unit_zero (S := S1x64) hz2]
  obtain ⟨-, -, -, -, -, -, -, -, -, -, ⟨e0, e1⟩, -⟩ := idx_facts0 t
  funext j
  obtain ⟨r, d, rfl⟩ : ∃ (r : Fin 1024) (d : Fin 64), j = ix2 r d := ⟨j 0, j 1, eq_ix2 j⟩
  rw [View.read_apply]
  refine block_eq k0_pay4 pay4_apply (iblk0 V c 1 t) (iblk0 V c 4 t) (iblk0 V c 7 t) (V c main_v1) (V c main_arg5) (V c main_v4) t.val
    (iblk0_1_apply V c t) (iblk0_4_apply V c t) (iblk0_7_apply V c t) r d _ ?_ ?_
  · show win0_10.index t (0 : Fin 2) * 1024 + 1 * r.val = t.val * 1024 + r.val; rw [e0]; omega
  · show win0_10.index t (1 : Fin 2) * 64 + 1 * d.val = d.val; rw [e1]; omega

/-- An index of the key projection's array is in point `t`'s block iff each coordinate is in the block's range. -/
theorem mem_blk0_10 (t : Fin cfg0.N) (i : S16384x64.Idx) :
    i ∈ ((cfg0.win 10).blk t).view.set ↔ ∀ a : Fin 2, win0_10.index t a * S1024x64.size a ≤ (i a).val ∧ (i a).val < win0_10.index t a * S1024x64.size a + S1024x64.size a := by
  show i ∈ ((View.whole main_v6_1).slice (win0_10.rect t)).set ↔ _
  rw [View.set_slice_whole, Rect.mem_set_unit]
  exact Iff.rfl

/-- Row `R` of the key projection is in the block of point `R / 1024`. -/
theorem cover0_10 (i : S16384x64.Idx) : ∃ t : Fin cfg0.N, (cfg0.win 10).flush t = true ∧ i ∈ ((cfg0.win 10).blk t).view.set := by
  have h0 : (i 0).val < 16384 := (i 0).isLt
  have h1 : (i 1).val < 64 := (i 1).isLt
  have hN : grid0.N = 16 := N_0
  let t : Fin cfg0.N := ⟨(i 0).val / 1024, by show (i 0).val / 1024 < grid0.N; omega⟩
  obtain ⟨-, -, -, -, -, -, -, -, -, -, ⟨e0, e1⟩, -⟩ := idx_facts0 t
  refine ⟨t, flush0_10 t, ?_⟩
  rw [mem_blk0_10]
  intro a
  match a with
  | ⟨0, _⟩ => show win0_10.index t (0 : Fin 2) * 1024 ≤ (i 0).val ∧ (i 0).val < win0_10.index t (0 : Fin 2) * 1024 + 1024
              rw [e0]; show (i 0).val / 1024 * 1024 ≤ (i 0).val ∧ (i 0).val < (i 0).val / 1024 * 1024 + 1024; omega
  | ⟨1, _⟩ => show win0_10.index t (1 : Fin 2) * 64 ≤ (i 1).val ∧ (i 1).val < win0_10.index t (1 : Fin 2) * 64 + 64
              rw [e1]; omega

/-- The key projection's array after the region: the whole projection of the arrays the region found. -/
theorem final0_10 (c : Dev nD) : (dat0 V c).arrAt 10 cfg0.N = projArr (V c main_v1) (V c main_arg5) (V c main_v4) :=
  (dat0 V c).arrAt_eq_of_cover 10 (projArr (V c main_v1) (V c main_arg5) (V c main_v4)) (fun t _ => flushed0_10_eq V c t) cover0_10

/-- What point `t` writes back to the value projection's array is block `t` of the whole projection. -/
theorem flushed0_11_eq (c : Dev nD) (t : Fin cfg0.N) :
    (dat0 V c).flushed 11 t = ((cfg0.win 11).blk t).view.read (Elt Ideal) (projArr (V c main_v2) (V c main_arg7) (V c main_v5)) := by
  show (cfg0.win 11).cut (grid0.coords t) ((dat0 V c).after 11 t) = _
  rw [after0_11]
  unfold out0_11
  rw [View.canon_unit_zero hz2]
  simp only [View.ld_unit_zero (S := S1024x1024) hz2, View.ld_unit_zero (S := S1024x64) hz2, View.ld_unit_zero (S := S1x64) hz2]
  obtain ⟨-, -, -, -, -, -, -, -, -, -, -, ⟨e0, e1⟩⟩ := idx_facts0 t
  funext j
  obtain ⟨r, d, rfl⟩ : ∃ (r : Fin 1024) (d : Fin 64), j = ix2 r d := ⟨j 0, j 1, eq_ix2 j⟩
  rw [View.read_apply]
  refine block_eq (fun x2 x5 x8 => k0_pay1 (k0_pay2 x2 x5 x8)) pay12_apply (iblk0 V c 2 t) (iblk0 V c 5 t) (iblk0 V c 8 t) (V c main_v2) (V c main_arg7) (V c main_v5) t.val
    (iblk0_2_apply V c t) (iblk0_5_apply V c t) (iblk0_8_apply V c t) r d _ ?_ ?_
  · show win0_11.index t (0 : Fin 2) * 1024 + 1 * r.val = t.val * 1024 + r.val; rw [e0]; omega
  · show win0_11.index t (1 : Fin 2) * 64 + 1 * d.val = d.val; rw [e1]; omega

/-- An index of the value projection's array is in point `t`'s block iff each coordinate is in the block's range. -/
theorem mem_blk0_11 (t : Fin cfg0.N) (i : S16384x64.Idx) :
    i ∈ ((cfg0.win 11).blk t).view.set ↔ ∀ a : Fin 2, win0_11.index t a * S1024x64.size a ≤ (i a).val ∧ (i a).val < win0_11.index t a * S1024x64.size a + S1024x64.size a := by
  show i ∈ ((View.whole main_v6_2).slice (win0_11.rect t)).set ↔ _
  rw [View.set_slice_whole, Rect.mem_set_unit]
  exact Iff.rfl

/-- Row `R` of the value projection is in the block of point `R / 1024`. -/
theorem cover0_11 (i : S16384x64.Idx) : ∃ t : Fin cfg0.N, (cfg0.win 11).flush t = true ∧ i ∈ ((cfg0.win 11).blk t).view.set := by
  have h0 : (i 0).val < 16384 := (i 0).isLt
  have h1 : (i 1).val < 64 := (i 1).isLt
  have hN : grid0.N = 16 := N_0
  let t : Fin cfg0.N := ⟨(i 0).val / 1024, by show (i 0).val / 1024 < grid0.N; omega⟩
  obtain ⟨-, -, -, -, -, -, -, -, -, -, -, ⟨e0, e1⟩⟩ := idx_facts0 t
  refine ⟨t, flush0_11 t, ?_⟩
  rw [mem_blk0_11]
  intro a
  match a with
  | ⟨0, _⟩ => show win0_11.index t (0 : Fin 2) * 1024 ≤ (i 0).val ∧ (i 0).val < win0_11.index t (0 : Fin 2) * 1024 + 1024
              rw [e0]; show (i 0).val / 1024 * 1024 ≤ (i 0).val ∧ (i 0).val < (i 0).val / 1024 * 1024 + 1024; omega
  | ⟨1, _⟩ => show win0_11.index t (1 : Fin 2) * 64 ≤ (i 1).val ∧ (i 1).val < win0_11.index t (1 : Fin 2) * 64 + 64
              rw [e1]; omega

/-- The value projection's array after the region: the whole projection of the arrays the region found. -/
theorem final0_11 (c : Dev nD) : (dat0 V c).arrAt 11 cfg0.N = projArr (V c main_v2) (V c main_arg7) (V c main_v5) :=
  (dat0 V c).arrAt_eq_of_cover 11 (projArr (V c main_v2) (V c main_arg7) (V c main_v5)) (fun t _ => flushed0_11_eq V c t) cover0_11

end Region

/-! ## The reshapes around the region, and the value with real operands -/

/-- The operands' reshape `[4, 4096, 1024] → [16384, 1024]`: row `4096·n + s` is entry `(n, s)`. -/
theorem reshape_rows_apply {α : Type} (X : S4x4096x1024.Idx → α) (n : Fin 4) (s : Fin 4096) (k : Fin 1024) (R : Fin 16384)
    (hR : R.val = 4096 * n.val + s.val) :
    shapeCast S16384x1024 X shapeCasts_S4x4096x1024_S16384x1024 (ix2 R k) = X (ix3 n s k) :=
  shapeCast_apply X _ _ _ (by
    rw [Shape.rowMajor_val_three, Shape.rowMajor_val_two]
    show (n.val * 4096 + s.val) * 1024 + k.val = R.val * 1024 + k.val
    rw [hR]; ring)

/-- The projections' reshape `[16384, 64] → [4, 4096, 64]`: entry `(n, s)` is row `4096·n + s`. -/
theorem reshape_heads_apply {α : Type} (X : S16384x64.Idx → α) (n : Fin 4) (s : Fin 4096) (d : Fin 64) (R : Fin 16384)
    (hR : R.val = 4096 * n.val + s.val) :
    shapeCast S4x4096x64 X shapeCasts_S16384x64_S4x4096x64 (ix3 n s d) = X (ix2 R d) :=
  shapeCast_apply X _ _ _ (by
    rw [Shape.rowMajor_val_three, Shape.rowMajor_val_two]
    show R.val * 64 + d.val = (n.val * 4096 + s.val) * 64 + d.val
    rw [hR]; ring)

/-- The sum of the coercions is the coercion of the sum. -/
theorem coe_sum_ereal {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- With real operands — row `4096·n + s` of `A` the reals `X n s ·`, `W` and `b` real — the whole projection at row
    `4096·n + s` is the specification's linear projection. -/
theorem projArr_real (A : S16384x1024.Idx → EReal) (W : S1024x64.Idx → EReal) (b : S1x64.Idx → EReal)
    (X : Fin 4 → Fin 4096 → Fin 1024 → ℝ) (Wr : Fin 1024 → Fin 64 → ℝ) (br : Fin 64 → ℝ)
    (n : Fin 4) (s : Fin 4096) (d : Fin 64) (R : Fin 16384) (hR : R.val = 4096 * n.val + s.val)
    (hA : ∀ k : Fin 1024, A (ix2 R k) = ((X n s k : ℝ) : EReal))
    (hW : ∀ k : Fin 1024, W (ix2 k d) = ((Wr k d : ℝ) : EReal)) (hb : b (ix2 0 d) = ((br d : ℝ) : EReal)) :
    projArr A W b (ix2 R d) = ((AttnSpec.proj X Wr br n s d : ℝ) : EReal) := by
  rw [projArr_apply, hb]
  unfold AttnSpec.proj
  rw [EReal.coe_add, coe_sum_ereal]
  refine congrArg (· + ((br d : ℝ) : EReal)) (Finset.sum_congr rfl fun k _ => ?_)
  rw [hA k, hW k, EReal.coe_mul]

section Program
variable (m : (ℓ : Loc nD τ sig) → Buf (Elt Ideal) ℓ) (ρ : Dev nD → PrngReg)

/-- The region finds the first operand's rows in `main_v0`. -/
theorem V1_main_v0 (c : Dev nD) : (V1 m ρ c main_v0 : S16384x1024.Idx → EReal)
    = shapeCast S16384x1024 (m ((c.tc : Thread nD τ).loc main_arg0) : S4x4096x1024.Idx → EReal) shapeCasts_S4x4096x1024_S16384x1024 := by
  show StableHlo.after hostOps0 (W0 m ρ c) (Proc.devRef .tc main_v0) = _
  after_results
  rfl

/-- The region finds operand 1's rows in `main_v1`. -/
theorem V1_main_v1 (c : Dev nD) : (V1 m ρ c main_v1 : S16384x1024.Idx → EReal)
    = shapeCast S16384x1024 (m ((c.tc : Thread nD τ).loc main_arg1) : S4x4096x1024.Idx → EReal) shapeCasts_S4x4096x1024_S16384x1024 := by
  show StableHlo.after hostOps0 (W0 m ρ c) (Proc.devRef .tc main_v1) = _
  after_results
  rfl

/-- The region finds operand 2's rows in `main_v2`. -/
theorem V1_main_v2 (c : Dev nD) : (V1 m ρ c main_v2 : S16384x1024.Idx → EReal)
    = shapeCast S16384x1024 (m ((c.tc : Thread nD τ).loc main_arg2) : S4x4096x1024.Idx → EReal) shapeCasts_S4x4096x1024_S16384x1024 := by
  show StableHlo.after hostOps0 (W0 m ρ c) (Proc.devRef .tc main_v2) = _
  after_results
  rfl

/-- The region finds bias 4 as the one row of `main_v3`. -/
theorem V1_main_v3 (c : Dev nD) : (V1 m ρ c main_v3 : S1x64.Idx → EReal)
    = shapeCast S1x64 (m ((c.tc : Thread nD τ).loc main_arg4) : S64.Idx → EReal) shapeCasts_S64_S1x64 := by
  show StableHlo.after hostOps0 (W0 m ρ c) (Proc.devRef .tc main_v3) = _
  after_results
  rfl

/-- The region finds bias 6 as the one row of `main_v4`. -/
theorem V1_main_v4 (c : Dev nD) : (V1 m ρ c main_v4 : S1x64.Idx → EReal)
    = shapeCast S1x64 (m ((c.tc : Thread nD τ).loc main_arg6) : S64.Idx → EReal) shapeCasts_S64_S1x64 := by
  show StableHlo.after hostOps0 (W0 m ρ c) (Proc.devRef .tc main_v4) = _
  after_results
  rfl

/-- The region finds bias 8 as the one row of `main_v5`. -/
theorem V1_main_v5 (c : Dev nD) : (V1 m ρ c main_v5 : S1x64.Idx → EReal)
    = shapeCast S1x64 (m ((c.tc : Thread nD τ).loc main_arg8) : S64.Idx → EReal) shapeCasts_S64_S1x64 := by
  show StableHlo.after hostOps0 (W0 m ρ c) (Proc.devRef .tc main_v5) = _
  after_results
  rfl

/-- No reshape writes weight matrix 3: the region finds it as launched. -/
theorem V1_main_arg3 (c : Dev nD) : (V1 m ρ c main_arg3 : S1024x64.Idx → EReal) = m ((c.tc : Thread nD τ).loc main_arg3) := by
  show StableHlo.after hostOps0 (W0 m ρ c) (Proc.devRef .tc main_arg3) = _
  after_results

/-- No reshape writes weight matrix 5: the region finds it as launched. -/
theorem V1_main_arg5 (c : Dev nD) : (V1 m ρ c main_arg5 : S1024x64.Idx → EReal) = m ((c.tc : Thread nD τ).loc main_arg5) := by
  show StableHlo.after hostOps0 (W0 m ρ c) (Proc.devRef .tc main_arg5) = _
  after_results

/-- No reshape writes weight matrix 7: the region finds it as launched. -/
theorem V1_main_arg7 (c : Dev nD) : (V1 m ρ c main_arg7 : S1024x64.Idx → EReal) = m ((c.tc : Thread nD τ).loc main_arg7) := by
  show StableHlo.after hostOps0 (W0 m ρ c) (Proc.devRef .tc main_arg7) = _
  after_results

/-- The attention region finds projection 0 reshaped in `main_v7`. -/
theorem V3_main_v7 (c : Dev nD) : (V3 m ρ c main_v7 : S4x4096x64.Idx → EReal)
    = shapeCast S4x4096x64 (V2 m ρ c main_v6_0 : S16384x64.Idx → EReal) shapeCasts_S16384x64_S4x4096x64 := by
  show StableHlo.after hostOps1 (W2 m ρ c) (Proc.devRef .tc main_v7) = _
  after_results
  rfl

/-- The attention region finds projection 1 reshaped in `main_v8`. -/
theorem V3_main_v8 (c : Dev nD) : (V3 m ρ c main_v8 : S4x4096x64.Idx → EReal)
    = shapeCast S4x4096x64 (V2 m ρ c main_v6_1 : S16384x64.Idx → EReal) shapeCasts_S16384x64_S4x4096x64 := by
  show StableHlo.after hostOps1 (W2 m ρ c) (Proc.devRef .tc main_v8) = _
  after_results
  rfl

/-- The attention region finds projection 2 reshaped in `main_v9`. -/
theorem V3_main_v9 (c : Dev nD) : (V3 m ρ c main_v9 : S4x4096x64.Idx → EReal)
    = shapeCast S4x4096x64 (V2 m ρ c main_v6_2 : S16384x64.Idx → EReal) shapeCasts_S16384x64_S4x4096x64 := by
  show StableHlo.after hostOps1 (W2 m ρ c) (Proc.devRef .tc main_v9) = _
  after_results
  rfl

/-- THE QUERY PROJECTION as the attention region finds it: with real operands, entry `(n, s, d)` of `main_v7` is the
    specification's linear projection of operand 0 by weights 3 and bias 4. -/
theorem v7_value (c : Dev nD)
    (Q : Fin 4 → Fin 4096 → Fin 1024 → ℝ) (Wq : Fin 1024 → Fin 64 → ℝ) (bq : Fin 64 → ℝ)
    (h0 : ∀ n s k, m ((c.tc : Thread nD τ).loc main_arg0) (ix3 n s k) = ((Q n s k : ℝ) : EReal))
    (h3 : ∀ k d, m ((c.tc : Thread nD τ).loc main_arg3) (ix2 k d) = ((Wq k d : ℝ) : EReal))
    (h4 : ∀ d, m ((c.tc : Thread nD τ).loc main_arg4) (ix1 d) = ((bq d : ℝ) : EReal)) :
    ∀ (n : Fin 4) (s : Fin 4096) (d : Fin 64), V3 (F := Ideal) m ρ c main_v7 (ix3 n s d) = ((AttnSpec.proj Q Wq bq n s d : ℝ) : EReal) := by
  intro n s d
  have hlt : 4096 * n.val + s.val < 16384 := by have := n.isLt; have := s.isLt; omega
  refine (congrFun (V3_main_v7 m ρ c) (ix3 n s d)).trans ?_
  refine (reshape_heads_apply _ n s d ⟨4096 * n.val + s.val, hlt⟩ rfl).trans ?_
  refine (congrFun ((W2_arr m ρ c 9).trans (final0_9 (V1 m ρ) c)) (ix2 ⟨4096 * n.val + s.val, hlt⟩ d)).trans ?_
  refine projArr_real _ _ _ Q Wq bq n s d ⟨4096 * n.val + s.val, hlt⟩ rfl (fun k => ?_) (fun k => ?_) ?_
  · refine (congrFun (V1_main_v0 m ρ c) _).trans ?_
    exact (reshape_rows_apply _ n s k ⟨4096 * n.val + s.val, hlt⟩ rfl).trans (h0 n s k)
  · exact (congrFun (V1_main_arg3 m ρ c) _).trans (h3 k d)
  · refine (congrFun (V1_main_v3 m ρ c) _).trans ?_
    exact (shapeCast_a_1a_apply _ shapeCasts_S64_S1x64 0 d).trans (h4 d)

/-- THE KEY PROJECTION as the attention region finds it: with real operands, entry `(n, s, d)` of `main_v8` is the
    specification's linear projection of operand 1 by weights 5 and bias 6. -/
theorem v8_value (c : Dev nD)
    (K : Fin 4 → Fin 4096 → Fin 1024 → ℝ) (Wk : Fin 1024 → Fin 64 → ℝ) (bk : Fin 64 → ℝ)
    (h1 : ∀ n s k, m ((c.tc : Thread nD τ).loc main_arg1) (ix3 n s k) = ((K n s k : ℝ) : EReal))
    (h5 : ∀ k d, m ((c.tc : Thread nD τ).loc main_arg5) (ix2 k d) = ((Wk k d : ℝ) : EReal))
    (h6 : ∀ d, m ((c.tc : Thread nD τ).loc main_arg6) (ix1 d) = ((bk d : ℝ) : EReal)) :
    ∀ (n : Fin 4) (s : Fin 4096) (d : Fin 64), V3 (F := Ideal) m ρ c main_v8 (ix3 n s d) = ((AttnSpec.proj K Wk bk n s d : ℝ) : EReal) := by
  intro n s d
  have hlt : 4096 * n.val + s.val < 16384 := by have := n.isLt; have := s.isLt; omega
  refine (congrFun (V3_main_v8 m ρ c) (ix3 n s d)).trans ?_
  refine (reshape_heads_apply _ n s d ⟨4096 * n.val + s.val, hlt⟩ rfl).trans ?_
  refine (congrFun ((W2_arr m ρ c 10).trans (final0_10 (V1 m ρ) c)) (ix2 ⟨4096 * n.val + s.val, hlt⟩ d)).trans ?_
  refine projArr_real _ _ _ K Wk bk n s d ⟨4096 * n.val + s.val, hlt⟩ rfl (fun k => ?_) (fun k => ?_) ?_
  · refine (congrFun (V1_main_v1 m ρ c) _).trans ?_
    exact (reshape_rows_apply _ n s k ⟨4096 * n.val + s.val, hlt⟩ rfl).trans (h1 n s k)
  · exact (congrFun (V1_main_arg5 m ρ c) _).trans (h5 k d)
  · refine (congrFun (V1_main_v4 m ρ c) _).trans ?_
    exact (shapeCast_a_1a_apply _ shapeCasts_S64_S1x64 0 d).trans (h6 d)

/-- THE VALUE PROJECTION as the attention region finds it: with real operands, entry `(n, s, d)` of `main_v9` is the
    specification's linear projection of operand 2 by weights 7 and bias 8. -/
theorem v9_value (c : Dev nD)
    (Vx : Fin 4 → Fin 4096 → Fin 1024 → ℝ) (Wv : Fin 1024 → Fin 64 → ℝ) (bv : Fin 64 → ℝ)
    (h2 : ∀ n s k, m ((c.tc : Thread nD τ).loc main_arg2) (ix3 n s k) = ((Vx n s k : ℝ) : EReal))
    (h7 : ∀ k d, m ((c.tc : Thread nD τ).loc main_arg7) (ix2 k d) = ((Wv k d : ℝ) : EReal))
    (h8 : ∀ d, m ((c.tc : Thread nD τ).loc main_arg8) (ix1 d) = ((bv d : ℝ) : EReal)) :
    ∀ (n : Fin 4) (s : Fin 4096) (d : Fin 64), V3 (F := Ideal) m ρ c main_v9 (ix3 n s d) = ((AttnSpec.proj Vx Wv bv n s d : ℝ) : EReal) := by
  intro n s d
  have hlt : 4096 * n.val + s.val < 16384 := by have := n.isLt; have := s.isLt; omega
  refine (congrFun (V3_main_v9 m ρ c) (ix3 n s d)).trans ?_
  refine (reshape_heads_apply _ n s d ⟨4096 * n.val + s.val, hlt⟩ rfl).trans ?_
  refine (congrFun ((W2_arr m ρ c 11).trans (final0_11 (V1 m ρ) c)) (ix2 ⟨4096 * n.val + s.val, hlt⟩ d)).trans ?_
  refine projArr_real _ _ _ Vx Wv bv n s d ⟨4096 * n.val + s.val, hlt⟩ rfl (fun k => ?_) (fun k => ?_) ?_
  · refine (congrFun (V1_main_v2 m ρ c) _).trans ?_
    exact (reshape_rows_apply _ n s k ⟨4096 * n.val + s.val, hlt⟩ rfl).trans (h2 n s k)
  · exact (congrFun (V1_main_arg7 m ρ c) _).trans (h7 k d)
  · refine (congrFun (V1_main_v5 m ρ c) _).trans ?_
    exact (shapeCast_a_1a_apply _ shapeCasts_S64_S1x64 0 d).trans (h8 d)

end Program

end Cert.KernelIdeal.Hand

end
-- ==== Proof.KI.Pieces.lean ====
/-
  What each case of the attention body leaves in the carried buffers and in the output window, as functions of the
  point's operand blocks and of what the carried buffers held: the new running maximum, the rescaled-and-extended
  normaliser, the rescaled-and-extended accumulator, and (last key block) their quotient.
-/
import proofs.«122791_j2284922601686_2_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- The new running maximum of every query row: the old one against the row maximum of this block's scaled scores. -/
def stepM (q : Vec F S1x4096x64 .bf16) (kb : Vec F S1x1024x64 .bf16) (mo : Vec F S1x4096x1 .f32) : Vec F S1x4096x1 .f32 :=
  k1_pay2 (k1_pay9 q kb mo)
/-- The new normaliser: the old one rescaled by exp (old maximum - new maximum), plus this block's exponentials. -/
def stepL (q : Vec F S1x4096x64 .bf16) (kb : Vec F S1x1024x64 .bf16) (mo lo : Vec F S1x4096x1 .f32) : Vec F S1x4096x1 .f32 :=
  k1_pay12 q kb mo mo lo
/-- The new accumulator: the old one rescaled likewise, plus this block's exponentials times its value rows. -/
def stepA (q : Vec F S1x4096x64 .bf16) (kb vb : Vec F S1x1024x64 .bf16) (mo : Vec F S1x4096x1 .f32) (ao : Vec F S1x4096x64 .f32) : Vec F S1x4096x64 .f32 :=
  k1_pay1 (k1_pay7 vb) (k1_pay10 q kb mo mo) (k1_pay11 q kb mo) ao

theorem sout1_B_0_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    sout1_B_0 (F := F) c i arg2 harg2 arg3 harg3 arg4 harg4 arg5 harg5 arg6 harg6 arg7 harg7 arg8 harg8 hc0 hc1 x0 x1 x2 xs0 xs1 xs2 = stepM x0 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_B_1_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    sout1_B_1 (F := F) c i arg2 harg2 arg3 harg3 arg4 harg4 arg5 harg5 arg6 harg6 arg7 harg7 arg8 harg8 hc0 hc1 x0 x1 x2 xs0 xs1 xs2 = stepL x0 x1 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_B_2_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : ¬cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    sout1_B_2 (F := F) c i arg2 harg2 arg3 harg3 arg4 harg4 arg5 harg5 arg6 harg6 arg7 harg7 arg8 harg8 hc0 hc1 x0 x1 x2 xs0 xs1 xs2 = stepA x0 x1 x2 xs0 xs2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_C_0_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    sout1_C_0 (F := F) c i arg2 harg2 arg3 harg3 arg4 harg4 arg5 harg5 arg6 harg6 arg7 harg7 arg8 harg8 hc0 hc1 x0 x1 x2 xs0 xs1 xs2 = stepM x0 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_C_1_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    sout1_C_1 (F := F) c i arg2 harg2 arg3 harg3 arg4 harg4 arg5 harg5 arg6 harg6 arg7 harg7 arg8 harg8 hc0 hc1 x0 x1 x2 xs0 xs1 xs2 = stepL x0 x1 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_C_2_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    sout1_C_2 (F := F) c i arg2 harg2 arg3 harg3 arg4 harg4 arg5 harg5 arg6 harg6 arg7 harg7 arg8 harg8 hc0 hc1 x0 x1 x2 xs0 xs1 xs2 = stepA x0 x1 x2 xs0 xs2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem out1_C_3_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : ¬cond1_0 i) (hc1 : cond1_1 i) (x0 : Vec F S1x4096x64 .bf16) (x1 : Vec F S1x1024x64 .bf16) (x2 : Vec F S1x1024x64 .bf16) (xs0 : Vec F S1x4096x1 .f32) (xs1 : Vec F S1x4096x1 .f32) (xs2 : Vec F S1x4096x64 .f32) :
    out1_C_3 (F := F) c i arg2 harg2 arg3 harg3 arg4 harg4 arg5 harg5 arg6 harg6 arg7 harg7 arg8 harg8 hc0 hc1 x0 x1 x2 xs0 xs1 xs2 = k1_pay3 (stepA x0 x1 x2 xs0 xs2) (stepL x0 x1 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_A_0_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) :
    sout1_A_0 (F := F) c i arg2 harg2 arg3 harg3 arg4 harg4 arg5 harg5 arg6 harg6 arg7 harg7 arg8 harg8 hc0 hc1 x0 x1 x2 = stepM x0 x1 (k1_pay4 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_A_1_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) :
    sout1_A_1 (F := F) c i arg2 harg2 arg3 harg3 arg4 harg4 arg5 harg5 arg6 harg6 arg7 harg7 arg8 harg8 hc0 hc1 x0 x1 x2 = stepL x0 x1 (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

theorem sout1_A_2_eq (c : Dev nD) (i : grid1.Coords) (arg2 : Memref sig .tc .vmem S1x4096x64 .bf16) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S1x4096x64 .f32) (harg8 : arg8.IsWhole) (hc0 : cond1_0 i) (hc1 : ¬cond1_1 i) (x0 : Vec F S1x4096x64 .bf16) (x1 : Vec F S1x1024x64 .bf16) (x2 : Vec F S1x1024x64 .bf16) :
    sout1_A_2 (F := F) c i arg2 harg2 arg3 harg3 arg4 harg4 arg5 harg5 arg6 harg6 arg7 harg7 arg8 harg8 hc0 hc1 x0 x1 x2 = stepA x0 x1 x2 (k1_pay4 (F := F)) (k1_pay6 (F := F)) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  first
    | rw [View.canon_unit_zero hz3]
    | rw [View.canon_cons_unit_zero hz3]
  try simp only [View.readCov_unit_zero (S := S1x4096x1) _ hz3, View.readCov_unit_zero (S := S1x4096x64) _ hz3]
  simp only [View.readAt_eq_ld, harg2.read_unread, harg3.read_unread, harg4.read_unread, harg6.read_unread, harg7.read_unread, harg8.read_unread,
    View.ld_unit_zero (S := S1x4096x64) hz3, View.ld_unit_zero (S := S1x1024x64) hz3, View.ld_unit_zero (S := S1x4096x1) hz3]
  try rfl

end Cert.KernelIdeal.Hand

end
-- ==== Proof.KI.Dots.lean ====
/-
  The attention body's two matrix products read at an index, at the exact instance: the score block is the dot product of
  a query row with a key row over the 64 head coordinates; the weighted-value block is the sum over the block's 1024 keys
  of a weight row entry times a value row entry.
-/
import proofs.«122791_j2284922601686_2_alg».proof.Proof.Gen.KernelIdeal
import Idealize.ShloMosaic.Lib.ValueIdx
import Idealize.ShloMosaic.PureOps.Ideal.Laws

set_option maxRecDepth 16384

noncomputable section

namespace Cert.KernelIdeal.Hand

open Cert.KernelIdeal Cert.KernelIdeal.Facts₀ Idealize.ShloMosaic Idealize.ShloMosaic.ValueIdx

theorem qk_l0 (i : S1x4096x1024.Idx) (q : dot_S1x4096x64_S1x1024x64_S1x4096x1024_2_2_1_1_0_0.contr.Idx) : (dot_S1x4096x64_S1x1024x64_S1x4096x1024_2_2_1_1_0_0.lhsIdx i q 0).val = (i 0).val := by
  unfold DotDims.lhsIdx
  rw [dif_pos (show (0 : Fin S1x4096x64.rank) ∈ dot_S1x4096x64_S1x1024x64_S1x4096x1024_2_2_1_1_0_0.lhsBatch by decide)]
  rfl
theorem qk_l1 (i : S1x4096x1024.Idx) (q : dot_S1x4096x64_S1x1024x64_S1x4096x1024_2_2_1_1_0_0.contr.Idx) : (dot_S1x4096x64_S1x1024x64_S1x4096x1024_2_2_1_1_0_0.lhsIdx i q 1).val = (i 1).val := by
  unfold DotDims.lhsIdx
  rw [dif_neg (show ¬(1 : Fin S1x4096x64.rank) ∈ dot_S1x4096x64_S1x1024x64_S1x4096x1024_2_2_1_1_0_0.lhsBatch by decide), dif_pos (show (1 : Fin S1x4096x64.rank) ∈ dot_S1x4096x64_S1x1024x64_S1x4096x1024_2_2_1_1_0_0.lhsNonContracting by decide)]
  rfl
theorem qk_l2 (i : S1x4096x1024.Idx) (q : dot_S1x4096x64_S1x1024x64_S1x4096x1024_2_2_1_1_0_0.contr.Idx) : (dot_S1x4096x64_S1x1024x64_S1x4096x1024_2_2_1_1_0_0.lhsIdx i q 2).val = (q ⟨0, by decide⟩).val :=
  dot_S1x4096x64_S1x1024x64_S1x4096x1024_2_2_1_1_0_0.lhsIdx_val_of_single rfl i q
theorem qk_r0 (i : S1x4096x1024.Idx) (q : dot_S1x4096x64_S1x1024x64_S1x4096x1024_2_2_1_1_0_0.contr.Idx) : (dot_S1x4096x64_S1x1024x64_S1x4096x1024_2_2_1_1_0_0.rhsIdx i q 0).val = (i 0).val := by
  unfold DotDims.rhsIdx
  rw [dif_pos (show (0 : Fin S1x1024x64.rank) ∈ dot_S1x4096x64_S1x1024x64_S1x4096x1024_2_2_1_1_0_0.rhsBatch by decide)]
  rfl
theorem qk_r1 (i : S1x4096x1024.Idx) (q : dot_S1x4096x64_S1x1024x64_S1x4096x1024_2_2_1_1_0_0.contr.Idx) : (dot_S1x4096x64_S1x1024x64_S1x4096x1024_2_2_1_1_0_0.rhsIdx i q 1).val = (i 2).val := by
  unfold DotDims.rhsIdx
  rw [dif_neg (show ¬(1 : Fin S1x1024x64.rank) ∈ dot_S1x4096x64_S1x1024x64_S1x4096x1024_2_2_1_1_0_0.rhsBatch by decide), dif_pos (show (1 : Fin S1x1024x64.rank) ∈ dot_S1x4096x64_S1x1024x64_S1x4096x1024_2_2_1_1_0_0.rhsNonContracting by decide)]
  rfl
theorem qk_r2 (i : S1x4096x1024.Idx) (q : dot_S1x4096x64_S1x1024x64_S1x4096x1024_2_2_1_1_0_0.contr.Idx) : (dot_S1x4096x64_S1x1024x64_S1x4096x1024_2_2_1_1_0_0.rhsIdx i q 2).val = (q ⟨0, by decide⟩).val :=
  dot_S1x4096x64_S1x1024x64_S1x4096x1024_2_2_1_1_0_0.rhsIdx_val_of_single rfl i q

/-- The score block at (row r, key j): the dot product over the head coordinates. -/
theorem dotQK_apply (q : FVec Ideal S1x4096x64 .bf16) (kb : FVec Ideal S1x1024x64 .bf16) (r : Fin 4096) (j : Fin 1024) :
    FloatOps.matmul dot_S1x4096x64_S1x1024x64_S1x4096x1024_2_2_1_1_0_0 none q kb (constant S1x4096x1024 .f32 0x00000000#32) (ix3 (0 : Fin 1) r j)
      = ∑ e : Fin 64, q (ix3 (0 : Fin 1) r e) * kb (ix3 (0 : Fin 1) j e) := by
  refine (Ideal.matmul_constant_zero_apply dot_S1x4096x64_S1x1024x64_S1x4096x1024_2_2_1_1_0_0 none q kb (ix3 (0 : Fin 1) r j)).trans ?_
  rw [← Equiv.sum_comp (ValueIdx.contrEquiv1 dot_S1x4096x64_S1x1024x64_S1x4096x1024_2_2_1_1_0_0 64 rfl rfl).symm]
  refine Finset.sum_congr rfl fun k _ => ?_
  have hk := ValueIdx.contrEquiv1_symm_val dot_S1x4096x64_S1x1024x64_S1x4096x1024_2_2_1_1_0_0 64 rfl rfl k
  have el : dot_S1x4096x64_S1x1024x64_S1x4096x1024_2_2_1_1_0_0.lhsIdx (ix3 (0 : Fin 1) r j) ((ValueIdx.contrEquiv1 dot_S1x4096x64_S1x1024x64_S1x4096x1024_2_2_1_1_0_0 64 rfl rfl).symm k) = ix3 (0 : Fin 1) r k := funext fun a => Fin.ext (by
    match a with
    | ⟨0, _⟩ => exact qk_l0 _ _
    | ⟨1, _⟩ => exact qk_l1 _ _
    | ⟨2, _⟩ => exact (qk_l2 _ _).trans hk)
  have er : dot_S1x4096x64_S1x1024x64_S1x4096x1024_2_2_1_1_0_0.rhsIdx (ix3 (0 : Fin 1) r j) ((ValueIdx.contrEquiv1 dot_S1x4096x64_S1x1024x64_S1x4096x1024_2_2_1_1_0_0 64 rfl rfl).symm k) = ix3 (0 : Fin 1) j k := funext fun a => Fin.ext (by
    match a with
    | ⟨0, _⟩ => exact qk_r0 _ _
    | ⟨1, _⟩ => exact qk_r1 _ _
    | ⟨2, _⟩ => exact (qk_r2 _ _).trans hk)
  rw [el, er]

theorem pv_l0 (i : S1x4096x64.Idx) (q : dot_S1x4096x1024_S1x1024x64_S1x4096x64_2_1_1_2_0_0.contr.Idx) : (dot_S1x4096x1024_S1x1024x64_S1x4096x64_2_1_1_2_0_0.lhsIdx i q 0).val = (i 0).val := by
  unfold DotDims.lhsIdx
  rw [dif_pos (show (0 : Fin S1x4096x1024.rank) ∈ dot_S1x4096x1024_S1x1024x64_S1x4096x64_2_1_1_2_0_0.lhsBatch by decide)]
  rfl
theorem pv_l1 (i : S1x4096x64.Idx) (q : dot_S1x4096x1024_S1x1024x64_S1x4096x64_2_1_1_2_0_0.contr.Idx) : (dot_S1x4096x1024_S1x1024x64_S1x4096x64_2_1_1_2_0_0.lhsIdx i q 1).val = (i 1).val := by
  unfold DotDims.lhsIdx
  rw [dif_neg (show ¬(1 : Fin S1x4096x1024.rank) ∈ dot_S1x4096x1024_S1x1024x64_S1x4096x64_2_1_1_2_0_0.lhsBatch by decide), dif_pos (show (1 : Fin S1x4096x1024.rank) ∈ dot_S1x4096x1024_S1x1024x64_S1x4096x64_2_1_1_2_0_0.lhsNonContracting by decide)]
  rfl
theorem pv_l2 (i : S1x4096x64.Idx) (q : dot_S1x4096x1024_S1x1024x64_S1x4096x64_2_1_1_2_0_0.contr.Idx) : (dot_S1x4096x1024_S1x1024x64_S1x4096x64_2_1_1_2_0_0.lhsIdx i q 2).val = (q ⟨0, by decide⟩).val :=
  dot_S1x4096x1024_S1x1024x64_S1x4096x64_2_1_1_2_0_0.lhsIdx_val_of_single rfl i q
theorem pv_r0 (i : S1x4096x64.Idx) (q : dot_S1x4096x1024_S1x1024x64_S1x4096x64_2_1_1_2_0_0.contr.Idx) : (dot_S1x4096x1024_S1x1024x64_S1x4096x64_2_1_1_2_0_0.rhsIdx i q 0).val = (i 0).val := by
  unfold DotDims.rhsIdx
  rw [dif_pos (show (0 : Fin S1x1024x64.rank) ∈ dot_S1x4096x1024_S1x1024x64_S1x4096x64_2_1_1_2_0_0.rhsBatch by decide)]
  rfl
theorem pv_r1 (i : S1x4096x64.Idx) (q : dot_S1x4096x1024_S1x1024x64_S1x4096x64_2_1_1_2_0_0.contr.Idx) : (dot_S1x4096x1024_S1x1024x64_S1x4096x64_2_1_1_2_0_0.rhsIdx i q 1).val = (q ⟨0, by decide⟩).val :=
  dot_S1x4096x1024_S1x1024x64_S1x4096x64_2_1_1_2_0_0.rhsIdx_val_of_single rfl i q
theorem pv_r2 (i : S1x4096x64.Idx) (q : dot_S1x4096x1024_S1x1024x64_S1x4096x64_2_1_1_2_0_0.contr.Idx) : (dot_S1x4096x1024_S1x1024x64_S1x4096x64_2_1_1_2_0_0.rhsIdx i q 2).val = (i 2).val := by
  unfold DotDims.rhsIdx
  rw [dif_neg (show ¬(2 : Fin S1x1024x64.rank) ∈ dot_S1x4096x1024_S1x1024x64_S1x4096x64_2_1_1_2_0_0.rhsBatch by decide), dif_pos (show (2 : Fin S1x1024x64.rank) ∈ dot_S1x4096x1024_S1x1024x64_S1x4096x64_2_1_1_2_0_0.rhsNonContracting by decide)]
  rfl

/-- The weighted-value block at (row r, column d): the sum over the block's keys. -/
theorem dotPV_apply (p : FVec Ideal S1x4096x1024 .bf16) (vb : FVec Ideal S1x1024x64 .bf16) (r : Fin 4096) (d : Fin 64) :
    FloatOps.matmul dot_S1x4096x1024_S1x1024x64_S1x4096x64_2_1_1_2_0_0 none p vb (constant S1x4096x64 .f32 0x00000000#32) (ix3 (0 : Fin 1) r d)
      = ∑ j : Fin 1024, p (ix3 (0 : Fin 1) r j) * vb (ix3 (0 : Fin 1) j d) := by
  refine (Ideal.matmul_constant_zero_apply dot_S1x4096x1024_S1x1024x64_S1x4096x64_2_1_1_2_0_0 none p vb (ix3 (0 : Fin 1) r d)).trans ?_
  rw [← Equiv.sum_comp (ValueIdx.contrEquiv1 dot_S1x4096x1024_S1x1024x64_S1x4096x64_2_1_1_2_0_0 1024 rfl rfl).symm]
  refine Finset.sum_congr rfl fun k _ => ?_
  have hk := ValueIdx.contrEquiv1_symm_val dot_S1x4096x1024_S1x1024x64_S1x4096x64_2_1_1_2_0_0 1024 rfl rfl k
  have el : dot_S1x4096x1024_S1x1024x64_S1x4096x64_2_1_1_2_0_0.lhsIdx (ix3 (0 : Fin 1) r d) ((ValueIdx.contrEquiv1 dot_S1x4096x1024_S1x1024x64_S1x4096x64_2_1_1_2_0_0 1024 rfl rfl).symm k) = ix3 (0 : Fin 1) r k := funext fun a => Fin.ext (by
    match a with
    | ⟨0, _⟩ => exact pv_l0 _ _
    | ⟨1, _⟩ => exact pv_l1 _ _
    | ⟨2, _⟩ => exact (pv_l2 _ _).trans hk)
  have er : dot_S1x4096x1024_S1x1024x64_S1x4096x64_2_1_1_2_0_0.rhsIdx (ix3 (0 : Fin 1) r d) ((ValueIdx.contrEquiv1 dot_S1x4096x1024_S1x1024x64_S1x4096x64_2_1_1_2_0_0 1024 rfl rfl).symm k) = ix3 (0 : Fin 1) k d := funext fun a => Fin.ext (by
    match a with
    | ⟨0, _⟩ => exact pv_r0 _ _
    | ⟨1, _⟩ => exact (pv_r1 _ _).trans hk
    | ⟨2, _⟩ => exact pv_r2 _ _)
  rw [el, er]

end Cert.KernelIdeal.Hand

end
-- ==== Proof.KI.StepValue.lean ====
/-
  The attention body's per-block arithmetic read at an index, at the exact instance, on real-valued inputs. With the query
  rows, the key rows and the running maximum M all real: the score block is the scaled dot product
  s(r, j) = (∑ e, Q r e * K j e) / 8;  the new maximum  μ r  is the maximum of M r and of the 1024 scores of row r, again a
  real;  the rescaling factor of row r is  exp (M r - μ r);  and the weight of key j in row r is  exp (s(r, j) - μ r).
-/
import proofs.«122791_j2284922601686_2_alg».proof.Proof.KI.Dots
import proofs.«122791_j2284922601686_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.ValueIdx

/-- The scaled dot product of query row r with key row j. -/
def blockScore (Qr : Fin 4096 → Fin 64 → ℝ) (Kr : Fin 1024 → Fin 64 → ℝ) (r : Fin 4096) (j : Fin 1024) : ℝ :=
  (∑ e : Fin 64, Qr r e * Kr j e) / 8

/-- The new maximum of row r, as a real: the real part of the maximum payload there. -/
def muOf (q : Vec Ideal S1x4096x64 .bf16) (kb : Vec Ideal S1x1024x64 .bf16) (mo : Vec Ideal S1x4096x1 .f32) (r : Fin 4096) : ℝ :=
  (k1_pay9 (F := Ideal) q kb mo (ix3 (0 : Fin 1) r (0 : Fin 1))).toReal

namespace StepValue

/-! ## Constants -/

/-- The pattern 0x3E000000 denotes one eighth. -/
theorem ofBits_eighth : Ideal.ofBits .f32 0x3E000000#32 = ((1 / 8 : ℝ) : EReal) := by
  simp [Ideal.ofBits, Ideal.ieee, -EReal.coe_mul]; norm_num

/-- The pattern 0xFF800000 denotes -infinity. -/
theorem ofBits_neg_inf : Ideal.ofBits .f32 0xFF800000#32 = (⊥ : EReal) := by
  simp [Ideal.ofBits, Ideal.ieee]

/-! ## Real sums inside the extended reals -/

/-- The image of a finite real sum is the sum of the images. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The row maximum, the column cast and the column broadcast, read at an index -/

/-- The source index over (0, r) with lane j. -/
theorem lift_row (hred : S1x4096x1024.Reduces [2] S1x4096) (r : Fin 4096) (j : Fin 1024) :
    hred.lift (ix2 (0 : Fin 1) r) j = ix3 (0 : Fin 1) r j := by
  funext a
  apply Fin.ext
  match a with
  | ⟨0, _⟩ => rfl
  | ⟨1, _⟩ => rfl
  | ⟨2, _⟩ => rfl

/-- The lane maximum at (0, r) is below +infinity when every entry of row r is: it is the fold of max, from -infinity,
    over the 1024 entries of the row. -/
theorem laneMax_lt_top (src : FVec Ideal S1x4096x1024 .f32) (hred : S1x4096x1024.Reduces [2] S1x4096) (hφ : FKind.Formats .f32)
    (hacc : (0xFF800000#32 : BitVec 32) = FKind.maximumf.neutral .f32 hφ) (r : Fin 4096)
    (hsrc : ∀ j : Fin 1024, src (ix3 (0 : Fin 1) r j) < ⊤) :
    multiReduction (F := Ideal) .maximumf [2] S1x4096 src 0xFF800000#32 hred hφ hacc (ix2 (0 : Fin 1) r) < ⊤ := by
  refine lt_of_eq_of_lt (Ideal.multiReduction_maximumf_single src 0xFF800000#32 hred hφ hacc (ix2 (0 : Fin 1) r)) ?_
  rw [Finset.fold_max_lt]
  refine ⟨?_, fun k _ => ?_⟩
  · show Ideal.ofBits .f32 0xFF800000#32 < ⊤
    rw [ofBits_neg_inf]
    exact bot_lt_top
  · show src (hred.lift (ix2 (0 : Fin 1) r) k) < ⊤
    rw [lift_row hred r k]
    exact hsrc k

/-- The cast of a [1, 4096] vector to [1, 4096, 1], read at (0, r, 0), is the vector at (0, r). -/
theorem colCast_apply {α : Type} (v : S1x4096.Idx → α) (h : S1x4096.ShapeCasts S1x4096x1) (r : Fin 4096) :
    shapeCast S1x4096x1 v h (ix3 (0 : Fin 1) r (0 : Fin 1)) = v (ix2 (0 : Fin 1) r) := by
  refine shapeCast_apply v h _ (ix2 (0 : Fin 1) r) ?_
  rw [Shape.rowMajor_val_two, Shape.rowMajor_val_three]
  show 0 * 4096 + r.val = (0 * 4096 + r.val) * 1 + 0
  omega

/-- The broadcast of a [1, 4096, 1] column along the last axis, read at (0, r, j), is the column at (0, r, 0). -/
theorem colBroadcast_apply {α : Type} {n : Nat} (v : S1x4096x1.Idx → α) (h : S1x4096x1.Broadcasts ⟨3, ![1, 4096, n]⟩) (r : Fin 4096) (j : Fin n) :
    broadcastTo ⟨3, ![1, 4096, n]⟩ v h (ix3 (0 : Fin 1) r j) = v (ix3 (0 : Fin 1) r (0 : Fin 1)) := by
  refine broadcastTo_apply v h _ (ix3 (0 : Fin 1) r (0 : Fin 1)) fun a => ?_
  match a with
  | ⟨0, _⟩ => rfl
  | ⟨1, _⟩ => rfl
  | ⟨2, _⟩ => rfl

/-! ## The payloads unfolded at an index -/

/-- The maximum of a column with the column cast of a row vector, read at (0, r, 0). -/
theorem maxCol_apply (a : FVec Ideal S1x4096x1 .f32) (X : FVec Ideal S1x4096 .f32) (h : S1x4096.ShapeCasts S1x4096x1) (r : Fin 4096) :
    maximumf (F := Ideal) a (shapeCast S1x4096x1 X h) (ix3 (0 : Fin 1) r (0 : Fin 1))
      = max (a (ix3 (0 : Fin 1) r (0 : Fin 1))) (X (ix2 (0 : Fin 1) r)) :=
  congrArg (max (a (ix3 (0 : Fin 1) r (0 : Fin 1)))) (colCast_apply X h r)

section Unfold

variable (q : Vec Ideal S1x4096x64 .bf16) (kb : Vec Ideal S1x1024x64 .bf16) (mo : Vec Ideal S1x4096x1 .f32)

/-- The score payload at any index: the matrix product there, times the constant. -/
theorem pay8_apply (i : S1x4096x1024.Idx) :
    k1_pay8 (F := Ideal) q kb i
      = FloatOps.matmul (φ₁ := .bf16) (φ₂ := .bf16) dot_S1x4096x64_S1x1024x64_S1x4096x1024_2_2_1_1_0_0 none q kb (constant S1x4096x1024 .f32 0x00000000#32) i
        * Ideal.ofBits .f32 0x3E000000#32 := by
  unfold k1_pay8
  rw [shapeCast_self, shapeCast_self]
  rfl

/-- The maximum payload as a vector: the maximum of the old column and the column cast of the scores' lane maximum. -/
theorem pay9_eq :
    k1_pay9 (F := Ideal) q kb mo
      = maximumf (F := Ideal) (φ := .f32) mo
          (shapeCast S1x4096x1
            (multiReduction (F := Ideal) .maximumf [2] S1x4096 (k1_pay8 (F := Ideal) q kb) 0xFF800000#32
              reduces_S1x4096x1024_S1x4096 (.inl rfl) rfl)
            shapeCasts_S1x4096_S1x4096x1) := rfl

/-- The maximum payload at (0, r, 0): the maximum of the old value and the row's lane maximum of the scores. -/
theorem pay9_apply (r : Fin 4096) :
    k1_pay9 (F := Ideal) q kb mo (ix3 (0 : Fin 1) r (0 : Fin 1))
      = max (mo (ix3 (0 : Fin 1) r (0 : Fin 1)))
          (multiReduction (F := Ideal) .maximumf [2] S1x4096 (k1_pay8 (F := Ideal) q kb) 0xFF800000#32
            reduces_S1x4096x1024_S1x4096 (.inl rfl) rfl (ix2 (0 : Fin 1) r)) :=
  (congrFun (pay9_eq q kb mo) (ix3 (0 : Fin 1) r (0 : Fin 1))).trans (maxCol_apply mo _ _ r)

/-- The exponential of a difference of two vectors, read at an index. -/
theorem expSub_apply {s : Shape} (a b : FVec Ideal s .f32) (i : s.Idx) :
    exp (F := Ideal) (subf (F := Ideal) a b) i = Ideal.exp (a i - b i) := rfl

/-- The exponential of a block minus a broadcast column, read at (0, r, j). -/
theorem expSubCol_apply (a : FVec Ideal S1x4096x1024 .f32) (c : FVec Ideal S1x4096x1 .f32)
    (h : S1x4096x1.Broadcasts S1x4096x1024) (r : Fin 4096) (j : Fin 1024) :
    exp (F := Ideal) (subf (F := Ideal) a (broadcastTo S1x4096x1024 c h)) (ix3 (0 : Fin 1) r j)
      = Ideal.exp (a (ix3 (0 : Fin 1) r j) - c (ix3 (0 : Fin 1) r (0 : Fin 1))) :=
  (expSub_apply a (broadcastTo S1x4096x1024 c h) (ix3 (0 : Fin 1) r j)).trans
    (congrArg (fun x => Ideal.exp (a (ix3 (0 : Fin 1) r j) - x)) (colBroadcast_apply (n := 1024) c h r j))

/-- The rescaling payload as a vector: the exponential of the given column minus the new maximum. -/
theorem pay10_eq (v16 : Vec Ideal S1x4096x1 .f32) :
    k1_pay10 (F := Ideal) q kb mo v16
      = exp (F := Ideal) (φ := .f32) (subf (F := Ideal) (φ := .f32) v16 (k1_pay9 (F := Ideal) q kb mo)) := rfl

/-- The rescaling payload at an index. -/
theorem pay10_apply (v16 : Vec Ideal S1x4096x1 .f32) (i : S1x4096x1.Idx) :
    k1_pay10 (F := Ideal) q kb mo v16 i = Ideal.exp (v16 i - k1_pay9 (F := Ideal) q kb mo i) :=
  (congrFun (pay10_eq q kb mo v16) i).trans (expSub_apply (s := S1x4096x1) v16 (k1_pay9 (F := Ideal) q kb mo) i)

/-- The weight payload as a vector: the exponential of the scores minus the broadcast new maximum. -/
theorem pay11_eq :
    k1_pay11 (F := Ideal) q kb mo
      = exp (F := Ideal) (φ := .f32) (subf (F := Ideal) (φ := .f32) (k1_pay8 (F := Ideal) q kb)
          (broadcastTo S1x4096x1024 (k1_pay9 (F := Ideal) q kb mo) broadcasts_S1x4096x1_S1x4096x1024)) := rfl

/-- The weight payload at (0, r, j). -/
theorem pay11_apply (r : Fin 4096) (j : Fin 1024) :
    k1_pay11 (F := Ideal) q kb mo (ix3 (0 : Fin 1) r j)
      = Ideal.exp (k1_pay8 (F := Ideal) q kb (ix3 (0 : Fin 1) r j) - k1_pay9 (F := Ideal) q kb mo (ix3 (0 : Fin 1) r (0 : Fin 1))) :=
  (congrFun (pay11_eq q kb mo) (ix3 (0 : Fin 1) r j)).trans
    (expSubCol_apply (k1_pay8 (F := Ideal) q kb) (k1_pay9 (F := Ideal) q kb mo) broadcasts_S1x4096x1_S1x4096x1024 r j)

end Unfold

end StepValue

open StepValue

section Step

variable (q : Vec Ideal S1x4096x64 .bf16) (kb : Vec Ideal S1x1024x64 .bf16) (mo : Vec Ideal S1x4096x1 .f32)
  (Qr : Fin 4096 → Fin 64 → ℝ) (Kr : Fin 1024 → Fin 64 → ℝ) (M : Fin 4096 → ℝ)

/-- The score payload at (row r, key j) is the real block score. -/
theorem pay8_real (hq : ∀ r e, q (ix3 (0 : Fin 1) r e) = ((Qr r e : ℝ) : EReal))
    (hk : ∀ j e, kb (ix3 (0 : Fin 1) j e) = ((Kr j e : ℝ) : EReal)) (r : Fin 4096) (j : Fin 1024) :
    k1_pay8 (F := Ideal) q kb (ix3 (0 : Fin 1) r j) = ((blockScore Qr Kr r j : ℝ) : EReal) := by
  refine (pay8_apply q kb (ix3 (0 : Fin 1) r j)).trans ?_
  rw [dotQK_apply q kb r j, ofBits_eighth]
  have hs : (∑ e : Fin 64, q (ix3 (0 : Fin 1) r e) * kb (ix3 (0 : Fin 1) j e)) = ((∑ e : Fin 64, Qr r e * Kr j e : ℝ) : EReal) := by
    rw [coe_sum]
    exact Finset.sum_congr rfl fun e _ => by rw [hq r e, hk j e, EReal.coe_mul]
  rw [hs, ← EReal.coe_mul]
  exact congrArg _ (by unfold blockScore; ring)

/-- The maximum payload at (0, r, 0) is a real: the old maximum is real and so are the row's 1024 scores. -/
theorem pay9_real (hq : ∀ r e, q (ix3 (0 : Fin 1) r e) = ((Qr r e : ℝ) : EReal))
    (hk : ∀ j e, kb (ix3 (0 : Fin 1) j e) = ((Kr j e : ℝ) : EReal))
    (hm : ∀ r, mo (ix3 (0 : Fin 1) r (0 : Fin 1)) = ((M r : ℝ) : EReal)) (r : Fin 4096) :
    k1_pay9 (F := Ideal) q kb mo (ix3 (0 : Fin 1) r (0 : Fin 1)) = ((muOf q kb mo r : ℝ) : EReal) := by
  have e := pay9_apply q kb mo r
  have hlane := laneMax_lt_top (k1_pay8 (F := Ideal) q kb) reduces_S1x4096x1024_S1x4096 (.inl rfl) rfl r
    (fun j => by rw [pay8_real q kb Qr Kr hq hk r j]; exact EReal.coe_lt_top _)
  have htop : k1_pay9 (F := Ideal) q kb mo (ix3 (0 : Fin 1) r (0 : Fin 1)) ≠ ⊤ := by
    rw [e, hm r]
    exact ne_of_lt (max_lt (EReal.coe_lt_top _) hlane)
  have hbot : k1_pay9 (F := Ideal) q kb mo (ix3 (0 : Fin 1) r (0 : Fin 1)) ≠ ⊥ := by
    rw [e, hm r]
    exact ne_of_gt (lt_of_lt_of_le (EReal.bot_lt_coe _) (le_max_left _ _))
  exact (EReal.coe_toReal htop hbot).symm

/-- The rescaling payload at (0, r, 0) is the real exponential of the old maximum minus the new one. -/
theorem pay10_real (hq : ∀ r e, q (ix3 (0 : Fin 1) r e) = ((Qr r e : ℝ) : EReal))
    (hk : ∀ j e, kb (ix3 (0 : Fin 1) j e) = ((Kr j e : ℝ) : EReal))
    (hm : ∀ r, mo (ix3 (0 : Fin 1) r (0 : Fin 1)) = ((M r : ℝ) : EReal)) (r : Fin 4096) :
    k1_pay10 (F := Ideal) q kb mo mo (ix3 (0 : Fin 1) r (0 : Fin 1)) = ((Real.exp (M r - muOf q kb mo r) : ℝ) : EReal) := by
  refine (pay10_apply q kb mo mo (ix3 (0 : Fin 1) r (0 : Fin 1))).trans ?_
  rw [pay9_real q kb mo Qr Kr M hq hk hm r, hm r, ← EReal.coe_sub, Ideal.exp_coe]

/-- The weight payload at (0, r, j) is the real exponential of the score minus the new maximum. -/
theorem pay11_real (hq : ∀ r e, q (ix3 (0 : Fin 1) r e) = ((Qr r e : ℝ) : EReal))
    (hk : ∀ j e, kb (ix3 (0 : Fin 1) j e) = ((Kr j e : ℝ) : EReal))
    (hm : ∀ r, mo (ix3 (0 : Fin 1) r (0 : Fin 1)) = ((M r : ℝ) : EReal)) (r : Fin 4096) (j : Fin 1024) :
    k1_pay11 (F := Ideal) q kb mo (ix3 (0 : Fin 1) r j) = ((Real.exp (blockScore Qr Kr r j - muOf q kb mo r) : ℝ) : EReal) := by
  refine (pay11_apply q kb mo r j).trans ?_
  rw [pay8_real q kb Qr Kr hq hk r j, pay9_real q kb mo Qr Kr M hq hk hm r, ← EReal.coe_sub, Ideal.exp_coe]

end Step

end Cert.KernelIdeal.Hand

end
-- ==== Proof.KI.StepValueB.lean ====
/-
  The pointwise pieces of the attention body at one element, at the ideal values, when the entries involved are real
  numbers: the final division of an accumulator row by its normaliser (the normaliser column broadcast along the row),
  the three reset values (a finite negative number for the running maximum, zero for the normaliser and the
  accumulator), and the cast of a column to its own shape, which changes nothing.
-/
import proofs.«122791_j2284922601686_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The quotient of two reals, the divisor not zero, is the real quotient. -/
theorem div_coe_real (a : ℝ) {b : ℝ} (hb : b ≠ 0) : Ideal.div (a : EReal) (b : EReal) = ((a / b : ℝ) : EReal) := by
  rw [Ideal.div_coe hb, ← EReal.coe_mul, mul_one_div]

/-- The word 0xFF333332 has exponent field 254, not 255 and not 0: it is a (negative) real number. -/
theorem ofBits_mask_real : ∃ cN : ℝ, Ideal.ofBits .f32 0xFF333332#32 = ((cN : ℝ) : EReal) := by
  show ∃ cN : ℝ, Ideal.ieee 8 23 (0xFF333332#32 : BitVec 32) = ((cN : ℝ) : EReal)
  unfold Ideal.ieee
  dsimp only
  rw [if_neg (by decide), if_neg (by decide)]
  exact ⟨_, rfl⟩

/-- The last step: an accumulator entry divided by its row's normaliser. -/
theorem pay3_real (r : Fin 4096) (d : Fin 64) (a : Vec Ideal S1x4096x64 .f32) (l : Vec Ideal S1x4096x1 .f32) (x y : ℝ)
    (hx : a (ix3 (0 : Fin 1) r d) = ((x : ℝ) : EReal)) (hy : l (ix3 (0 : Fin 1) r (0 : Fin 1)) = ((y : ℝ) : EReal))
    (hy0 : y ≠ 0) : k1_pay3 (F := Ideal) a l (ix3 (0 : Fin 1) r d) = ((x / y : ℝ) : EReal) := by
  unfold k1_pay3
  show Ideal.div (a (ix3 (0 : Fin 1) r d)) (broadcastTo S1x4096x64 l _ (ix3 (0 : Fin 1) r d)) = _
  rw [broadcastTo_apply l _ (ix3 (0 : Fin 1) r d) (ix3 (0 : Fin 1) r (0 : Fin 1)) (fun a => by
      match a with
      | ⟨0, _⟩ => show (0 : Nat) = if (1 : Nat) = 1 then 0 else _; rw [if_pos rfl]
      | ⟨1, _⟩ => show r.val = if (4096 : Nat) = 1 then 0 else r.val; rw [if_neg (by decide)]
      | ⟨2, _⟩ => show (0 : Nat) = if (1 : Nat) = 1 then 0 else _; rw [if_pos rfl]),
    hx, hy, div_coe_real _ hy0]

/-- The running maximum is reset to one finite negative number in every row. -/
theorem pay4_real : ∃ cN : ℝ, ∀ r : Fin 4096, k1_pay4 (F := Ideal) (ix3 (0 : Fin 1) r (0 : Fin 1)) = ((cN : ℝ) : EReal) := by
  obtain ⟨cN, h⟩ := ofBits_mask_real
  refine ⟨cN, fun r => ?_⟩
  unfold k1_pay4
  simp only [shapeCast_self]
  exact h

/-- The normaliser is reset to zero. -/
theorem pay5_real (r : Fin 4096) : k1_pay5 (F := Ideal) (ix3 (0 : Fin 1) r (0 : Fin 1)) = ((0 : ℝ) : EReal) := by
  unfold k1_pay5
  simp only [shapeCast_self]
  exact Ideal.ofBits_zero_f32.trans EReal.coe_zero.symm

/-- The accumulator is reset to zero. -/
theorem pay6_real (r : Fin 4096) (d : Fin 64) : k1_pay6 (F := Ideal) (ix3 (0 : Fin 1) r d) = ((0 : ℝ) : EReal) := by
  unfold k1_pay6
  simp only [shapeCast_self]
  exact Ideal.ofBits_zero_f32.trans EReal.coe_zero.symm

/-- A column cast to its own shape is the column. -/
theorem pay2_apply (x : FVec Ideal S1x4096x1 .f32) (i : S1x4096x1.Idx) : k1_pay2 (F := Ideal) x i = x i := by
  unfold k1_pay2
  simp only [shapeCast_self]

end Cert.KernelIdeal.Hand

end
-- ==== Proof.KI.StepValueC.lean ====
/-
  One step of the running accumulator at one element, at the ideal values, when the entries involved are real numbers:
  the old accumulator entry rescaled by its row's factor, plus the row of block weights times the column of block values.
-/
import proofs.«122791_j2284922601686_2_alg».proof.Proof.KI.Dots
import proofs.«122791_j2284922601686_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The coercion of a finite sum of reals is the sum of the coercions. -/
theorem sc_coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of extended reals that are real numbers is the real sum of products. -/
theorem sc_sum_mul_real {ι : Type*} [Fintype ι] (f g : ι → EReal) (a b : ι → ℝ)
    (hf : ∀ k, f k = (a k : EReal)) (hg : ∀ k, g k = (b k : EReal)) :
    ∑ k, f k * g k = ((∑ k, a k * b k : ℝ) : EReal) := by
  rw [sc_coe_sum]
  exact Finset.sum_congr rfl fun k _ => by rw [hf k, hg k, EReal.coe_mul]

/-- A column broadcast along its rows, read at (row r, column d), is the column's entry of row r. -/
theorem sc_bcast_col (w : FVec Ideal S1x4096x1 .f32) (h : S1x4096x1.Broadcasts S1x4096x64) (r : Fin 4096) (d : Fin 64) :
    broadcastTo S1x4096x64 w h (ix3 (0 : Fin 1) r d) = w (ix3 (0 : Fin 1) r (0 : Fin 1)) :=
  broadcastTo_apply w h (ix3 (0 : Fin 1) r d) (ix3 (0 : Fin 1) r (0 : Fin 1)) (fun a => by
    match a with
    | ⟨0, _⟩ => show (0 : Nat) = if (1 : Nat) = 1 then 0 else _; rw [if_pos rfl]
    | ⟨1, _⟩ => show r.val = if (4096 : Nat) = 1 then 0 else r.val; rw [if_neg (by decide)]
    | ⟨2, _⟩ => show (0 : Nat) = if (1 : Nat) = 1 then 0 else _; rw [if_pos rfl])

/-- The accumulator after a step, at (row r, column d): the row's factor times the old entry, plus the sum over the
    block's 1024 keys of the weight of (r, key) times the value of (key, d). -/
theorem pay1_of (vb : Vec Ideal S1x1024x64 .bf16) (w : FVec Ideal S1x4096x1 .f32) (p : FVec Ideal S1x4096x1024 .f32) (ao : Vec Ideal S1x4096x64 .f32)
    (Vr : Fin 1024 → Fin 64 → ℝ) (al : Fin 4096 → ℝ) (P : Fin 4096 → Fin 1024 → ℝ) (A : Fin 4096 → Fin 64 → ℝ)
    (hv : ∀ j d, vb (ix3 (0 : Fin 1) j d) = ((Vr j d : ℝ) : EReal)) (hw : ∀ r, w (ix3 (0 : Fin 1) r (0 : Fin 1)) = ((al r : ℝ) : EReal))
    (hp : ∀ r j, p (ix3 (0 : Fin 1) r j) = ((P r j : ℝ) : EReal)) (ha : ∀ r d, ao (ix3 (0 : Fin 1) r d) = ((A r d : ℝ) : EReal))
    (r : Fin 4096) (d : Fin 64) :
    k1_pay1 (F := Ideal) (k1_pay7 vb) w p ao (ix3 (0 : Fin 1) r d) = ((al r * A r d + ∑ j : Fin 1024, P r j * Vr j d : ℝ) : EReal) := by
  unfold k1_pay1 k1_pay7
  simp only [shapeCast_self]
  show broadcastTo S1x4096x64 w _ (ix3 (0 : Fin 1) r d) * ao (ix3 (0 : Fin 1) r d)
      + FloatOps.matmul dot_S1x4096x1024_S1x1024x64_S1x4096x64_2_1_1_2_0_0 none (truncf .bf16 p _) (vb : FVec Ideal S1x1024x64 .bf16)
          (constant S1x4096x64 .f32 0x00000000#32) (ix3 (0 : Fin 1) r d) = _
  rw [sc_bcast_col, dotPV_apply, hw, ha, ← EReal.coe_mul]
  simp only [truncf_apply]
  rw [sc_sum_mul_real _ _ (fun j => P r j) (fun j => Vr j d) (fun j => hp r j) (fun j => hv j d), ← EReal.coe_add]

end Cert.KernelIdeal.Hand

end
-- ==== Proof.KI.StepValueD.lean ====
/-
  The attention body's running normaliser at an index.  One grid step multiplies the old normaliser of row `r` by the
  rescaling factor of that row and adds the sum, over the 1024 keys of the step, of the exponentials of the shifted
  scores.  At the extended reals the lane sum onto a zero accumulator is the sum over the lane coordinate, the casts
  between [1, 4096] and [1, 4096, 1] keep the row, and with real factors and real exponentials the result is the real
  number `α r · l r + ∑ j, p r j`.
-/
import proofs.«122791_j2284922601686_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open scoped BigOperators

/-- The sum of the coercions is the coercion of the sum. -/
theorem sd_coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The lane sum of a [1, 4096, 1024] vector onto the zero accumulator, at row `r`: the sum over the lane coordinate. -/
theorem sd_laneSum (p : FVec Ideal S1x4096x1024 .f32) (hφ : FKind.Formats .f32)
    (hacc : (0x00000000#32 : BitVec 32) = FKind.add.neutral .f32 hφ) (r : Fin 4096) :
    (multiReduction .add [2] S1x4096 p 0x00000000#32 reduces_S1x4096x1024_S1x4096 hφ hacc : FVec Ideal S1x4096 .f32) (ix2 (0 : Fin 1) r)
      = ∑ j : Fin 1024, p (ix3 (0 : Fin 1) r j) := by
  refine (Ideal.multiReduction_add_single p 0x00000000#32 reduces_S1x4096x1024_S1x4096 hφ hacc (ix2 (0 : Fin 1) r)).trans ?_
  refine Finset.sum_congr rfl fun j _ => congrArg p (funext fun a => Fin.ext ?_)
  match a with
  | ⟨0, _⟩ => rfl
  | ⟨1, _⟩ => rfl
  | ⟨2, _⟩ => rfl

/-- The cast [1, 4096] → [1, 4096, 1] keeps the row. -/
theorem sd_colCast {α : Type} (x : S1x4096.Idx → α) (r : Fin 4096) :
    shapeCast S1x4096x1 x shapeCasts_S1x4096_S1x4096x1 (ix3 (0 : Fin 1) r (0 : Fin 1)) = x (ix2 (0 : Fin 1) r) :=
  shapeCast_apply x _ _ _ (by
    rw [Shape.rowMajor_val_three, Shape.rowMajor_val_two]
    show (0 : Nat) * 4096 + r.val = ((0 : Nat) * 4096 + r.val) * 1 + 0
    omega)

/-- The normaliser's arithmetic over any rescaling factors `w`, old normaliser `lo` and exponentials `p`. -/
theorem sd_norm_apply (w lo : FVec Ideal S1x4096x1 .f32) (p : FVec Ideal S1x4096x1024 .f32) (r : Fin 4096) :
    (shapeCast S1x4096x1 (addf (mulf w lo) (shapeCast S1x4096x1 (multiReduction .add [2] S1x4096 p 0x00000000#32 reduces_S1x4096x1024_S1x4096 (.inl rfl) rfl) shapeCasts_S1x4096_S1x4096x1)) shapeCasts_S1x4096x1_S1x4096x1 : FVec Ideal S1x4096x1 .f32) (ix3 (0 : Fin 1) r (0 : Fin 1))
      = w (ix3 (0 : Fin 1) r (0 : Fin 1)) * lo (ix3 (0 : Fin 1) r (0 : Fin 1)) + ∑ j : Fin 1024, p (ix3 (0 : Fin 1) r j) := by
  rw [shapeCast_self]
  show w (ix3 (0 : Fin 1) r (0 : Fin 1)) * lo (ix3 (0 : Fin 1) r (0 : Fin 1)) + (shapeCast S1x4096x1 (multiReduction .add [2] S1x4096 p 0x00000000#32 reduces_S1x4096x1024_S1x4096 (.inl rfl) rfl) shapeCasts_S1x4096_S1x4096x1 : FVec Ideal S1x4096x1 .f32) (ix3 (0 : Fin 1) r (0 : Fin 1)) = _
  refine congrArg (w (ix3 (0 : Fin 1) r (0 : Fin 1)) * lo (ix3 (0 : Fin 1) r (0 : Fin 1)) + ·) ?_
  refine (sd_colCast _ r).trans ?_
  exact sd_laneSum p (.inl rfl) rfl r

variable (q : Vec Ideal S1x4096x64 .bf16) (kb vb : Vec Ideal S1x1024x64 .bf16) (mo lo : Vec Ideal S1x4096x1 .f32) (ao : Vec Ideal S1x4096x64 .f32)

/-- The new normaliser of row `r`: with real rescaling factor `α r`, real old normaliser `l r` and real exponentials `p r j`
    it is `α r · l r + ∑ j, p r j`. -/
theorem pay12_of (al L : Fin 4096 → ℝ) (P : Fin 4096 → Fin 1024 → ℝ)
    (h10 : ∀ r, k1_pay10 (F := Ideal) q kb mo mo (ix3 (0 : Fin 1) r (0 : Fin 1)) = ((al r : ℝ) : EReal))
    (h11 : ∀ r j, k1_pay11 (F := Ideal) q kb mo (ix3 (0 : Fin 1) r j) = ((P r j : ℝ) : EReal))
    (hl : ∀ r, lo (ix3 (0 : Fin 1) r (0 : Fin 1)) = ((L r : ℝ) : EReal)) (r : Fin 4096) :
    k1_pay12 (F := Ideal) q kb mo mo lo (ix3 (0 : Fin 1) r (0 : Fin 1)) = ((al r * L r + ∑ j : Fin 1024, P r j : ℝ) : EReal) := by
  unfold k1_pay12
  refine (sd_norm_apply (k1_pay10 (F := Ideal) q kb mo mo) lo (k1_pay11 (F := Ideal) q kb mo) r).trans ?_
  rw [h10 r, hl r, EReal.coe_add, EReal.coe_mul, sd_coe_sum]
  exact congrArg (((al r : ℝ) : EReal) * ((L r : ℝ) : EReal) + ·) (Finset.sum_congr rfl fun j _ => h11 r j)

end Cert.KernelIdeal.Hand

end
-- ==== Proof.KI.PointIdx.lean ====
/-
  The attention grid's points as (batch, key block): point t handles batch t / 4 and the keys 1024·(t % 4) … 1024·(t % 4) + 1023.
-/
import proofs.«122791_j2284922601686_2_alg».proof.Proof.Gen.KernelIdeal.Launch

namespace Cert.KernelIdeal.Hand

open Cert.KernelIdeal Cert.KernelIdeal.Gen Idealize.ShloMosaic

/-- The batch a point works on. -/
def batchOf (t : Fin cfg1.N) : Fin 4 := ⟨t.val / 4, by have := t.isLt; have h : cfg1.N = 16 := N_1; omega⟩
/-- The key row, in the whole sequence, of row `j` of the point's key block. -/
def keyOf (t : Fin cfg1.N) (j : Fin 1024) : Fin 4096 := ⟨1024 * (t.val % 4) + j.val, by have := j.isLt; omega⟩

theorem batchOf_val (t : Fin cfg1.N) : (batchOf t).val = t.val / 4 := rfl
theorem keyOf_val (t : Fin cfg1.N) (j : Fin 1024) : (keyOf t j).val = 1024 * (t.val % 4) + j.val := rfl

end Cert.KernelIdeal.Hand
-- ==== Proof.KI.BlockReads.lean ====
/-
  The attention region's blocks as rows of its arrays.  The grid is (batch, key block): point t works on batch t / 4
  and key rows 1024·(t % 4) … 1024·(t % 4) + 1023.  The query window's block at t is the whole [4096, 64] slab of batch
  t / 4; the key and value windows' blocks are the 1024 rows of that slab that t's key block names; the output window's
  block is again the whole slab of batch t / 4, written back at the last key block (t % 4 = 3).  An element of a block
  sits in its array, on each axis, at block index × block size + its coordinate inside the block.  Here: the three
  operand blocks read at an element, and the output array after the region, given what every writing-back point leaves.
-/
import proofs.«122791_j2284922601686_2_alg».proof.Proof.KI.R1
import proofs.«122791_j2284922601686_2_alg».proof.Proof.KI.PointIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The printed index maps over the grid: the query and output windows' block index is (batch, 0, 0), the key and value
    windows' is (batch, key block, 0). -/
theorem idx1_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = t.val % 4 ∧ win1_2.index t (2 : Fin 3) = 0
    ∧ win1_3.index t (0 : Fin 3) = t.val / 4 ∧ win1_3.index t (1 : Fin 3) = 0 ∧ win1_3.index t (2 : Fin 3) = 0 :=
  (by decide +kernel : ∀ t : Fin grid1.N, _)

section
variable (V : (c : Dev nD) → (b : Ref sig .tc) → Buf (Elt F) ((c : Thread nD τ).loc b))

/-- The query block at a point is the slab of the point's batch. -/
theorem iblk1_0_apply (c : Dev nD) (t : Fin cfg1.N) (r : Fin 4096) (e : Fin 64) :
    (iblk1 V c 0 t : Vec F S1x4096x64 .bf16) (ix3 (0 : Fin 1) r e)
      = (V c main_v7 : S4x4096x64.Idx → Elt F .bf16) (ix3 (batchOf t) r e) := by
  obtain ⟨e0, e1, e2, -⟩ := idx1_facts t
  unfold iblk1
  rw [View.read_apply]
  show (V c main_v7 : S4x4096x64.Idx → Elt F .bf16) _ = (V c main_v7 : S4x4096x64.Idx → Elt F .bf16) _
  refine congrArg (V c main_v7 : S4x4096x64.Idx → Elt F .bf16) ?_
  funext a
  apply Fin.ext
  match a with
  | ⟨0, _⟩ => show win1_0.index t (0 : Fin 3) * 1 + 1 * 0 = t.val / 4; rw [e0]; omega
  | ⟨1, _⟩ => show win1_0.index t (1 : Fin 3) * 4096 + 1 * r.val = r.val; rw [e1]; omega
  | ⟨2, _⟩ => show win1_0.index t (2 : Fin 3) * 64 + 1 * e.val = e.val; rw [e2]; omega

/-- The key block at a point is the point's 1024 key rows of the slab of the point's batch. -/
theorem iblk1_1_apply (c : Dev nD) (t : Fin cfg1.N) (j : Fin 1024) (e : Fin 64) :
    (iblk1 V c 1 t : Vec F S1x1024x64 .bf16) (ix3 (0 : Fin 1) j e)
      = (V c main_v8 : S4x4096x64.Idx → Elt F .bf16) (ix3 (batchOf t) (keyOf t j) e) := by
  obtain ⟨-, -, -, e0, e1, e2, -⟩ := idx1_facts t
  unfold iblk1
  rw [View.read_apply]
  show (V c main_v8 : S4x4096x64.Idx → Elt F .bf16) _ = (V c main_v8 : S4x4096x64.Idx → Elt F .bf16) _
  refine congrArg (V c main_v8 : S4x4096x64.Idx → Elt F .bf16) ?_
  funext a
  apply Fin.ext
  match a with
  | ⟨0, _⟩ => show win1_1.index t (0 : Fin 3) * 1 + 1 * 0 = t.val / 4; rw [e0]; omega
  | ⟨1, _⟩ => show win1_1.index t (1 : Fin 3) * 1024 + 1 * j.val = 1024 * (t.val % 4) + j.val; rw [e1]; omega
  | ⟨2, _⟩ => show win1_1.index t (2 : Fin 3) * 64 + 1 * e.val = e.val; rw [e2]; omega

/-- The value block at a point is the point's 1024 key rows of the slab of the point's batch. -/
theorem iblk1_2_apply (c : Dev nD) (t : Fin cfg1.N) (j : Fin 1024) (e : Fin 64) :
    (iblk1 V c 2 t : Vec F S1x1024x64 .bf16) (ix3 (0 : Fin 1) j e)
      = (V c main_v9 : S4x4096x64.Idx → Elt F .bf16) (ix3 (batchOf t) (keyOf t j) e) := by
  obtain ⟨-, -, -, -, -, -, e0, e1, e2, -⟩ := idx1_facts t
  unfold iblk1
  rw [View.read_apply]
  show (V c main_v9 : S4x4096x64.Idx → Elt F .bf16) _ = (V c main_v9 : S4x4096x64.Idx → Elt F .bf16) _
  refine congrArg (V c main_v9 : S4x4096x64.Idx → Elt F .bf16) ?_
  funext a
  apply Fin.ext
  match a with
  | ⟨0, _⟩ => show win1_2.index t (0 : Fin 3) * 1 + 1 * 0 = t.val / 4; rw [e0]; omega
  | ⟨1, _⟩ => show win1_2.index t (1 : Fin 3) * 1024 + 1 * j.val = 1024 * (t.val % 4) + j.val; rw [e1]; omega
  | ⟨2, _⟩ => show win1_2.index t (2 : Fin 3) * 64 + 1 * e.val = e.val; rw [e2]; omega

/-- An index of the output array is in a point's block iff each coordinate is in the block's range on its axis. -/
theorem mem_blk1_3 (t : Fin cfg1.N) (i : S4x4096x64.Idx) :
    i ∈ ((cfg1.win 3).blk t).view.set
      ↔ ∀ a : Fin 3, win1_3.index t a * S1x4096x64.size a ≤ (i a).val
          ∧ (i a).val < win1_3.index t a * S1x4096x64.size a + S1x4096x64.size a := by
  show i ∈ ((View.whole main_v10).slice (win1_3.rect t)).set ↔ _
  rw [View.set_slice_whole, Rect.mem_set_unit]
  exact Iff.rfl

/-- If at every writing-back point (the last key block of a batch) the output block holds the rows of that batch of one
    function of the array's index, the output array ends holding that function: the four writing-back points' blocks
    are the four batches' slabs, which fill the array. -/
theorem final3 (c : Dev nD) (G : S4x4096x64.Idx → Elt F .f32)
    (hG : ∀ t : Fin cfg1.N, t.val % 4 = 3 → ∀ (r : Fin 4096) (d : Fin 64),
      (outsAt1 V c t.val t.isLt).1 (ix3 (0 : Fin 1) r d) = G (ix3 (batchOf t) r d)) :
    (dat1 V c).arrAt 3 cfg1.N = G := by
  refine (dat1 V c).arrAt_eq_of_cover 3 G (fun t hf => ?_) (fun i => ?_)
  · have h3 : t.val % 4 = 3 := (flush1_3 t).mp hf
    obtain ⟨-, -, -, -, -, -, -, -, -, e0, e1, e2⟩ := idx1_facts t
    show (cfg1.win 3).cut (grid1.coords t) ((dat1 V c).after 3 t) = _
    rw [after1_3]
    funext y
    obtain ⟨z, r, d, rfl⟩ : ∃ (z : Fin 1) (r : Fin 4096) (d : Fin 64), y = ix3 z r d := ⟨y 0, y 1, y 2, eq_ix3 y⟩
    obtain rfl : z = 0 := Subsingleton.elim _ _
    rw [View.read_apply]
    show (outsAt1 V c t.val t.isLt).1 (ix3 (0 : Fin 1) r d) = G _
    rw [hG t h3 r d]
    refine congrArg G ?_
    funext a
    apply Fin.ext
    match a with
    | ⟨0, _⟩ => show t.val / 4 = win1_3.index t (0 : Fin 3) * 1 + 1 * 0; rw [e0]; omega
    | ⟨1, _⟩ => show r.val = win1_3.index t (1 : Fin 3) * 4096 + 1 * r.val; rw [e1]; omega
    | ⟨2, _⟩ => show d.val = win1_3.index t (2 : Fin 3) * 64 + 1 * d.val; rw [e2]; omega
  · have hN : cfg1.N = 16 := N_1
    have hi0 : (i 0).val < 4 := (i 0).isLt
    have hi1 : (i 1).val < 4096 := (i 1).isLt
    have hi2 : (i 2).val < 64 := (i 2).isLt
    let t : Fin cfg1.N := ⟨4 * (i 0).val + 3, by omega⟩
    have ht : t.val = 4 * (i 0).val + 3 := rfl
    obtain ⟨-, -, -, -, -, -, -, -, -, e0, e1, e2⟩ := idx1_facts t
    refine ⟨t, (flush1_3 t).mpr (by omega), ?_⟩
    rw [mem_blk1_3]
    intro a
    match a with
    | ⟨0, _⟩ => show win1_3.index t (0 : Fin 3) * 1 ≤ (i 0).val ∧ (i 0).val < win1_3.index t (0 : Fin 3) * 1 + 1; rw [e0]; omega
    | ⟨1, _⟩ => show win1_3.index t (1 : Fin 3) * 4096 ≤ (i 1).val ∧ (i 1).val < win1_3.index t (1 : Fin 3) * 4096 + 4096; rw [e1]; omega
    | ⟨2, _⟩ => show win1_3.index t (2 : Fin 3) * 64 ≤ (i 2).val ∧ (i 2).val < win1_3.index t (2 : Fin 3) * 64 + 64; rw [e2]; omega

end

end Cert.KernelIdeal.Hand

end
-- ==== Proof.LibOnlineSoftmax.lean ====
/-
  The running-rescale ("online") evaluation of a softmax-weighted average, over the reals.

  A row of scores is cut into consecutive blocks `s j : κ → ℝ` (values `v j : κ → ℝ`).  The running state after the
  blocks before `j` is a triple (shift `m`, normaliser `l`, accumulator `a`); a step moves the shift to ANY new real
  `μ`, rescales the old normaliser and accumulator by `exp (m - μ)` and adds the block's terms `exp (s k - μ)`
  (times `v k` for the accumulator).  Whatever the shifts are (a running maximum, a sentinel, anything real), the
  state always is the unshifted totals times `exp (-m)`:

      l = exp (-m) * ∑ (blocks before) ∑ k, exp (s k)        a = exp (-m) * ∑ (blocks before) ∑ k, exp (s k) * v k

  so the final quotient `a / l` is the softmax-weighted average `(∑ exp s * v) / (∑ exp s)`, which is also what the
  two-pass form (subtract one shift `M`, exponentiate, divide each weight by the total, then average) computes.
  Nothing here mentions a program; the index types are arbitrary finite types.
-/
import Mathlib.Analysis.SpecialFunctions.Exp
import Mathlib.Algebra.BigOperators.Fin
import Mathlib.Algebra.BigOperators.Field

namespace OnlineSoftmax

open Real Finset

variable {κ : Type*} [Fintype κ]

/-- The running state: shift, normaliser, accumulator. -/
structure St where
  m : ℝ
  l : ℝ
  a : ℝ

/-- One block folded in, the shift moved to `μ`. -/
noncomputable def step (s v : κ → ℝ) (μ : ℝ) (st : St) : St where
  m := μ
  l := exp (st.m - μ) * st.l + ∑ k, exp (s k - μ)
  a := exp (st.m - μ) * st.a + ∑ k, exp (s k - μ) * v k

/-- The state is the unshifted totals `L`, `A` times `exp (-m)`. -/
def Inv (st : St) (L A : ℝ) : Prop := st.l = exp (-st.m) * L ∧ st.a = exp (-st.m) * A

theorem exp_shift (x μ : ℝ) : exp (x - μ) = exp (-μ) * exp x := by
  rw [← exp_add]; congr 1; ring

/-- A step keeps the invariant, the totals growing by the block's unshifted terms — for ANY new shift. -/
theorem step_inv (s v : κ → ℝ) (μ : ℝ) (st : St) (L A : ℝ) (h : Inv st L A) :
    Inv (step s v μ st) (L + ∑ k, exp (s k)) (A + ∑ k, exp (s k) * v k) := by
  obtain ⟨hl, ha⟩ := h
  have e : exp (st.m - μ) * exp (-st.m) = exp (-μ) := by rw [← exp_add]; congr 1; ring
  refine ⟨?_, ?_⟩
  · show exp (st.m - μ) * st.l + ∑ k, exp (s k - μ) = exp (-μ) * (L + ∑ k, exp (s k))
    rw [hl, ← mul_assoc, e, mul_add, Finset.mul_sum]
    congr 1
    exact Finset.sum_congr rfl fun k _ => exp_shift _ _
  · show exp (st.m - μ) * st.a + ∑ k, exp (s k - μ) * v k = exp (-μ) * (A + ∑ k, exp (s k) * v k)
    rw [ha, ← mul_assoc, e, mul_add, Finset.mul_sum]
    congr 1
    exact Finset.sum_congr rfl fun k _ => by rw [exp_shift, mul_assoc]

/-- The state after the first `j` blocks of a sequence, the shifts `μ` arbitrary, from `(c, 0, 0)`. -/
noncomputable def run (s v : ℕ → κ → ℝ) (μ : ℕ → ℝ) (c : ℝ) : ℕ → St
  | 0 => ⟨c, 0, 0⟩
  | j + 1 => step (s j) (v j) (μ j) (run s v μ c j)

theorem run_inv (s v : ℕ → κ → ℝ) (μ : ℕ → ℝ) (c : ℝ) (j : ℕ) :
    Inv (run s v μ c j) (∑ i ∈ range j, ∑ k, exp (s i k)) (∑ i ∈ range j, ∑ k, exp (s i k) * v i k) := by
  induction j with
  | zero => exact ⟨by simp [run], by simp [run]⟩
  | succ j ih =>
    rw [Finset.sum_range_succ, Finset.sum_range_succ]
    exact step_inv _ _ _ _ _ _ ih

/-- The quotient of a state in the invariant is the quotient of the unshifted totals. -/
theorem quot_of_inv (st : St) (L A : ℝ) (h : Inv st L A) : st.a / st.l = A / L := by
  obtain ⟨hl, ha⟩ := h
  rw [hl, ha, mul_div_mul_left _ _ (exp_pos _).ne']

/-- The two-pass form: shift by one `M`, exponentiate, divide each weight by their total, average. -/
theorem two_pass {ι : Type*} [Fintype ι] (s v : ι → ℝ) (M : ℝ) :
    ∑ t, exp (s t - M) / (∑ u, exp (s u - M)) * v t = (∑ t, exp (s t) * v t) / ∑ u, exp (s u) := by
  have hZ : ∑ u, exp (s u - M) = exp (-M) * ∑ u, exp (s u) := by
    rw [Finset.mul_sum]; exact Finset.sum_congr rfl fun u _ => exp_shift _ _
  rw [hZ, Finset.sum_div]
  refine Finset.sum_congr rfl fun t _ => ?_
  rw [exp_shift, mul_div_mul_left _ _ (exp_pos _).ne', div_mul_eq_mul_div]

/-- Both forms of one row agree: the running-rescale quotient after `n` blocks is the two-pass average over the
    row's `n` blocks laid side by side. -/
theorem run_quot_eq_two_pass (n : ℕ) (s v : ℕ → κ → ℝ) (μ : ℕ → ℝ) (c M : ℝ) :
    (run s v μ c n).a / (run s v μ c n).l
      = ∑ t : Fin n × κ, exp (s t.1 t.2 - M) / (∑ u : Fin n × κ, exp (s u.1 u.2 - M)) * v t.1 t.2 := by
  rw [quot_of_inv _ _ _ (run_inv s v μ c n), two_pass (fun t : Fin n × κ => s t.1 t.2) (fun t => v t.1 t.2) M,
    Fintype.sum_prod_type, Fintype.sum_prod_type, Fin.sum_univ_eq_sum_range (fun i => ∑ k, exp (s i k) * v i k),
    Fin.sum_univ_eq_sum_range (fun i => ∑ k, exp (s i k))]

end OnlineSoftmax
-- ==== Proof.AttnAlgebra.lean ====
/-
  The real-number side of the attention region: the unshifted totals of one query row over the first k key blocks, their
  growth by one block, their value after all four blocks as sums over the whole key sequence, and the quotient being
  the specification's attention average.
-/
import proofs.«122791_j2284922601686_2_alg».proof.Proof.Spec
import proofs.«122791_j2284922601686_2_alg».proof.Proof.LibOnlineSoftmax
import Mathlib.Logic.Equiv.Fin.Basic
import Mathlib.Algebra.BigOperators.Fin

namespace AttnSpec

open Finset Real

/-- Row `j` of key block `i` (blocks counted modulo 4) as a row of the whole sequence. -/
def key (i : ℕ) (j : Fin 1024) : Fin 4096 := ⟨1024 * (i % 4) + j.val, by have := j.isLt; omega⟩

theorem key_mod (i : ℕ) (j : Fin 1024) : key (i % 4) j = key i j := by
  unfold key; exact Fin.ext (by simp [Nat.mod_mod])

variable (q k v : Fin 4 → Fin 4096 → Fin 64 → ℝ)

/-- The normaliser's unshifted total over the first `b` key blocks. -/
noncomputable def Ltot (n : Fin 4) (r : Fin 4096) (b : ℕ) : ℝ :=
  ∑ i ∈ range b, ∑ j : Fin 1024, exp (score q k n r (key i j))
/-- The accumulator's unshifted total over the first `b` key blocks. -/
noncomputable def Atot (n : Fin 4) (r : Fin 4096) (d : Fin 64) (b : ℕ) : ℝ :=
  ∑ i ∈ range b, ∑ j : Fin 1024, exp (score q k n r (key i j)) * v n (key i j) d

theorem Ltot_zero (n : Fin 4) (r : Fin 4096) : Ltot q k n r 0 = 0 := by simp [Ltot]
theorem Atot_zero (n : Fin 4) (r : Fin 4096) (d : Fin 64) : Atot q k v n r d 0 = 0 := by simp [Atot]
theorem Ltot_succ (n : Fin 4) (r : Fin 4096) (b : ℕ) :
    Ltot q k n r (b + 1) = Ltot q k n r b + ∑ j : Fin 1024, exp (score q k n r (key b j)) := by
  unfold Ltot; rw [Finset.sum_range_succ]
theorem Atot_succ (n : Fin 4) (r : Fin 4096) (d : Fin 64) (b : ℕ) :
    Atot q k v n r d (b + 1) = Atot q k v n r d b + ∑ j : Fin 1024, exp (score q k n r (key b j)) * v n (key b j) d := by
  unfold Atot; rw [Finset.sum_range_succ]

/-- The four key blocks laid side by side are the whole key sequence. -/
theorem sum_keys (f : Fin 4096 → ℝ) : ∑ i ∈ range 4, ∑ j : Fin 1024, f (key i j) = ∑ t : Fin 4096, f t := by
  rw [← Fin.sum_univ_eq_sum_range (fun i => ∑ j : Fin 1024, f (key i j)) 4, ← Fintype.sum_prod_type']
  refine Fintype.sum_equiv (finProdFinEquiv : Fin 4 × Fin 1024 ≃ Fin 4096) _ _ fun p => ?_
  refine congrArg f (Fin.ext ?_)
  obtain ⟨i, j⟩ := p
  show 1024 * (i.val % 4) + j.val = j.val + 1024 * i.val
  have := i.isLt
  rw [Nat.mod_eq_of_lt this]; omega

theorem Ltot_four (n : Fin 4) (r : Fin 4096) : Ltot q k n r 4 = ∑ t : Fin 4096, exp (score q k n r t) :=
  sum_keys fun t => exp (score q k n r t)
theorem Atot_four (n : Fin 4) (r : Fin 4096) (d : Fin 64) :
    Atot q k v n r d 4 = ∑ t : Fin 4096, exp (score q k n r t) * v n t d :=
  sum_keys fun t => exp (score q k n r t) * v n t d

theorem Ltot_four_pos (n : Fin 4) (r : Fin 4096) : 0 < Ltot q k n r 4 := by
  rw [Ltot_four]
  exact Finset.sum_pos (fun t _ => exp_pos _) ⟨⟨0, by decide⟩, Finset.mem_univ _⟩

/-- After all four blocks the quotient of the totals is the attention average. -/
theorem quot_four (n : Fin 4) (r : Fin 4096) (d : Fin 64) :
    Atot q k v n r d 4 / Ltot q k n r 4 = attn q k v n r d := by
  rw [Atot_four, Ltot_four]; rfl

end AttnSpec
-- ==== Proof.KI.AttnValue.lean ====
/-
  The attention region's value.  Per query row the carried maximum is some real and the carried normaliser and
  accumulator are exp (-maximum) times the unshifted totals over the key blocks seen so far: this holds after the reset
  at key block 0 and is kept by every fold, whatever the running maxima are.  At the last key block the stored quotient
  is therefore the quotient of the totals over the whole key sequence, the attention average; and since the output
  block of a batch is written back exactly then, the output array ends holding the attention average everywhere.
-/
import proofs.«122791_j2284922601686_2_alg».proof.Proof.KI.Pieces
import proofs.«122791_j2284922601686_2_alg».proof.Proof.KI.StepValue
import proofs.«122791_j2284922601686_2_alg».proof.Proof.KI.StepValueB
import proofs.«122791_j2284922601686_2_alg».proof.Proof.KI.StepValueC
import proofs.«122791_j2284922601686_2_alg».proof.Proof.KI.StepValueD
import proofs.«122791_j2284922601686_2_alg».proof.Proof.KI.BlockReads
import proofs.«122791_j2284922601686_2_alg».proof.Proof.AttnAlgebra

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Step

variable (x0 : Vec Ideal S1x4096x64 .bf16) (x1 x2 : Vec Ideal S1x1024x64 .bf16)
  (s0 s1 : Vec Ideal S1x4096x1 .f32) (s2 : Vec Ideal S1x4096x64 .f32)
  (Qr : Fin 4096 → Fin 64 → ℝ) (Kr Vr : Fin 1024 → Fin 64 → ℝ)

/-- One fold on real data: if the carried buffers are (a real maximum, exp (-maximum) times totals), so are the new
    ones, the totals grown by the block's unshifted terms. -/
theorem step_keeps (hq : ∀ r e, x0 (ix3 (0 : Fin 1) r e) = ((Qr r e : ℝ) : EReal))
    (hk : ∀ j e, x1 (ix3 (0 : Fin 1) j e) = ((Kr j e : ℝ) : EReal)) (hv : ∀ j d, x2 (ix3 (0 : Fin 1) j d) = ((Vr j d : ℝ) : EReal))
    (Mo Lt : Fin 4096 → ℝ) (At : Fin 4096 → Fin 64 → ℝ)
    (h0 : ∀ r, s0 (ix3 (0 : Fin 1) r (0 : Fin 1)) = ((Mo r : ℝ) : EReal))
    (h1 : ∀ r, s1 (ix3 (0 : Fin 1) r (0 : Fin 1)) = ((Real.exp (-(Mo r)) * Lt r : ℝ) : EReal))
    (h2 : ∀ r d, s2 (ix3 (0 : Fin 1) r d) = ((Real.exp (-(Mo r)) * At r d : ℝ) : EReal)) :
    ∃ Mf : Fin 4096 → ℝ,
      (∀ r, stepM (F := Ideal) x0 x1 s0 (ix3 (0 : Fin 1) r (0 : Fin 1)) = ((Mf r : ℝ) : EReal))
      ∧ (∀ r, stepL (F := Ideal) x0 x1 s0 s1 (ix3 (0 : Fin 1) r (0 : Fin 1))
          = ((Real.exp (-(Mf r)) * (Lt r + ∑ j : Fin 1024, Real.exp (blockScore Qr Kr r j)) : ℝ) : EReal))
      ∧ (∀ r d, stepA (F := Ideal) x0 x1 x2 s0 s2 (ix3 (0 : Fin 1) r d)
          = ((Real.exp (-(Mf r)) * (At r d + ∑ j : Fin 1024, Real.exp (blockScore Qr Kr r j) * Vr j d) : ℝ) : EReal)) := by
  refine ⟨muOf x0 x1 s0, fun r => ?_, fun r => ?_, fun r d => ?_⟩
  · unfold stepM
    rw [pay2_apply]
    exact pay9_real x0 x1 s0 Qr Kr Mo hq hk h0 r
  · unfold stepL
    refine (pay12_of x0 x1 s0 s1 (fun r => Real.exp (Mo r - muOf x0 x1 s0 r)) (fun r => Real.exp (-(Mo r)) * Lt r)
      (fun r j => Real.exp (blockScore Qr Kr r j - muOf x0 x1 s0 r))
      (pay10_real x0 x1 s0 Qr Kr Mo hq hk h0) (pay11_real x0 x1 s0 Qr Kr Mo hq hk h0) h1 r).trans (congrArg (fun x : ℝ => (x : EReal)) ?_)
    exact (OnlineSoftmax.step_inv (κ := Fin 1024) (fun j => blockScore Qr Kr r j) (fun _ => 0) (muOf x0 x1 s0 r)
      ⟨Mo r, Real.exp (-(Mo r)) * Lt r, Real.exp (-(Mo r)) * 0⟩ (Lt r) 0 ⟨rfl, rfl⟩).1
  · unfold stepA
    refine (pay1_of x2 (k1_pay10 (F := Ideal) x0 x1 s0 s0) (k1_pay11 (F := Ideal) x0 x1 s0) s2 Vr (fun r => Real.exp (Mo r - muOf x0 x1 s0 r))
      (fun r j => Real.exp (blockScore Qr Kr r j - muOf x0 x1 s0 r)) (fun r d => Real.exp (-(Mo r)) * At r d)
      hv (pay10_real x0 x1 s0 Qr Kr Mo hq hk h0) (pay11_real x0 x1 s0 Qr Kr Mo hq hk h0) h2 r d).trans (congrArg (fun x : ℝ => (x : EReal)) ?_)
    exact (OnlineSoftmax.step_inv (κ := Fin 1024) (fun j => blockScore Qr Kr r j) (fun j => Vr j d) (muOf x0 x1 s0 r)
      ⟨Mo r, Real.exp (-(Mo r)) * Lt r, Real.exp (-(Mo r)) * At r d⟩ (Lt r) (At r d) ⟨rfl, rfl⟩).2

end Step

section Region

variable (V : (c : Dev nD) → (b : Ref sig .tc) → Buf (Elt Ideal) ((c : Thread nD τ).loc b)) (c : Dev nD)
  (qr kr vr : Fin 4 → Fin 4096 → Fin 64 → ℝ)
  (hq : ∀ n s e, (V c main_v7 : S4x4096x64.Idx → EReal) (ix3 n s e) = ((qr n s e : ℝ) : EReal))
  (hk : ∀ n s e, (V c main_v8 : S4x4096x64.Idx → EReal) (ix3 n s e) = ((kr n s e : ℝ) : EReal))
  (hv : ∀ n s e, (V c main_v9 : S4x4096x64.Idx → EReal) (ix3 n s e) = ((vr n s e : ℝ) : EReal))

include hq hk hv

/-- One fold at grid point `t`, on the point's blocks of the three projected arrays: totals over `t % 4` key blocks
    become totals over `t % 4 + 1`. -/
theorem advance (t : Fin cfg1.N) (s0 s1 : Vec Ideal S1x4096x1 .f32) (s2 : Vec Ideal S1x4096x64 .f32) (Mo : Fin 4096 → ℝ)
    (h0 : ∀ r, s0 (ix3 (0 : Fin 1) r (0 : Fin 1)) = ((Mo r : ℝ) : EReal))
    (h1 : ∀ r, s1 (ix3 (0 : Fin 1) r (0 : Fin 1)) = ((Real.exp (-(Mo r)) * AttnSpec.Ltot qr kr (batchOf t) r (t.val % 4) : ℝ) : EReal))
    (h2 : ∀ r d, s2 (ix3 (0 : Fin 1) r d) = ((Real.exp (-(Mo r)) * AttnSpec.Atot qr kr vr (batchOf t) r d (t.val % 4) : ℝ) : EReal)) :
    ∃ Mf : Fin 4096 → ℝ,
      (∀ r, stepM (F := Ideal) (iblk1 V c 0 t) (iblk1 V c 1 t) s0 (ix3 (0 : Fin 1) r (0 : Fin 1)) = ((Mf r : ℝ) : EReal))
      ∧ (∀ r, stepL (F := Ideal) (iblk1 V c 0 t) (iblk1 V c 1 t) s0 s1 (ix3 (0 : Fin 1) r (0 : Fin 1))
          = ((Real.exp (-(Mf r)) * AttnSpec.Ltot qr kr (batchOf t) r (t.val % 4 + 1) : ℝ) : EReal))
      ∧ (∀ r d, stepA (F := Ideal) (iblk1 V c 0 t) (iblk1 V c 1 t) (iblk1 V c 2 t) s0 s2 (ix3 (0 : Fin 1) r d)
          = ((Real.exp (-(Mf r)) * AttnSpec.Atot qr kr vr (batchOf t) r d (t.val % 4 + 1) : ℝ) : EReal)) := by
  have hsc : ∀ r j, blockScore (qr (batchOf t)) (fun j e => kr (batchOf t) (keyOf t j) e) r j
      = AttnSpec.score qr kr (batchOf t) r (AttnSpec.key (t.val % 4) j) := fun r j => by
    rw [AttnSpec.key_mod]; rfl
  have hkey : ∀ j, keyOf t j = AttnSpec.key (t.val % 4) j := fun j => by rw [AttnSpec.key_mod]; rfl
  obtain ⟨Mf, hM, hL, hA⟩ := step_keeps (iblk1 V c 0 t) (iblk1 V c 1 t) (iblk1 V c 2 t) s0 s1 s2
    (qr (batchOf t)) (fun j e => kr (batchOf t) (keyOf t j) e) (fun j d => vr (batchOf t) (keyOf t j) d)
    (fun r e => (iblk1_0_apply V c t r e).trans (hq _ _ _))
    (fun j e => (iblk1_1_apply V c t j e).trans (hk _ _ _))
    (fun j d => (iblk1_2_apply V c t j d).trans (hv _ _ _))
    Mo (fun r => AttnSpec.Ltot qr kr (batchOf t) r (t.val % 4)) (fun r d => AttnSpec.Atot qr kr vr (batchOf t) r d (t.val % 4))
    h0 h1 h2
  refine ⟨Mf, hM, fun r => ?_, fun r d => ?_⟩
  · rw [hL r, AttnSpec.Ltot_succ]
    simp only [hsc]
  · rw [hA r d, AttnSpec.Atot_succ]
    simp only [hsc]
    simp only [hkey]

/-- After every grid point the carried buffers are a real maximum and exp (-maximum) times the totals over the key
    blocks of the point's batch seen so far. -/
def StInv (n : ℕ) (hn : n < cfg1.N) : Prop :=
  ∃ Mf : Fin 4096 → ℝ,
    (∀ r, (outsAt1 V c n hn).2.1 (ix3 (0 : Fin 1) r (0 : Fin 1)) = ((Mf r : ℝ) : EReal))
    ∧ (∀ r, (outsAt1 V c n hn).2.2.1 (ix3 (0 : Fin 1) r (0 : Fin 1))
        = ((Real.exp (-(Mf r)) * AttnSpec.Ltot qr kr (batchOf ⟨n, hn⟩) r (n % 4 + 1) : ℝ) : EReal))
    ∧ (∀ r d, (outsAt1 V c n hn).2.2.2 (ix3 (0 : Fin 1) r d)
        = ((Real.exp (-(Mf r)) * AttnSpec.Atot qr kr vr (batchOf ⟨n, hn⟩) r d (n % 4 + 1) : ℝ) : EReal))

/-- At key block 0: the reset values are a real, zero and zero, that is, totals over no block. -/
theorem stInv_first (t : Fin cfg1.N) (h0 : t.val % 4 = 0) : StInv V c qr kr vr t.val t.isLt := by
  have h1 : ¬t.val % 4 = 3 := by omega
  obtain ⟨cN, hcN⟩ := pay4_real
  unfold StInv
  rw [outsAt1_A V c t h0 h1]
  dsimp only
  rw [sout1_A_0_eq, sout1_A_1_eq, sout1_A_2_eq]
  refine advance V c qr kr vr hq hk hv t _ _ _ (fun _ => cN) hcN (fun r => ?_) (fun r d => ?_)
  · rw [pay5_real r, h0, AttnSpec.Ltot_zero, mul_zero]
  · rw [pay6_real r d, h0, AttnSpec.Atot_zero, mul_zero]

/-- At a later key block: one fold onto what the point before left. -/
theorem stInv_next (t : Fin cfg1.N) (h0 : ¬t.val % 4 = 0)
    (ih : StInv V c qr kr vr (t.val - 1) (Nat.lt_of_le_of_lt (Nat.sub_le _ _) t.isLt)) : StInv V c qr kr vr t.val t.isLt := by
  obtain ⟨Mo, hM, hL, hA⟩ := ih
  have e1 : batchOf ⟨t.val - 1, Nat.lt_of_le_of_lt (Nat.sub_le _ _) t.isLt⟩ = batchOf t :=
    Fin.ext (by show (t.val - 1) / 4 = t.val / 4; omega)
  have e2 : (t.val - 1) % 4 + 1 = t.val % 4 := by omega
  rw [e1, e2] at hL hA
  unfold StInv
  by_cases h1 : t.val % 4 = 3
  · rw [outsAt1_C V c t h0 h1]
    dsimp only
    rw [sout1_C_0_eq, sout1_C_1_eq, sout1_C_2_eq]
    exact advance V c qr kr vr hq hk hv t _ _ _ Mo hM hL hA
  · rw [outsAt1_B V c t h0 h1]
    dsimp only
    rw [sout1_B_0_eq, sout1_B_1_eq, sout1_B_2_eq]
    exact advance V c qr kr vr hq hk hv t _ _ _ Mo hM hL hA

theorem stInv : ∀ (n : ℕ) (hn : n < cfg1.N), StInv V c qr kr vr n hn := by
  intro n
  induction n with
  | zero => intro hn; exact stInv_first V c qr kr vr hq hk hv ⟨0, hn⟩ rfl
  | succ n ih =>
    intro hn
    by_cases h0 : (n + 1) % 4 = 0
    · exact stInv_first V c qr kr vr hq hk hv ⟨n + 1, hn⟩ h0
    · exact stInv_next V c qr kr vr hq hk hv ⟨n + 1, hn⟩ h0 (ih _)

/-- At the last key block of a batch the output block holds the attention average of that batch's rows. -/
theorem out_value (t : Fin cfg1.N) (h3 : t.val % 4 = 3) (r : Fin 4096) (d : Fin 64) :
    (outsAt1 V c t.val t.isLt).1 (ix3 (0 : Fin 1) r d) = ((AttnSpec.attn qr kr vr (batchOf t) r d : ℝ) : EReal) := by
  have h0 : ¬t.val % 4 = 0 := by omega
  obtain ⟨Mo, hM, hL, hA⟩ := stInv V c qr kr vr hq hk hv (t.val - 1) (Nat.lt_of_le_of_lt (Nat.sub_le _ _) t.isLt)
  have e1 : batchOf ⟨t.val - 1, Nat.lt_of_le_of_lt (Nat.sub_le _ _) t.isLt⟩ = batchOf t :=
    Fin.ext (by show (t.val - 1) / 4 = t.val / 4; omega)
  have e2 : (t.val - 1) % 4 + 1 = t.val % 4 := by omega
  rw [e1, e2] at hL hA
  rw [outsAt1_C V c t h0 h3]
  dsimp only
  rw [out1_C_3_eq]
  obtain ⟨Mf, -, hL', hA'⟩ := advance V c qr kr vr hq hk hv t _ _ _ Mo hM hL hA
  have e4 : t.val % 4 + 1 = 4 := by omega
  rw [e4] at hL' hA'
  have hpos : Real.exp (-(Mf r)) * AttnSpec.Ltot qr kr (batchOf t) r 4 ≠ 0 :=
    (mul_pos (Real.exp_pos _) (AttnSpec.Ltot_four_pos qr kr (batchOf t) r)).ne'
  refine (pay3_real (r := r) (d := d) _ _ _ _ (hA' r d) (hL' r) hpos).trans (congrArg (fun x : ℝ => (x : EReal)) ?_)
  rw [mul_div_mul_left _ _ (Real.exp_pos _).ne', AttnSpec.quot_four]

/-- The output array after the region: the attention average, index by index. -/
theorem attn_value :
    (dat1 V c).arrAt 3 cfg1.N = (fun i => ((AttnSpec.attn qr kr vr (i 0) (i 1) (i 2) : ℝ) : EReal) : S4x4096x64.Idx → EReal) :=
  final3 V c _ fun t h3 r d => out_value V c qr kr vr hq hk hv t h3 r d

end Region

end Cert.KernelIdeal.Hand

end
-- ==== Proof.RefValue.lean ====
/-
  The reference program's result, read entry by entry, is the specification's attention head.

  Every argument entry is assumed to be a real number.  Then every intermediate entry of the reference is a real
  number too, and can be named: the three projections are real sums plus a bias, a score is a real dot product divided
  by 8 (the square root of 64), the row maximum is SOME real number (a maximum of finitely many reals over a non-empty
  row; its value never matters), the shifted exponentials and their row total are positive reals, and the last
  contraction is the weighted average.  Removing the shift is the two-pass identity for softmax weights.
-/
import proofs.«122791_j2284922601686_2_alg».proof.Proof.Gen.ReferenceIdeal.Read
import proofs.«122791_j2284922601686_2_alg».proof.Proof.Spec
import proofs.«122791_j2284922601686_2_alg».proof.Proof.LibOnlineSoftmax
import Idealize.ShloMosaic.PureOps.Ideal.Laws
import Idealize.ShloMosaic.PureOps.Reduce
import Idealize.ShloMosaic.Lib.ValueIdx

noncomputable section

namespace Cert.ReferenceIdeal.RefValue

open Idealize.ShloMosaic Idealize.ShloMosaic.ValueIdx

/-! ## Extended reals that are real numbers -/

section Reals

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of extended reals that are real numbers is the real sum of products. -/
theorem sum_mul_real {ι : Type*} [Fintype ι] (f g : ι → EReal) (a b : ι → ℝ)
    (hf : ∀ k, f k = (a k : EReal)) (hg : ∀ k, g k = (b k : EReal)) :
    ∑ k, f k * g k = ((∑ k, a k * b k : ℝ) : EReal) := by
  rw [coe_sum]
  exact Finset.sum_congr rfl fun k _ => by rw [hf k, hg k, EReal.coe_mul]

/-- A finite sum of extended reals that are real numbers is the real sum. -/
theorem sum_real {ι : Type*} [Fintype ι] (f : ι → EReal) (a : ι → ℝ) (hf : ∀ k, f k = (a k : EReal)) :
    ∑ k, f k = ((∑ k, a k : ℝ) : EReal) := by
  rw [coe_sum]
  exact Finset.sum_congr rfl fun k _ => hf k

/-- The quotient of two reals, the divisor not zero, is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The word 0x42800000 is the number 64. -/
theorem ofBits_sixtyfour : Ideal.ofBits .f32 0x42800000#32 = ((64 : ℝ) : EReal) := by
  simp [Ideal.ofBits, Ideal.ieee, -EReal.coe_mul]; norm_num

/-- The word 0xFF800000 is minus infinity. -/
theorem ofBits_neg_inf : Ideal.ofBits .f32 0xFF800000#32 = (⊥ : EReal) := by
  simp [Ideal.ofBits, Ideal.ieee]

/-- The square root of 64 is 8. -/
theorem sqrt_sixtyfour : Ideal.sqrt ((64 : ℝ) : EReal) = ((8 : ℝ) : EReal) := by
  rw [Ideal.sqrt_coe, if_neg (by norm_num)]
  have h : Real.sqrt 64 = 8 := by
    rw [show (64 : ℝ) = 8 ^ 2 by norm_num, Real.sqrt_sq (by norm_num)]
  rw [h]

/-- The maximum of two reals, as extended reals. -/
theorem max_real (r M : ℝ) : max (r : EReal) (M : EReal) = ((max r M : ℝ) : EReal) :=
  (EReal.coe_strictMono.monotone.map_max).symm

/-- A fold of the maximum from minus infinity over a non-empty finite family of real numbers is a real number. -/
theorem fold_max_real {ι : Type*} (op : EReal → EReal → EReal) [Std.Commutative op] [Std.Associative op]
    (hop : ∀ x y, op x y = max x y) (s : Finset ι) (hs : s.Nonempty) (f : ι → EReal)
    (hf : ∀ k, ∃ r : ℝ, f k = (r : EReal)) : ∃ M : ℝ, s.fold op ⊥ f = (M : EReal) := by
  induction hs using Finset.Nonempty.cons_induction with
  | singleton a =>
    obtain ⟨r, hr⟩ := hf a
    exact ⟨r, by rw [Finset.fold_singleton, hop, hr, max_eq_left bot_le]⟩
  | cons a s ha hs ih =>
    obtain ⟨M, hM⟩ := ih
    obtain ⟨r, hr⟩ := hf a
    exact ⟨max r M, by rw [Finset.fold_cons, hM, hr, hop, max_real]⟩

end Reals

/-! ## The reference's stages at an index -/

section Stages

open Cert.ReferenceIdeal Cert.ReferenceIdeal.Gen

/-- A row of an input times a column of a weight matrix, plus the bias entry. -/
theorem proj_real (X : Fin 4 → Fin 4096 → Fin 1024 → ℝ) (W : Fin 1024 → Fin 64 → ℝ) (B : Fin 64 → ℝ)
    (x : (⟨S4x4096x1024, .f32⟩ : BufTy).Contents (Elt Ideal)) (w : (⟨S1024x64, .f32⟩ : BufTy).Contents (Elt Ideal)) (b : (⟨S64, .f32⟩ : BufTy).Contents (Elt Ideal))
    (hx : ∀ n s k, x (ix3 n s k) = ((X n s k : ℝ) : EReal)) (hw : ∀ k d, w (ix2 k d) = ((W k d : ℝ) : EReal))
    (hb : ∀ d, b (ix1 d) = ((B d : ℝ) : EReal)) (n : Fin 4) (s : Fin 4096) (d : Fin 64) :
    FloatOps.addf (F := Ideal) (φ := .f32) (∑ k : Fin 1024, x (ix3 n s k) * w (ix2 k d)) (b (ix1 d))
      = ((AttnSpec.proj X W B n s d : ℝ) : EReal) := by
  rw [Ideal.addf_def, sum_mul_real _ _ (fun k => X n s k) (fun k => W k d) (fun k => hx n s k) (fun k => hw k d), hb,
    ← EReal.coe_add]
  rfl

theorem lidx_v0 (n : Fin 4) (s : Fin 4096) (d : Fin 64) (k : Fin 1024) :
    Read.lidx_main_v0 (ix3 n s d) k = ix3 n s k :=
  funext fun a => by match a with | ⟨0, _⟩ => rfl | ⟨1, _⟩ => rfl | ⟨2, _⟩ => rfl
theorem ridx_v0 (n : Fin 4) (s : Fin 4096) (d : Fin 64) (k : Fin 1024) :
    Read.ridx_main_v0 (ix3 n s d) k = ix2 k d :=
  funext fun a => by match a with | ⟨0, _⟩ => rfl | ⟨1, _⟩ => rfl
theorem idx_v1_v2 (n : Fin 4) (s : Fin 4096) (d : Fin 64) :
    Read.idx_main_v1 (Read.idx_main_v2 (ix3 n s d)) = ix1 d :=
  funext fun a => by match a with | ⟨0, _⟩ => rfl

/-- Stage v3: a projected row entry is the specification's projection. -/
theorem v3_real (Q : Fin 4 → Fin 4096 → Fin 1024 → ℝ) (Wq : Fin 1024 → Fin 64 → ℝ) (bq : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (n : Fin 4) (s : Fin 4096) (d : Fin 64) :
    Read.val_main_v3 (F := Ideal) x0 x3 x4 (ix3 n s d) = ((AttnSpec.proj Q Wq bq n s d : ℝ) : EReal) := by
  rw [Read.val_main_v3_apply, Read.val_main_v0_apply, Read.val_main_v2_apply, Read.val_main_v1_apply, idx_v1_v2]
  simp only [lidx_v0, ridx_v0]
  exact proj_real Q Wq bq x0 x3 x4 h0 h3 h4 n s d

theorem lidx_v4 (n : Fin 4) (s : Fin 4096) (d : Fin 64) (k : Fin 1024) :
    Read.lidx_main_v4 (ix3 n s d) k = ix3 n s k :=
  funext fun a => by match a with | ⟨0, _⟩ => rfl | ⟨1, _⟩ => rfl | ⟨2, _⟩ => rfl
theorem ridx_v4 (n : Fin 4) (s : Fin 4096) (d : Fin 64) (k : Fin 1024) :
    Read.ridx_main_v4 (ix3 n s d) k = ix2 k d :=
  funext fun a => by match a with | ⟨0, _⟩ => rfl | ⟨1, _⟩ => rfl
theorem idx_v5_v6 (n : Fin 4) (s : Fin 4096) (d : Fin 64) :
    Read.idx_main_v5 (Read.idx_main_v6 (ix3 n s d)) = ix1 d :=
  funext fun a => by match a with | ⟨0, _⟩ => rfl

/-- Stage v7: a projected row entry is the specification's projection. -/
theorem v7_real (K : Fin 4 → Fin 4096 → Fin 1024 → ℝ) (Wk : Fin 1024 → Fin 64 → ℝ) (bk : Fin 64 → ℝ)
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (n : Fin 4) (s : Fin 4096) (d : Fin 64) :
    Read.val_main_v7 (F := Ideal) x1 x5 x6 (ix3 n s d) = ((AttnSpec.proj K Wk bk n s d : ℝ) : EReal) := by
  rw [Read.val_main_v7_apply, Read.val_main_v4_apply, Read.val_main_v6_apply, Read.val_main_v5_apply, idx_v5_v6]
  simp only [lidx_v4, ridx_v4]
  exact proj_real K Wk bk x1 x5 x6 h1 h5 h6 n s d

theorem lidx_v8 (n : Fin 4) (s : Fin 4096) (d : Fin 64) (k : Fin 1024) :
    Read.lidx_main_v8 (ix3 n s d) k = ix3 n s k :=
  funext fun a => by match a with | ⟨0, _⟩ => rfl | ⟨1, _⟩ => rfl | ⟨2, _⟩ => rfl
theorem ridx_v8 (n : Fin 4) (s : Fin 4096) (d : Fin 64) (k : Fin 1024) :
    Read.ridx_main_v8 (ix3 n s d) k = ix2 k d :=
  funext fun a => by match a with | ⟨0, _⟩ => rfl | ⟨1, _⟩ => rfl
theorem idx_v9_v10 (n : Fin 4) (s : Fin 4096) (d : Fin 64) :
    Read.idx_main_v9 (Read.idx_main_v10 (ix3 n s d)) = ix1 d :=
  funext fun a => by match a with | ⟨0, _⟩ => rfl

/-- Stage v11: a projected row entry is the specification's projection. -/
theorem v11_real (V : Fin 4 → Fin 4096 → Fin 1024 → ℝ) (Wv : Fin 1024 → Fin 64 → ℝ) (bv : Fin 64 → ℝ)
    (x2 : (⟨S4x4096x1024, .f32⟩ : BufTy).Contents (Elt Ideal)) (x7 : (⟨S1024x64, .f32⟩ : BufTy).Contents (Elt Ideal)) (x8 : (⟨S64, .f32⟩ : BufTy).Contents (Elt Ideal))
    (h2 : ∀ n s k, x2 (ix3 n s k) = ((V n s k : ℝ) : EReal)) (h7 : ∀ k d, x7 (ix2 k d) = ((Wv k d : ℝ) : EReal)) (h8 : ∀ d, x8 (ix1 d) = ((bv d : ℝ) : EReal))
    (n : Fin 4) (s : Fin 4096) (d : Fin 64) :
    Read.val_main_v11 (F := Ideal) x2 x7 x8 (ix3 n s d) = ((AttnSpec.proj V Wv bv n s d : ℝ) : EReal) := by
  rw [Read.val_main_v11_apply, Read.val_main_v8_apply, Read.val_main_v10_apply, Read.val_main_v9_apply, idx_v9_v10]
  simp only [lidx_v8, ridx_v8]
  exact proj_real V Wv bv x2 x7 x8 h2 h7 h8 n s d

theorem lidx_v12 (n : Fin 4) (s t : Fin 4096) (k : Fin 64) : Read.lidx_main_v12 (ix3 n s t) k = ix3 n s k :=
  funext fun a => by match a with | ⟨0, _⟩ => rfl | ⟨1, _⟩ => rfl | ⟨2, _⟩ => rfl
theorem ridx_v12 (n : Fin 4) (s t : Fin 4096) (k : Fin 64) : Read.ridx_main_v12 (ix3 n s t) k = ix3 n t k :=
  funext fun a => by match a with | ⟨0, _⟩ => rfl | ⟨1, _⟩ => rfl | ⟨2, _⟩ => rfl

/-- The divisor: the square root of the constant 64, which is 8, at every index. -/
theorem v14_real (i : S4x4096x4096.Idx) : Read.val_main_v14 (F := Ideal) i = ((8 : ℝ) : EReal) := by
  rw [Read.val_main_v14_apply, Read.val_main_v13_apply, Read.val_main_cst_apply, Ideal.ofBits_def,
    Ideal.hostUnary_sqrt_def, ofBits_sixtyfour, sqrt_sixtyfour]

/-- Stage 15: a scaled score is the specification's score. -/
theorem v15_real (Q : Fin 4 → Fin 4096 → Fin 1024 → ℝ) (Wq : Fin 1024 → Fin 64 → ℝ) (bq : Fin 64 → ℝ) (K : Fin 4 → Fin 4096 → Fin 1024 → ℝ) (Wk : Fin 1024 → Fin 64 → ℝ) (bk : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (n : Fin 4) (s t : Fin 4096) :
    Read.val_main_v15 (F := Ideal) x0 x1 x3 x4 x5 x6 (ix3 n s t) = ((AttnSpec.score (AttnSpec.proj Q Wq bq) (AttnSpec.proj K Wk bk) n s t : ℝ) : EReal) := by
  rw [Read.val_main_v15_apply, Read.val_main_v12_apply, v14_real, Ideal.hostDivf_def,
    sum_mul_real _ _ (fun k => AttnSpec.proj Q Wq bq n s k) (fun k => AttnSpec.proj K Wk bk n t k)
      (fun k => by rw [lidx_v12]; exact v3_real Q Wq bq x0 x3 x4 h0 h3 h4 n s k)
      (fun k => by rw [ridx_v12]; exact v7_real K Wk bk x1 x5 x6 h1 h5 h6 n t k),
    div_real _ (by norm_num : (8 : ℝ) ≠ 0)]
  rfl

/-- Every scaled score is a real number. -/
theorem v15_isReal (Q : Fin 4 → Fin 4096 → Fin 1024 → ℝ) (Wq : Fin 1024 → Fin 64 → ℝ) (bq : Fin 64 → ℝ) (K : Fin 4 → Fin 4096 → Fin 1024 → ℝ) (Wk : Fin 1024 → Fin 64 → ℝ) (bk : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (i : S4x4096x4096.Idx) : ∃ r : ℝ, Read.val_main_v15 (F := Ideal) x0 x1 x3 x4 x5 x6 i = (r : EReal) := by
  obtain ⟨n, s, t, rfl⟩ : ∃ (n : Fin 4) (s : Fin 4096) (t : Fin 4096), i = ix3 n s t := ⟨i 0, i 1, i 2, eq_ix3 i⟩
  exact ⟨_, v15_real Q Wq bq K Wk bk x0 x3 x4 x1 x5 x6 h0 h3 h4 h1 h5 h6 n s t⟩

/-- Stage 18: the row maximum (the fold of the maximum from minus infinity over the row's 4096 scores, then the maximum
    with minus infinity once more) is some real number. -/
theorem v18_real (Q : Fin 4 → Fin 4096 → Fin 1024 → ℝ) (Wq : Fin 1024 → Fin 64 → ℝ) (bq : Fin 64 → ℝ) (K : Fin 4 → Fin 4096 → Fin 1024 → ℝ) (Wk : Fin 1024 → Fin 64 → ℝ) (bk : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (n : Fin 4) (s : Fin 4096) :
    ∃ M : ℝ, Read.val_main_v18 (F := Ideal) x0 x1 x3 x4 x5 x6 (ix2 n s) = (M : EReal) := by
  have hy := v15_isReal Q Wq bq K Wk bk x0 x3 x4 x1 x5 x6 h0 h3 h4 h1 h5 h6
  rw [Read.val_main_v18_apply, Read.val_main_v17_apply, Read.val_main_cst_1_apply]
  unfold Read.val_main_v16
  generalize Read.val_main_v15 (F := Ideal) x0 x1 x3 x4 x5 x6 = y at hy ⊢
  have hR : S4x4096x4096.Reduces [2] S4x4096 := by decide
  rw [Host.reduce_eq_fold_single (FloatOps.maximumf (F := Ideal) (φ := .f32)) y _ _ hR _ (ix2 n s)]
  have hinit : Read.val_main_cst_0 (F := Ideal) (Shape.Idx.first h_S_) = (⊥ : EReal) :=
    (Read.val_main_cst_0_apply _).trans ((Ideal.ofBits_def _).trans ofBits_neg_inf)
  obtain ⟨M, hM⟩ := fold_max_real (FloatOps.maximumf (F := Ideal) (φ := .f32)) (fun _ _ => rfl) Finset.univ
    ⟨(⟨0, by decide⟩ : Fin (S4x4096x4096.size 2)), Finset.mem_univ _⟩ (y ∘ hR.lift (ix2 n s)) (fun k => hy _)
  refine ⟨M, ?_⟩
  rw [hinit, hM, Ideal.ofBits_def, ofBits_neg_inf, Ideal.maximumf_def, max_eq_right bot_le]

theorem idx_v19_v20 (n : Fin 4) (s t : Fin 4096) : Read.idx_main_v19 (Read.idx_main_v20 (ix3 n s t)) = ix2 n s :=
  funext fun a => by match a with | ⟨0, _⟩ => rfl | ⟨1, _⟩ => rfl

/-- Stage 22: the exponential of a score minus its row's maximum. -/
theorem v22_real (Q : Fin 4 → Fin 4096 → Fin 1024 → ℝ) (Wq : Fin 1024 → Fin 64 → ℝ) (bq : Fin 64 → ℝ) (K : Fin 4 → Fin 4096 → Fin 1024 → ℝ) (Wk : Fin 1024 → Fin 64 → ℝ) (bk : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (n : Fin 4) (s t : Fin 4096) (M : ℝ) (hM : Read.val_main_v18 (F := Ideal) x0 x1 x3 x4 x5 x6 (ix2 n s) = (M : EReal)) :
    Read.val_main_v22 (F := Ideal) x0 x1 x3 x4 x5 x6 (ix3 n s t) = ((Real.exp (AttnSpec.score (AttnSpec.proj Q Wq bq) (AttnSpec.proj K Wk bk) n s t - M) : ℝ) : EReal) := by
  rw [Read.val_main_v22_apply, Read.val_main_v21_apply, Read.val_main_v20_apply, Read.val_main_v19_apply, idx_v19_v20, hM,
    v15_real Q Wq bq K Wk bk x0 x3 x4 x1 x5 x6 h0 h3 h4 h1 h5 h6 n s t, Ideal.subf_def, ← EReal.coe_sub, Ideal.hostUnary_exp_def, Ideal.exp_coe]

theorem idx_v23 (n : Fin 4) (s k : Fin 4096) : Read.idx_main_v23 (ix2 n s) k = ix3 n s k :=
  funext fun a => by match a with | ⟨0, _⟩ => rfl | ⟨1, _⟩ => rfl | ⟨2, _⟩ => rfl

/-- Stage 23: the row total of the shifted exponentials (added to the initial value zero). -/
theorem v23_real (Q : Fin 4 → Fin 4096 → Fin 1024 → ℝ) (Wq : Fin 1024 → Fin 64 → ℝ) (bq : Fin 64 → ℝ) (K : Fin 4 → Fin 4096 → Fin 1024 → ℝ) (Wk : Fin 1024 → Fin 64 → ℝ) (bk : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (n : Fin 4) (s : Fin 4096) (M : ℝ) (hM : Read.val_main_v18 (F := Ideal) x0 x1 x3 x4 x5 x6 (ix2 n s) = (M : EReal)) :
    Read.val_main_v23 (F := Ideal) x0 x1 x3 x4 x5 x6 (ix2 n s)
      = ((∑ u : Fin 4096, Real.exp (AttnSpec.score (AttnSpec.proj Q Wq bq) (AttnSpec.proj K Wk bk) n s u - M) : ℝ) : EReal) := by
  rw [Read.val_main_v23_apply, Read.val_main_cst_2_apply, Ideal.ofBits_def, Ideal.ofBits_zero_f32, zero_add]
  exact sum_real _ (fun u => Real.exp (AttnSpec.score (AttnSpec.proj Q Wq bq) (AttnSpec.proj K Wk bk) n s u - M))
    (fun u => by rw [idx_v23]; exact v22_real Q Wq bq K Wk bk x0 x3 x4 x1 x5 x6 h0 h3 h4 h1 h5 h6 n s u M hM)

theorem idx_v24_v25 (n : Fin 4) (s t : Fin 4096) : Read.idx_main_v24 (Read.idx_main_v25 (ix3 n s t)) = ix2 n s :=
  funext fun a => by match a with | ⟨0, _⟩ => rfl | ⟨1, _⟩ => rfl

/-- Stage 26: a softmax weight, written with the shift. The row total is a sum of positive reals over a non-empty row,
    hence not zero. -/
theorem v26_real (Q : Fin 4 → Fin 4096 → Fin 1024 → ℝ) (Wq : Fin 1024 → Fin 64 → ℝ) (bq : Fin 64 → ℝ) (K : Fin 4 → Fin 4096 → Fin 1024 → ℝ) (Wk : Fin 1024 → Fin 64 → ℝ) (bk : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (n : Fin 4) (s t : Fin 4096) (M : ℝ) (hM : Read.val_main_v18 (F := Ideal) x0 x1 x3 x4 x5 x6 (ix2 n s) = (M : EReal)) :
    Read.val_main_v26 (F := Ideal) x0 x1 x3 x4 x5 x6 (ix3 n s t)
      = ((Real.exp (AttnSpec.score (AttnSpec.proj Q Wq bq) (AttnSpec.proj K Wk bk) n s t - M) / ∑ u : Fin 4096, Real.exp (AttnSpec.score (AttnSpec.proj Q Wq bq) (AttnSpec.proj K Wk bk) n s u - M) : ℝ) : EReal) := by
  have hpos : (0 : ℝ) < ∑ u : Fin 4096, Real.exp (AttnSpec.score (AttnSpec.proj Q Wq bq) (AttnSpec.proj K Wk bk) n s u - M) :=
    Finset.sum_pos (fun u _ => Real.exp_pos _) ⟨0, Finset.mem_univ _⟩
  rw [Read.val_main_v26_apply, Read.val_main_v25_apply, Read.val_main_v24_apply, idx_v24_v25,
    v22_real Q Wq bq K Wk bk x0 x3 x4 x1 x5 x6 h0 h3 h4 h1 h5 h6 n s t M hM, v23_real Q Wq bq K Wk bk x0 x3 x4 x1 x5 x6 h0 h3 h4 h1 h5 h6 n s M hM, Ideal.hostDivf_def, div_real _ hpos.ne']

theorem lidx_v27 (n : Fin 4) (s : Fin 4096) (d : Fin 64) (k : Fin 4096) : Read.lidx_main_v27 (ix3 n s d) k = ix3 n s k :=
  funext fun a => by match a with | ⟨0, _⟩ => rfl | ⟨1, _⟩ => rfl | ⟨2, _⟩ => rfl
theorem ridx_v27 (n : Fin 4) (s : Fin 4096) (d : Fin 64) (k : Fin 4096) : Read.ridx_main_v27 (ix3 n s d) k = ix3 n k d :=
  funext fun a => by match a with | ⟨0, _⟩ => rfl | ⟨1, _⟩ => rfl | ⟨2, _⟩ => rfl

/-- Stage 27, the result: the weights times the projected value rows, summed over the row; the shift leaves by the
    two-pass identity, whatever real number the row maximum is. -/
theorem v27_real (Q : Fin 4 → Fin 4096 → Fin 1024 → ℝ) (Wq : Fin 1024 → Fin 64 → ℝ) (bq : Fin 64 → ℝ) (K : Fin 4 → Fin 4096 → Fin 1024 → ℝ) (Wk : Fin 1024 → Fin 64 → ℝ) (bk : Fin 64 → ℝ) (V : Fin 4 → Fin 4096 → Fin 1024 → ℝ) (Wv : Fin 1024 → Fin 64 → ℝ) (bv : Fin 64 → ℝ)
    (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (x2 : (⟨S4x4096x1024, .f32⟩ : BufTy).Contents (Elt Ideal)) (x7 : (⟨S1024x64, .f32⟩ : BufTy).Contents (Elt Ideal)) (x8 : (⟨S64, .f32⟩ : BufTy).Contents (Elt Ideal))
    (h0 : ∀ n s k, x0 (ix3 n s k) = ((Q n s k : ℝ) : EReal)) (h3 : ∀ k d, x3 (ix2 k d) = ((Wq k d : ℝ) : EReal)) (h4 : ∀ d, x4 (ix1 d) = ((bq d : ℝ) : EReal))
    (h1 : ∀ n s k, x1 (ix3 n s k) = ((K n s k : ℝ) : EReal)) (h5 : ∀ k d, x5 (ix2 k d) = ((Wk k d : ℝ) : EReal)) (h6 : ∀ d, x6 (ix1 d) = ((bk d : ℝ) : EReal))
    (h2 : ∀ n s k, x2 (ix3 n s k) = ((V n s k : ℝ) : EReal)) (h7 : ∀ k d, x7 (ix2 k d) = ((Wv k d : ℝ) : EReal)) (h8 : ∀ d, x8 (ix1 d) = ((bv d : ℝ) : EReal))
    (n : Fin 4) (s : Fin 4096) (d : Fin 64) :
    Read.val_main_v27 (F := Ideal) x0 x1 x2 x3 x4 x5 x6 x7 x8 (ix3 n s d)
      = ((AttnSpec.head Q K V Wq bq Wk bk Wv bv n s d : ℝ) : EReal) := by
  obtain ⟨M, hM⟩ := v18_real Q Wq bq K Wk bk x0 x3 x4 x1 x5 x6 h0 h3 h4 h1 h5 h6 n s
  rw [Read.val_main_v27_apply,
    sum_mul_real _ _ (fun t => Real.exp (AttnSpec.score (AttnSpec.proj Q Wq bq) (AttnSpec.proj K Wk bk) n s t - M) / ∑ u : Fin 4096, Real.exp (AttnSpec.score (AttnSpec.proj Q Wq bq) (AttnSpec.proj K Wk bk) n s u - M))
      (fun t => AttnSpec.proj V Wv bv n t d)
      (fun t => by rw [lidx_v27]; exact v26_real Q Wq bq K Wk bk x0 x3 x4 x1 x5 x6 h0 h3 h4 h1 h5 h6 n s t M hM)
      (fun t => by rw [ridx_v27]; exact v11_real V Wv bv x2 x7 x8 h2 h7 h8 n t d),
    OnlineSoftmax.two_pass (fun t => AttnSpec.score (AttnSpec.proj Q Wq bq) (AttnSpec.proj K Wk bk) n s t) (fun t => AttnSpec.proj V Wv bv n t d) M]
  rfl

end Stages

/-! ## The result of the run -/

section Result

open Cert.ReferenceIdeal Cert.ReferenceIdeal.Gen Idealize.ShloMosaic.TcCoe Idealize.SL.Sem Idealize.ShloMosaic.StableHlo

/-- When every argument entry is a real number, every entry of the reference's result is the real number the
    specification gives. -/
theorem ref_eq (m' : (ℓ : Loc nD τ sig) → Buf (Elt Ideal) ℓ) (c : Dev nD)
    (Q K V : Fin 4 → Fin 4096 → Fin 1024 → ℝ) (Wq Wk Wv : Fin 1024 → Fin 64 → ℝ) (bq bk bv : Fin 64 → ℝ)
    (h0 : ∀ n s k, m' ((c.tc : Thread nD τ).loc main_arg0) (ix3 n s k) = ((Q n s k : ℝ) : EReal))
    (h1 : ∀ n s k, m' ((c.tc : Thread nD τ).loc main_arg1) (ix3 n s k) = ((K n s k : ℝ) : EReal))
    (h2 : ∀ n s k, m' ((c.tc : Thread nD τ).loc main_arg2) (ix3 n s k) = ((V n s k : ℝ) : EReal))
    (h3 : ∀ k d, m' ((c.tc : Thread nD τ).loc main_arg3) (ix2 k d) = ((Wq k d : ℝ) : EReal))
    (h4 : ∀ d, m' ((c.tc : Thread nD τ).loc main_arg4) (ix1 d) = ((bq d : ℝ) : EReal))
    (h5 : ∀ k d, m' ((c.tc : Thread nD τ).loc main_arg5) (ix2 k d) = ((Wk k d : ℝ) : EReal))
    (h6 : ∀ d, m' ((c.tc : Thread nD τ).loc main_arg6) (ix1 d) = ((bk d : ℝ) : EReal))
    (h7 : ∀ k d, m' ((c.tc : Thread nD τ).loc main_arg7) (ix2 k d) = ((Wv k d : ℝ) : EReal))
    (h8 : ∀ d, m' ((c.tc : Thread nD τ).loc main_arg8) (ix1 d) = ((bv d : ℝ) : EReal)) :
    ∀ (n : Fin 4) (s : Fin 4096) (d : Fin 64),
      Cert.ReferenceIdeal.Value.res_out0 (F := Ideal) m' c (ix3 n s d)
        = ((AttnSpec.head Q K V Wq bq Wk bk Wv bv n s d : ℝ) : EReal) := by
  intro n s d
  show Cert.ReferenceIdeal.Value.res_main_v27 (F := Ideal) m' c (ix3 n s d) = _
  rw [Read.val_main_v27_eq]
  exact v27_real Q Wq bq K Wk bk V Wv bv _ _ _ _ _ _ _ _ _ h0 h3 h4 h1 h5 h6 h2 h7 h8 n s d

end Result

end Cert.ReferenceIdeal.RefValue

end
-- ==== Proof.Finite.lean ====
/-
  The precondition "every float input is finite", decoded: the printed predicate is the conjunction of nine
  statements "all entries of |x| are below +infinity", one per argument array, and it is all ones. An extended
  real whose absolute value max x (-x) is below +infinity is neither -infinity nor +infinity, hence a real number.
  So every entry of every argument array is the image of a real, and the arrays are given by real-valued
  functions of their coordinates.
-/
import proofs.«122791_j2284922601686_2_alg».proof.Defs
import proofs.«122791_j2284922601686_2_alg».proof.Proof.Gen.Pre_finite_inputs
import Idealize.ShloMosaic.Lib.ReduceAll
import Idealize.ShloMosaic.Lib.ValueIdx

noncomputable section

namespace Cert.Proof.Finite

open Idealize.ShloMosaic Idealize.ShloMosaic.ValueIdx Idealize.SL.Sem

/-- The scalar shape has one index. -/
instance : Subsingleton Cert.Pre_finite_inputs.S_.Idx := ⟨fun a b => funext fun d => d.elim0⟩

/-- An extended real whose absolute value is below +infinity (the f32 pattern 0x7F800000) is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- One conjunct of the predicate, for an array of any shape: if the reduction by "and" over all axes of
    the comparisons |x i| < +infinity is one, every entry of x is a real. -/
theorem reals_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) hr hu ix0 = 1#1) (i : s.Idx) :
    ∃ r : ℝ, x i = (r : EReal) :=
  real_of_abs_lt_inf (x i) (Host.reduce_andi_all _ _ hr hu ix0 e i)

/-- The precondition decoded: on every device, each of the nine argument arrays is the image of a real-valued
    function of its coordinates. -/
theorem reals_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (Q K V : Fin 4 → Fin 4096 → Fin 1024 → ℝ) (Wq Wk Wv : Fin 1024 → Fin 64 → ℝ) (bq bk bv : Fin 64 → ℝ),
      (∀ n s k, m ((c.tc : Thread Cert.KernelIdeal.nD Cert.KernelIdeal.τ).loc Cert.KernelIdeal.main_arg0) (ix3 n s k) = ((Q n s k : ℝ) : EReal))
      ∧ (∀ n s k, m ((c.tc : Thread Cert.KernelIdeal.nD Cert.KernelIdeal.τ).loc Cert.KernelIdeal.main_arg1) (ix3 n s k) = ((K n s k : ℝ) : EReal))
      ∧ (∀ n s k, m ((c.tc : Thread Cert.KernelIdeal.nD Cert.KernelIdeal.τ).loc Cert.KernelIdeal.main_arg2) (ix3 n s k) = ((V n s k : ℝ) : EReal))
      ∧ (∀ k d, m ((c.tc : Thread Cert.KernelIdeal.nD Cert.KernelIdeal.τ).loc Cert.KernelIdeal.main_arg3) (ix2 k d) = ((Wq k d : ℝ) : EReal))
      ∧ (∀ d, m ((c.tc : Thread Cert.KernelIdeal.nD Cert.KernelIdeal.τ).loc Cert.KernelIdeal.main_arg4) (ix1 d) = ((bq d : ℝ) : EReal))
      ∧ (∀ k d, m ((c.tc : Thread Cert.KernelIdeal.nD Cert.KernelIdeal.τ).loc Cert.KernelIdeal.main_arg5) (ix2 k d) = ((Wk k d : ℝ) : EReal))
      ∧ (∀ d, m ((c.tc : Thread Cert.KernelIdeal.nD Cert.KernelIdeal.τ).loc Cert.KernelIdeal.main_arg6) (ix1 d) = ((bk d : ℝ) : EReal))
      ∧ (∀ k d, m ((c.tc : Thread Cert.KernelIdeal.nD Cert.KernelIdeal.τ).loc Cert.KernelIdeal.main_arg7) (ix2 k d) = ((Wv k d : ℝ) : EReal))
      ∧ (∀ d, m ((c.tc : Thread Cert.KernelIdeal.nD Cert.KernelIdeal.τ).loc Cert.KernelIdeal.main_arg8) (ix1 d) = ((bv d : ℝ) : EReal)) := by
  -- the predicate's one entry, as the conjunction of the nine reductions
  have e := congrFun (h c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨h0, h1⟩, h2⟩, h3⟩, h4⟩, h5⟩, h6⟩, h7⟩, h8⟩ := e
  -- each reduction gives real witnesses at every index of its array
  choose Q hQ using reals_of_all _ _ _ _ h0
  choose K hK using reals_of_all _ _ _ _ h1
  choose V hV using reals_of_all _ _ _ _ h2
  choose Wq hWq using reals_of_all _ _ _ _ h3
  choose bq hbq using reals_of_all _ _ _ _ h4
  choose Wk hWk using reals_of_all _ _ _ _ h5
  choose bk hbk using reals_of_all _ _ _ _ h6
  choose Wv hWv using reals_of_all _ _ _ _ h7
  choose bv hbv using reals_of_all _ _ _ _ h8
  -- re-indexed by coordinates
  exact ⟨fun n s k => Q (ix3 n s k), fun n s k => K (ix3 n s k), fun n s k => V (ix3 n s k),
    fun k d => Wq (ix2 k d), fun k d => Wk (ix2 k d), fun k d => Wv (ix2 k d),
    fun d => bq (ix1 d), fun d => bk (ix1 d), fun d => bv (ix1 d),
    fun n s k => hQ (ix3 n s k), fun n s k => hK (ix3 n s k), fun n s k => hV (ix3 n s k),
    fun k d => hWq (ix2 k d), fun d => hbq (ix1 d), fun k d => hWk (ix2 k d), fun d => hbk (ix1 d),
    fun k d => hWv (ix2 k d), fun d => hbv (ix1 d)⟩

end Cert.Proof.Finite

end
-- ==== Proof.Alg.lean ====
/-
  The value claim.  On finite inputs every argument entry is a real number.  The kernel's result array then holds, index
  by index, the attention average of the three projected arrays (the first region computes the projections, the second
  the block-by-block average); the reference's result is the same real number; so both runs end with equal results.
-/
import proofs.«122791_j2284922601686_2_alg».proof.Defs
import proofs.«122791_j2284922601686_2_alg».proof.Proof.Gen.ReferenceIdeal.Run
import proofs.«122791_j2284922601686_2_alg».proof.Proof.Gen.ReferenceIdeal.Read
import proofs.«122791_j2284922601686_2_alg».proof.Proof.KI.Frame
import proofs.«122791_j2284922601686_2_alg».proof.Proof.KI.QkvValue
import proofs.«122791_j2284922601686_2_alg».proof.Proof.KI.AttnValue
import proofs.«122791_j2284922601686_2_alg».proof.Proof.RefValue
import proofs.«122791_j2284922601686_2_alg».proof.Proof.Finite

set_option maxRecDepth 16384

noncomputable section

namespace Cert.Proof.Alg

open Idealize.ShloMosaic Idealize.ShloMosaic.TcCoe Idealize.ShloMosaic.ValueIdx Idealize.SL.Sem
open Cert.KernelIdeal Cert.KernelIdeal.Gen Cert.KernelIdeal.Hand

/-- The kernel's result array after its run, on real inputs: the specification's head, index by index. -/
theorem kernel_value (m : (ℓ : Loc nD τ sig) → Buf (Elt Ideal) ℓ) (ρ : Dev nD → PrngReg) (c : Dev nD)
    (Q K V : Fin 4 → Fin 4096 → Fin 1024 → ℝ) (Wq Wk Wv : Fin 1024 → Fin 64 → ℝ) (bq bk bv : Fin 64 → ℝ)
    (h0 : ∀ n s k, m ((c.tc : Thread nD τ).loc main_arg0) (ix3 n s k) = ((Q n s k : ℝ) : EReal))
    (h1 : ∀ n s k, m ((c.tc : Thread nD τ).loc main_arg1) (ix3 n s k) = ((K n s k : ℝ) : EReal))
    (h2 : ∀ n s k, m ((c.tc : Thread nD τ).loc main_arg2) (ix3 n s k) = ((V n s k : ℝ) : EReal))
    (h3 : ∀ k d, m ((c.tc : Thread nD τ).loc main_arg3) (ix2 k d) = ((Wq k d : ℝ) : EReal))
    (h4 : ∀ d, m ((c.tc : Thread nD τ).loc main_arg4) (ix1 d) = ((bq d : ℝ) : EReal))
    (h5 : ∀ k d, m ((c.tc : Thread nD τ).loc main_arg5) (ix2 k d) = ((Wk k d : ℝ) : EReal))
    (h6 : ∀ d, m ((c.tc : Thread nD τ).loc main_arg6) (ix1 d) = ((bk d : ℝ) : EReal))
    (h7 : ∀ k d, m ((c.tc : Thread nD τ).loc main_arg7) (ix2 k d) = ((Wv k d : ℝ) : EReal))
    (h8 : ∀ d, m ((c.tc : Thread nD τ).loc main_arg8) (ix1 d) = ((bv d : ℝ) : EReal))
    (n : Fin 4) (s : Fin 4096) (d : Fin 64) :
    (W4 (F := Ideal) m ρ c (Proc.devRef .tc main_v10) : S4x4096x64.Idx → EReal) (ix3 n s d)
      = ((AttnSpec.head Q K V Wq bq Wk bk Wv bv n s d : ℝ) : EReal) := by
  have e := (W4_arr (F := Ideal) m ρ c 3).trans
    (attn_value (V3 (F := Ideal) m ρ) c (AttnSpec.proj Q Wq bq) (AttnSpec.proj K Wk bk) (AttnSpec.proj V Wv bv)
      (v7_value m ρ c Q Wq bq h0 h3 h4) (v8_value m ρ c K Wk bk h1 h5 h6) (v9_value m ρ c V Wv bv h2 h7 h8))
  exact (congrFun e (ix3 n s d)).trans rfl

theorem algebraic : Cert.algebraic_KernelIdeal_ReferenceIdeal := by
  intro m ρ m' ρ' hpre hagree
  refine ⟨fun c => W4 (F := Ideal) m ρ c (Proc.devRef .tc main_v10), ?_, ?_⟩
  · refine (θ_run Cert.KernelIdeal.defs _ _).mono (fun s h c => ?_) (run_all (F := Ideal) m ρ)
    exact ⟨h c _ (mem_uc main_v10 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩
  · refine (θ_run Cert.ReferenceIdeal.defs _ _).mono (fun s h c => ⟨(h c).1.trans ?_, (h c).2⟩)
      (Cert.ReferenceIdeal.Value.run (F := Ideal) m' ρ')
    obtain ⟨Q, K, V, Wq, Wk, Wv, bq, bk, bv, hQ, hK, hV, hWq, hbq, hWk, hbk, hWv, hbv⟩ := Cert.Proof.Finite.reals_of_pre m hpre c
    obtain ⟨a0, a1, a2, a3, a4, a5, a6, a7, a8⟩ := hagree c
    funext i
    obtain ⟨n, s, d, rfl⟩ : ∃ (n : Fin 4) (s : Fin 4096) (d : Fin 64), i = ix3 n s d := ⟨i 0, i 1, i 2, eq_ix3 i⟩
    refine (Cert.ReferenceIdeal.RefValue.ref_eq m' c Q K V Wq Wk Wv bq bk bv
      (fun n s k => by rw [a0]; exact hQ n s k) (fun n s k => by rw [a1]; exact hK n s k) (fun n s k => by rw [a2]; exact hV n s k)
      (fun k d => by rw [a3]; exact hWq k d) (fun d => by rw [a4]; exact hbq d)
      (fun k d => by rw [a5]; exact hWk k d) (fun d => by rw [a6]; exact hbk d)
      (fun k d => by rw [a7]; exact hWv k d) (fun d => by rw [a8]; exact hbv d) n s d).trans ?_
    exact (kernel_value m ρ c Q K V Wq Wk Wv bq bk bv hQ hK hV hWq hbq hWk hbk hWv hbv n s d).symm

end Cert.Proof.Alg

end
-- ==== Proof.lean ====
/-
  The certificate's five claims.  The kernel runs as two pipelined regions among reshapes: three linear projections, then
  attention computed one key block at a time with a running maximum, normaliser and accumulator.  The frames say both
  readings of the kernel terminate leaving the nine arguments unchanged (each region's body run at every grid point, the
  attention region's carried buffers tracked from point to point), and the reference's by its run.  The value claim: on
  finite inputs every entry is a real number; the reference's result is then the softmax-weighted average written with
  one shift per row, the kernel's the same average accumulated block by block under changing shifts; neither depends on
  the shifts, so both are the unshifted quotient (∑ exp s · v) / (∑ exp s) of the specification.
-/
import proofs.«122791_j2284922601686_2_alg».proof.Defs
import proofs.«122791_j2284922601686_2_alg».proof.Proof.Gen.Kernel
import proofs.«122791_j2284922601686_2_alg».proof.Proof.Gen.KernelIdeal
import proofs.«122791_j2284922601686_2_alg».proof.Proof.Gen.ReferenceIdeal
import proofs.«122791_j2284922601686_2_alg».proof.Proof.Gen.Pre_finite_inputs
import proofs.«122791_j2284922601686_2_alg».proof.Proof.Gen.ReferenceIdeal.Run
import proofs.«122791_j2284922601686_2_alg».proof.Proof.Gen.ReferenceIdeal.Read
import proofs.«122791_j2284922601686_2_alg».proof.Proof.K.Frame
import proofs.«122791_j2284922601686_2_alg».proof.Proof.KI.Frame
import proofs.«122791_j2284922601686_2_alg».proof.Proof.Alg

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
